-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S3x128x128 .f32) (main_arg6 : FVec F S3x128 .f32) (main_arg7 : FVec F S128x2 .f32) (main_arg8 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x1 .f32) (main_arg3 : FVec F S128x128 .f32) (main_arg4 : FVec F S128 .f32) (main_arg5 : FVec F S3x128x128 .f32) (main_arg6 : FVec F S3x128 .f32) (main_arg7 : FVec F S128x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128 : Shape := ⟨2, ![1, 128]⟩
abbrev S1x128x128 : Shape := ⟨3, ![1, 128, 128]⟩
abbrev S50000x2 : Shape := ⟨2, ![50000, 2]⟩
abbrev S1x2 : Shape := ⟨2, ![1, 2]⟩

abbrev nBuf : Space → Nat
  | .hbm => 128
  | .vmem => 62
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S3x128x128, .f32⟩
  | .hbm, ⟨6, _⟩ => ⟨S3x128, .f32⟩
  | .hbm, ⟨7, _⟩ => ⟨S128x2, .f32⟩
  | .hbm, ⟨8, _⟩ => ⟨S2, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S128x128, .bf16⟩
  | .hbm, ⟨35, _⟩ => ⟨S50000x128, .bf16⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000x128, .bf16⟩
  | .hbm, ⟨45, _⟩ => ⟨S850000x128, .f32⟩
  | .hbm, ⟨46, _⟩ => ⟨S_, .f32⟩
  | .hbm, ⟨47, _⟩ => ⟨S50000x128, .f32⟩
  | .hbm, ⟨48, _⟩ => ⟨S850000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S128x128, .bf16⟩
  | .hbm, ⟨55, _⟩ => ⟨S1x128, .f32⟩
  | .hbm, ⟨56, _⟩ => ⟨S128, .f32⟩
  | .hbm, ⟨57, _⟩ => ⟨S50000x128, .bf16⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .bf16⟩
  | .hbm, ⟨67, _⟩ => ⟨S850000x128, .f32⟩
  | .hbm, ⟨68, _⟩ => ⟨S_, .f32⟩
  | .hbm, ⟨69, _⟩ => ⟨S50000x128, .f32⟩
  | .hbm, ⟨70, _⟩ => ⟨S850000x1, .i32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S128x128, .bf16⟩
  | .hbm, ⟨77, _⟩ => ⟨S1x128, .f32⟩
  | .hbm, ⟨78, _⟩ => ⟨S128, .f32⟩
  | .hbm, ⟨79, _⟩ => ⟨S50000x128, .bf16⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .bf16⟩
  | .hbm, ⟨89, _⟩ => ⟨S850000x128, .f32⟩
  | .hbm, ⟨90, _⟩ => ⟨S_, .f32⟩
  | .hbm, ⟨91, _⟩ => ⟨S50000x128, .f32⟩
  | .hbm, ⟨92, _⟩ => ⟨S850000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S1x128x128, .f32⟩
  | .hbm, ⟨97, _⟩ => ⟨S128x128, .f32⟩
  | .hbm, ⟨98, _⟩ => ⟨S128x128, .bf16⟩
  | .hbm, ⟨99, _⟩ => ⟨S1x128, .f32⟩
  | .hbm, ⟨100, _⟩ => ⟨S128, .f32⟩
  | .hbm, ⟨101, _⟩ => ⟨S50000x128, .bf16⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x128, .bf16⟩
  | .hbm, ⟨111, _⟩ => ⟨S850000x128, .f32⟩
  | .hbm, ⟨112, _⟩ => ⟨S_, .f32⟩
  | .hbm, ⟨113, _⟩ => ⟨S50000x128, .f32⟩
  | .hbm, ⟨114, _⟩ => ⟨S850000x1, .i32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x2, .f32⟩
  | .hbm, ⟨119, _⟩ => ⟨S1x2, .f32⟩
  | .hbm, ⟨120, _⟩ => ⟨S50000x2, .f32⟩
  | .hbm, ⟨121, _⟩ => ⟨S50000x2, .f32⟩
  | .hbm, ⟨122, _⟩ => ⟨S_, .f32⟩
  | .hbm, ⟨123, _⟩ => ⟨S2, .f32⟩
  | .hbm, ⟨124, _⟩ => ⟨S1x2, .f32⟩
  | .hbm, ⟨125, _⟩ => ⟨S_, .f32⟩
  | .hbm, ⟨126, _⟩ => ⟨S1x2, .f32⟩
  | .hbm, ⟨127, _⟩ => ⟨S1x2, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .bf16⟩
  | .local _ .vmem, ⟨17, _⟩ => ⟨S2000x1, .f32⟩
  | .local _ .vmem, ⟨18, _⟩ => ⟨S2000x1, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .bf16⟩
  | .local _ .vmem, ⟨33, _⟩ => ⟨S2000x1, .f32⟩
  | .local _ .vmem, ⟨34, _⟩ => ⟨S2000x1, .f32⟩
  | .local _ .vmem, ⟨35, _⟩ => ⟨S2000x128, .bf16⟩
  | .local _ .vmem, ⟨36, _⟩ => ⟨S2000x128, .bf16⟩
  | .local _ .vmem, ⟨37, _⟩ => ⟨S2000x128, .f32⟩
  | .local _ .vmem, ⟨38, _⟩ => ⟨S2000x128, .f32⟩
  | .local _ .vmem, ⟨39, _⟩ => ⟨S2000x1, .f32⟩
  | .local _ .vmem, ⟨40, _⟩ => ⟨S2000x1, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .bf16⟩
  | .local _ .vmem, ⟨49, _⟩ => ⟨S2000x1, .f32⟩
  | .local _ .vmem, ⟨50, _⟩ => ⟨S2000x1, .f32⟩
  | .local _ .vmem, ⟨51, _⟩ => ⟨S2000x128, .bf16⟩
  | .local _ .vmem, ⟨52, _⟩ => ⟨S2000x128, .bf16⟩
  | .local _ .vmem, ⟨53, _⟩ => ⟨S2000x128, .f32⟩
  | .local _ .vmem, ⟨54, _⟩ => ⟨S2000x128, .f32⟩
  | .local _ .vmem, ⟨55, _⟩ => ⟨S2000x1, .f32⟩
  | .local _ .vmem, ⟨56, _⟩ => ⟨S2000x1, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_6 : Ref sig .tc := ⟨.hbm, 58, rfl⟩
abbrev main_v39 : Ref sig .tc := ⟨.hbm, 59, rfl⟩
abbrev main_v40 : Ref sig .tc := ⟨.hbm, 60, rfl⟩
abbrev main_c_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_12 : Ref sig .tc := ⟨.hbm, 102, rfl⟩
abbrev main_v77 : Ref sig .tc := ⟨.hbm, 103, rfl⟩
abbrev main_v78 : Ref sig .tc := ⟨.hbm, 104, rfl⟩
abbrev main_c_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_cst_16 : Ref sig .tc := ⟨.hbm, 125, rfl⟩
abbrev main_v96 : Ref sig .tc := ⟨.hbm, 126, rfl⟩
abbrev main_v97 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc6_stg3_0 : Ref sig .tc := ⟨.vmem, 51, rfl⟩
abbrev cc6_stg3_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc7_stg4_0 : Ref sig .tc := ⟨.vmem, 60, rfl⟩
abbrev cc7_stg4_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem3_1 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc6_sem3_0 : DmaSem sig := 51
abbrev cc6_sem3_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem3_0 : DmaSem sig := 58
abbrev cc7_sem3_1 : DmaSem sig := 59
abbrev cc7_sem4_0 : DmaSem sig := 60
abbrev cc7_sem4_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S2000x128_S2000x128 : S2000x128.ShapeCasts S2000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S2_d0 : S50000x2.ReducesTo [0] S2
  h_S_ : 0 < S_.numel
  bcast_S_S1x2 : S_.BroadcastsInDim S1x2 (![] : Fin 0 → Fin S1x2.rank)
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .bf16 = 32 ∨ (Rect.block (s := S128x128) S128x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .bf16 = 32 ∨ (Rect.block (s := S50000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .bf16 = 32 ∨ (Rect.block (s := S128x128) S128x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .bf16 = 32 ∨ (Rect.block (s := S50000x128) S2000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .f32 = 32 ∨ (Rect.block (s := S50000x128) S2000x128.size (cc7_transform_4 i) (hinb7_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v51) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v51) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v17) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v57) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v70) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v70) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v73) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v17) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v76) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v87) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v17) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v88) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v70) S2000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v89) S2000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x128x128 : Shape := ⟨3, ![1, 128, 128]⟩
abbrev S50000x2 : Shape := ⟨2, ![50000, 2]⟩
abbrev S1x2 : Shape := ⟨2, ![1, 2]⟩

abbrev nBuf : Space → Nat
  | .hbm => 169
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S128x128, .f32⟩
  | 4 => ⟨S128, .f32⟩
  | 5 => ⟨S3x128x128, .f32⟩
  | 6 => ⟨S3x128, .f32⟩
  | 7 => ⟨S128x2, .f32⟩
  | 8 => ⟨S2, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S1x128x128, .f32⟩
  | 76 => ⟨S128x128, .f32⟩
  | 77 => ⟨S1x128, .f32⟩
  | 78 => ⟨S128, .f32⟩
  | 79 => ⟨S50000x128, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x128, .f32⟩
  | 89 => ⟨S850000x1, .f32⟩
  | 90 => ⟨S850000x128, .f32⟩
  | 91 => ⟨S850000x128, .f32⟩
  | 92 => ⟨S_, .f32⟩
  | 93 => ⟨S50000x128, .f32⟩
  | 94 => ⟨S850000x1, .i32⟩
  | 95 => ⟨S50000x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S1x128x128, .f32⟩
  | 104 => ⟨S128x128, .f32⟩
  | 105 => ⟨S1x128, .f32⟩
  | 106 => ⟨S128, .f32⟩
  | 107 => ⟨S50000x128, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S1x128x128, .f32⟩
  | 4 => ⟨S128x128, .f32⟩
  | 5 => ⟨S1x128, .f32⟩
  | 6 => ⟨S128, .f32⟩
  | 7 => ⟨S50000x128, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x1, .f32⟩
  | 18 => ⟨S850000x128, .f32⟩
  | 19 => ⟨S850000x128, .f32⟩
  | 20 => ⟨S_, .f32⟩
  | 21 => ⟨S50000x128, .f32⟩
  | 22 => ⟨S850000x1, .i32⟩
  | 23 => ⟨S50000x128, .f32⟩
  | 24 => ⟨S1x128, .f32⟩
  | 25 => ⟨S50000x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x2, .f32⟩
  | 32 => ⟨S1x2, .f32⟩
  | 33 => ⟨S50000x2, .f32⟩
  | 34 => ⟨S50000x2, .f32⟩
  | 35 => ⟨S_, .f32⟩
  | 36 => ⟨S2, .f32⟩
  | 37 => ⟨S1x2, .f32⟩
  | 38 => ⟨S_, .f32⟩
  | 39 => ⟨S1x2, .f32⟩
  | 40 => ⟨S1x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call2_cst : Ref sig .tc := ⟨.hbm, 100, rfl⟩
abbrev main_call2_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_13 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_call3_cst : Ref sig .tc := ⟨.hbm, 128, rfl⟩
abbrev main_call3_v0 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_16 : Ref sig .tc := ⟨.hbm, 136, rfl⟩
abbrev main_v101 : Ref sig .tc := ⟨.hbm, 137, rfl⟩
abbrev main_v102 : Ref sig .tc := ⟨.hbm, 138, rfl⟩
abbrev main_c_17 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_cst_18 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_call4_cst : Ref sig .tc := ⟨.hbm, 156, rfl⟩
abbrev main_call4_v0 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_cst_19 : Ref sig .tc := ⟨.hbm, 163, rfl⟩
abbrev main_v123 : Ref sig .tc := ⟨.hbm, 164, rfl⟩
abbrev main_v124 : Ref sig .tc := ⟨.hbm, 165, rfl⟩
abbrev main_cst_20 : Ref sig .tc := ⟨.hbm, 166, rfl⟩
abbrev main_v125 : Ref sig .tc := ⟨.hbm, 167, rfl⟩
abbrev main_v126 : Ref sig .tc := ⟨.hbm, 168, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S2_d0 : S50000x2.ReducesTo [0] S2
  h_S_ : 0 < S_.numel
  bcast_S_S1x2 : S_.BroadcastsInDim S1x2 (![] : Fin 0 → Fin S1x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The idealized kernel program's run with its result buffer named.

  Every weakly fair execution of the program from a memory with zero counters terminates without a fault; in the final
  state the result buffer holds what the last boundary's contents hold there — the fold of the host stretches and of the
  eight launches' write-backs over the launch memory — and the nine argument arrays are as launched. The final state is
  read against the last thread state, which holds every unscoped buffer at that boundary's contents; the arguments are
  traced back through the fold to the launch memory, the result buffer is kept as the fold's value for the value proof.
-/
import proofs.«143480_j89300960018655_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments unchanged. -/
theorem run_result : θ_run defs (onTc (τ := τ) (main (F := F))) ⟨m, fun _ => 0, ρ⟩ (fun r => ∀ c : Dev nD,
      r.2.mem ((c.tc : Thread nD τ).loc main_v97) = W19 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v97 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c)⟩)

end Cert.KernelIdeal.Run

end
-- ==== Proof.LibTRef.lean ====
/-
  Typed references: writing through one and reading back.

  A typed reference is a buffer together with the fact that the buffer's type is a given one; contents at the given type are
  carried to contents of the buffer, and back, along that fact. For any typed reference the round trip is the identity,
  in both orders: the fact is an equation between two types, and along an equation of a type with itself carrying is the
  identity.
-/
import Idealize.ShloMosaic.Lib.StableHlo

namespace Cert.LibTRef

open Idealize.ShloMosaic Idealize.ShloMosaic.StableHlo

variable {sig : RefSig} {Val : EltTy → Type} {T : BufTy}

/-- Carrying contents along an equation of types and back along the same equation is the identity. -/
theorem cast_cast_symm {α β : Type} (h : α = β) (h' : β = α) (v : α) : cast h' (cast h v) = v := by
  subst h; rfl

/-- Contents written through a typed reference read back through it unchanged. -/
theorem ofBuf_toBuf (x : TRef sig T) (v : T.Contents Val) : x.ofBuf (x.toBuf v) = v :=
  cast_cast_symm _ _ v

/-- A buffer's contents read through a typed reference write back through it unchanged. -/
theorem toBuf_ofBuf (x : TRef sig T) (u : x.ref.ty.Contents Val) : x.toBuf (x.ofBuf u) = u :=
  cast_cast_symm _ _ u

end Cert.LibTRef
-- ==== Proof.Stages.lean ====
/-
  The host side of the idealized kernel program, stage by stage, as functions of what each stretch of host
  operations finds in the buffers.

  `rowIds`, `colIds`: the edge list's two rows, each followed by the node numbers 0 … 49999 (one self loop per node).
  `degree`: ones added up per target node; `scale`: 1/sqrt of the degree floored at a tiny positive constant, where the
  degree is positive, else zero; `scaleCol`: the same as a column. `aggregate`: the rows of a table picked at the
  (sign-wrapped) source numbers and added up per target node. `biasRow`, `weightOf`, `biasOf`: a bias vector as one
  row, matrix `i` of the stacked weights, vector `i` of the stacked biases. `meanHead`: the final dense map, the sum
  over the nodes and the division by their count.
  Each lemma below reads one stretch: from ANY contents `V` of the buffers, after the stretch's operations the named
  buffer holds the stage of what `V` holds in the stretch's operands, and a buffer the stretch does not write holds
  what `V` holds.
-/
import proofs.«143480_j89300960018655_2_alg».proof.Proof.Gen.KernelIdeal.Launch
import proofs.«143480_j89300960018655_2_alg».proof.Proof.LibTRef
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

variable {F : FTy → Type} [FloatOps F]

def rowIds (x1 : (⟨S2x800000, .i32⟩ : BufTy).Contents (Elt F)) : (⟨S850000, .i32⟩ : BufTy).Contents (Elt F) :=
  concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0

def colIds (x1 : (⟨S2x800000, .i32⟩ : BufTy).Contents (Elt F)) : (⟨S850000, .i32⟩ : BufTy).Contents (Elt F) :=
  concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

def degree (x1 : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32))
    (broadcastInDim S850000x1 ![0] bcast_S850000_S850000x1_0 (colIds x1)) (broadcastInDim S850000 ![] bcast_S_S850000 (constant S_ .f32 0x3F800000#32))

def positive (x1 : (⟨S2x800000, .i32⟩ : BufTy).Contents (Elt F)) : (⟨S50000, .i1⟩ : BufTy).Contents (Elt F) :=
  cmpf .ogt (degree x1) (broadcastInDim S50000 ![] bcast_S_S50000 (constant S_ .f32 0x00000000#32))

def invRoot (x1 : (⟨S2x800000, .i32⟩ : BufTy).Contents (Elt F)) : (⟨S50000, .f32⟩ : BufTy).Contents (Elt F) :=
  Host.rsqrt (maximumf (degree x1) (broadcastInDim S50000 ![] bcast_S_S50000 (constant S_ .f32 0x2B8CBCCC#32)))

def scale (x1 : (⟨S2x800000, .i32⟩ : BufTy).Contents (Elt F)) : (⟨S50000, .f32⟩ : BufTy).Contents (Elt F) :=
  select (positive x1) (invRoot x1) (broadcastInDim S50000 ![] bcast_S_S50000 (id (constant S_ .f32 0x00000000#32)))

def scaleCol (x1 : (⟨S2x800000, .i32⟩ : BufTy).Contents (Elt F)) : (⟨S50000x1, .f32⟩ : BufTy).Contents (Elt F) :=
  shapeCast S50000x1 (scale x1) shapeCasts_S50000_S50000x1

def narrow (w : (⟨S128x128, .f32⟩ : BufTy).Contents (Elt F)) : (⟨S128x128, .bf16⟩ : BufTy).Contents (Elt F) := truncf .bf16 w bitsLt_bf16_f32

def wrapIds (r : (⟨S850000, .i32⟩ : BufTy).Contents (Elt F)) : (⟨S850000, .i32⟩ : BufTy).Contents (Elt F) :=
  select (cmpi .slt r (broadcastInDim S850000 ![] bcast_S_S850000 (constantI S_ 32 0#32)))
    (addi r (broadcastInDim S850000 ![] bcast_S_S850000 (constantI S_ 32 50000#32))) r

def aggregate (t : (⟨S50000x128, .bf16⟩ : BufTy).Contents (Elt F)) (r c : (⟨S850000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 c)
    (extf .f32 (Host.gather gather_S50000x128_S850000x1_S850000x128_1_0_n_n_0_1_1128 t (broadcastInDim S850000x1 ![0] bcast_S850000_S850000x1_0 (wrapIds r))) bitsLt_bf16_f32)

def biasRow (b : (⟨S128, .f32⟩ : BufTy).Contents (Elt F)) : (⟨S1x128, .f32⟩ : BufTy).Contents (Elt F) := shapeCast S1x128 b shapeCasts_S128_S1x128

/-! ## The first three stretches: the edge lists, the scale column, the first weight -/

theorem ops0_v3 (V : Valuation τ sig (Elt F)) : StableHlo.after (hostOps0 (F := F)) V (Proc.devRef .tc main_v3) = rowIds (V (Proc.devRef .tc main_arg1)) := by
  after_results_simp <;> rfl
theorem ops0_v6 (V : Valuation τ sig (Elt F)) : StableHlo.after (hostOps0 (F := F)) V (Proc.devRef .tc main_v6) = colIds (V (Proc.devRef .tc main_arg1)) := by
  after_results_simp <;> rfl
theorem ops0_v12 (V : Valuation τ sig (Elt F)) : StableHlo.after (hostOps0 (F := F)) V (Proc.devRef .tc main_v12) = positive (V (Proc.devRef .tc main_arg1)) := by
  after_results_simp <;> rfl
theorem ops0_v15 (V : Valuation τ sig (Elt F)) : StableHlo.after (hostOps0 (F := F)) V (Proc.devRef .tc main_v15) = invRoot (V (Proc.devRef .tc main_arg1)) := by
  after_results_simp <;> rfl
theorem ops0_cst3 (V : Valuation τ sig (Elt F)) : StableHlo.after (hostOps0 (F := F)) V (Proc.devRef .tc main_cst_3) = constant S_ .f32 0x00000000#32 := by
  after_results_simp <;> rfl

def weightOf0 (x5 : (⟨S3x128x128, .f32⟩ : BufTy).Contents (Elt F)) : (⟨S128x128, .f32⟩ : BufTy).Contents (Elt F) :=
  shapeCast S128x128 (extractStridedSlice S1x128x128 ![0, 0, 0] x5 slices_S3x128x128_S1x128x128_0_0_0) shapeCasts_S1x128x128_S128x128
def weightOf1 (x5 : (⟨S3x128x128, .f32⟩ : BufTy).Contents (Elt F)) : (⟨S128x128, .f32⟩ : BufTy).Contents (Elt F) :=
  shapeCast S128x128 (extractStridedSlice S1x128x128 ![1, 0, 0] x5 slices_S3x128x128_S1x128x128_1_0_0) shapeCasts_S1x128x128_S128x128
def weightOf2 (x5 : (⟨S3x128x128, .f32⟩ : BufTy).Contents (Elt F)) : (⟨S128x128, .f32⟩ : BufTy).Contents (Elt F) :=
  shapeCast S128x128 (extractStridedSlice S1x128x128 ![2, 0, 0] x5 slices_S3x128x128_S1x128x128_2_0_0) shapeCasts_S1x128x128_S128x128
def biasOf0 (x6 : (⟨S3x128, .f32⟩ : BufTy).Contents (Elt F)) : (⟨S128, .f32⟩ : BufTy).Contents (Elt F) :=
  shapeCast S128 (extractStridedSlice S1x128 ![0, 0] x6 slices_S3x128_S1x128_0_0) shapeCasts_S1x128_S128
def biasOf1 (x6 : (⟨S3x128, .f32⟩ : BufTy).Contents (Elt F)) : (⟨S128, .f32⟩ : BufTy).Contents (Elt F) :=
  shapeCast S128 (extractStridedSlice S1x128 ![1, 0] x6 slices_S3x128_S1x128_1_0) shapeCasts_S1x128_S128
def biasOf2 (x6 : (⟨S3x128, .f32⟩ : BufTy).Contents (Elt F)) : (⟨S128, .f32⟩ : BufTy).Contents (Elt F) :=
  shapeCast S128 (extractStridedSlice S1x128 ![2, 0] x6 slices_S3x128_S1x128_2_0) shapeCasts_S1x128_S128

def meanHead (x : (⟨S50000x128, .f32⟩ : BufTy).Contents (Elt F)) (w : (⟨S128x2, .f32⟩ : BufTy).Contents (Elt F)) (b : (⟨S2, .f32⟩ : BufTy).Contents (Elt F)) : (⟨S1x2, .f32⟩ : BufTy).Contents (Elt F) :=
  Host.divf (broadcastInDim S1x2 ![1] bcast_S2_S1x2_1 (Host.reduceAdd (addf (Host.dotGeneral dot_S50000x128_S128x2_S50000x2_1_0_0_1_n_n none x w)
    (broadcastInDim S50000x2 ![0, 1] bcast_S1x2_S50000x2_0_1 (broadcastInDim S1x2 ![1] bcast_S2_S1x2_1 b))) (constant S_ .f32 0x00000000#32) reducesTo_S50000x2_S2_d0 h_S_))
    (broadcastInDim S1x2 ![] bcast_S_S1x2 (constant S_ .f32 0x47435000#32))

theorem ops0_arg0 (V : Valuation τ sig (Elt F)) : StableHlo.after (hostOps0 (F := F)) V (Proc.devRef .tc main_arg0) = V (Proc.devRef .tc main_arg0) := by
  after_results_simp <;> rfl
theorem ops0_arg3 (V : Valuation τ sig (Elt F)) : StableHlo.after (hostOps0 (F := F)) V (Proc.devRef .tc main_arg3) = V (Proc.devRef .tc main_arg3) := by
  after_results_simp <;> rfl
theorem ops0_arg4 (V : Valuation τ sig (Elt F)) : StableHlo.after (hostOps0 (F := F)) V (Proc.devRef .tc main_arg4) = V (Proc.devRef .tc main_arg4) := by
  after_results_simp <;> rfl
theorem ops0_arg5 (V : Valuation τ sig (Elt F)) : StableHlo.after (hostOps0 (F := F)) V (Proc.devRef .tc main_arg5) = V (Proc.devRef .tc main_arg5) := by
  after_results_simp <;> rfl
theorem ops0_arg6 (V : Valuation τ sig (Elt F)) : StableHlo.after (hostOps0 (F := F)) V (Proc.devRef .tc main_arg6) = V (Proc.devRef .tc main_arg6) := by
  after_results_simp <;> rfl
theorem ops0_arg7 (V : Valuation τ sig (Elt F)) : StableHlo.after (hostOps0 (F := F)) V (Proc.devRef .tc main_arg7) = V (Proc.devRef .tc main_arg7) := by
  after_results_simp <;> rfl
theorem ops0_arg8 (V : Valuation τ sig (Elt F)) : StableHlo.after (hostOps0 (F := F)) V (Proc.devRef .tc main_arg8) = V (Proc.devRef .tc main_arg8) := by
  after_results_simp <;> rfl

theorem ops0a_v16 (V : Valuation τ sig (Elt F)) : StableHlo.after (hostOps0_1 (F := F)) V (Proc.devRef .tc main_v16) = select (V (Proc.devRef .tc main_v12)) (V (Proc.devRef .tc main_v15)) (broadcastInDim S50000 ![] bcast_S_S50000 (id (V (Proc.devRef .tc main_cst_3)))) := by
  after_results_simp <;> rfl
theorem ops0a_v3 (V : Valuation τ sig (Elt F)) : StableHlo.after (hostOps0_1 (F := F)) V (Proc.devRef .tc main_v3) = V (Proc.devRef .tc main_v3) := by
  after_results_simp <;> rfl
theorem ops0a_v6 (V : Valuation τ sig (Elt F)) : StableHlo.after (hostOps0_1 (F := F)) V (Proc.devRef .tc main_v6) = V (Proc.devRef .tc main_v6) := by
  after_results_simp <;> rfl
theorem ops0a_arg0 (V : Valuation τ sig (Elt F)) : StableHlo.after (hostOps0_1 (F := F)) V (Proc.devRef .tc main_arg0) = V (Proc.devRef .tc main_arg0) := by
  after_results_simp <;> rfl
theorem ops0a_arg3 (V : Valuation τ sig (Elt F)) : StableHlo.after (hostOps0_1 (F := F)) V (Proc.devRef .tc main_arg3) = V (Proc.devRef .tc main_arg3) := by
  after_results_simp <;> rfl
theorem ops0a_arg4 (V : Valuation τ sig (Elt F)) : StableHlo.after (hostOps0_1 (F := F)) V (Proc.devRef .tc main_arg4) = V (Proc.devRef .tc main_arg4) := by
  after_results_simp <;> rfl
theorem ops0a_arg5 (V : Valuation τ sig (Elt F)) : StableHlo.after (hostOps0_1 (F := F)) V (Proc.devRef .tc main_arg5) = V (Proc.devRef .tc main_arg5) := by
  after_results_simp <;> rfl
theorem ops0a_arg6 (V : Valuation τ sig (Elt F)) : StableHlo.after (hostOps0_1 (F := F)) V (Proc.devRef .tc main_arg6) = V (Proc.devRef .tc main_arg6) := by
  after_results_simp <;> rfl
theorem ops0a_arg7 (V : Valuation τ sig (Elt F)) : StableHlo.after (hostOps0_1 (F := F)) V (Proc.devRef .tc main_arg7) = V (Proc.devRef .tc main_arg7) := by
  after_results_simp <;> rfl
theorem ops0a_arg8 (V : Valuation τ sig (Elt F)) : StableHlo.after (hostOps0_1 (F := F)) V (Proc.devRef .tc main_arg8) = V (Proc.devRef .tc main_arg8) := by
  after_results_simp <;> rfl

theorem ops0b_v17 (V : Valuation τ sig (Elt F)) : StableHlo.after (hostOps0_2 (F := F)) V (Proc.devRef .tc main_v17) = shapeCast S50000x1 (V (Proc.devRef .tc main_v16)) shapeCasts_S50000_S50000x1 := by
  after_results_simp <;> rfl
theorem ops0b_v18 (V : Valuation τ sig (Elt F)) : StableHlo.after (hostOps0_2 (F := F)) V (Proc.devRef .tc main_v18) = narrow (V (Proc.devRef .tc main_arg3)) := by
  after_results_simp <;> rfl
theorem ops0b_v3 (V : Valuation τ sig (Elt F)) : StableHlo.after (hostOps0_2 (F := F)) V (Proc.devRef .tc main_v3) = V (Proc.devRef .tc main_v3) := by
  after_results_simp <;> rfl
theorem ops0b_v6 (V : Valuation τ sig (Elt F)) : StableHlo.after (hostOps0_2 (F := F)) V (Proc.devRef .tc main_v6) = V (Proc.devRef .tc main_v6) := by
  after_results_simp <;> rfl
theorem ops0b_arg0 (V : Valuation τ sig (Elt F)) : StableHlo.after (hostOps0_2 (F := F)) V (Proc.devRef .tc main_arg0) = V (Proc.devRef .tc main_arg0) := by
  after_results_simp <;> rfl
theorem ops0b_arg4 (V : Valuation τ sig (Elt F)) : StableHlo.after (hostOps0_2 (F := F)) V (Proc.devRef .tc main_arg4) = V (Proc.devRef .tc main_arg4) := by
  after_results_simp <;> rfl
theorem ops0b_arg5 (V : Valuation τ sig (Elt F)) : StableHlo.after (hostOps0_2 (F := F)) V (Proc.devRef .tc main_arg5) = V (Proc.devRef .tc main_arg5) := by
  after_results_simp <;> rfl
theorem ops0b_arg6 (V : Valuation τ sig (Elt F)) : StableHlo.after (hostOps0_2 (F := F)) V (Proc.devRef .tc main_arg6) = V (Proc.devRef .tc main_arg6) := by
  after_results_simp <;> rfl
theorem ops0b_arg7 (V : Valuation τ sig (Elt F)) : StableHlo.after (hostOps0_2 (F := F)) V (Proc.devRef .tc main_arg7) = V (Proc.devRef .tc main_arg7) := by
  after_results_simp <;> rfl
theorem ops0b_arg8 (V : Valuation τ sig (Elt F)) : StableHlo.after (hostOps0_2 (F := F)) V (Proc.devRef .tc main_arg8) = V (Proc.devRef .tc main_arg8) := by
  after_results_simp <;> rfl

/-! ## The stretches between the launches -/

theorem ops1_v30 (V : Valuation τ sig (Elt F)) : StableHlo.after (hostOps1 (F := F)) V (Proc.devRef .tc main_v30) = aggregate (V (Proc.devRef .tc main_v19)) (V (Proc.devRef .tc main_v3)) (V (Proc.devRef .tc main_v6)) := by
  after_results_simp <;> rfl
theorem ops1_v31 (V : Valuation τ sig (Elt F)) : StableHlo.after (hostOps1 (F := F)) V (Proc.devRef .tc main_v31) = biasRow (V (Proc.devRef .tc main_arg4)) := by
  after_results_simp <;> rfl
theorem ops1_v17 (V : Valuation τ sig (Elt F)) : StableHlo.after (hostOps1 (F := F)) V (Proc.devRef .tc main_v17) = V (Proc.devRef .tc main_v17) := by
  after_results_simp <;> rfl
theorem ops1_v3 (V : Valuation τ sig (Elt F)) : StableHlo.after (hostOps1 (F := F)) V (Proc.devRef .tc main_v3) = V (Proc.devRef .tc main_v3) := by
  after_results_simp <;> rfl
theorem ops1_v6 (V : Valuation τ sig (Elt F)) : StableHlo.after (hostOps1 (F := F)) V (Proc.devRef .tc main_v6) = V (Proc.devRef .tc main_v6) := by
  after_results_simp <;> rfl
theorem ops1_arg5 (V : Valuation τ sig (Elt F)) : StableHlo.after (hostOps1 (F := F)) V (Proc.devRef .tc main_arg5) = V (Proc.devRef .tc main_arg5) := by
  after_results_simp <;> rfl
theorem ops1_arg6 (V : Valuation τ sig (Elt F)) : StableHlo.after (hostOps1 (F := F)) V (Proc.devRef .tc main_arg6) = V (Proc.devRef .tc main_arg6) := by
  after_results_simp <;> rfl
theorem ops1_arg7 (V : Valuation τ sig (Elt F)) : StableHlo.after (hostOps1 (F := F)) V (Proc.devRef .tc main_arg7) = V (Proc.devRef .tc main_arg7) := by
  after_results_simp <;> rfl
theorem ops1_arg8 (V : Valuation τ sig (Elt F)) : StableHlo.after (hostOps1 (F := F)) V (Proc.devRef .tc main_arg8) = V (Proc.devRef .tc main_arg8) := by
  after_results_simp <;> rfl

theorem ops2_v35 (V : Valuation τ sig (Elt F)) : StableHlo.after (hostOps2 (F := F)) V (Proc.devRef .tc main_v35) = narrow (weightOf0 (V (Proc.devRef .tc main_arg5))) := by
  after_results_simp <;> rfl
theorem ops2_v37 (V : Valuation τ sig (Elt F)) : StableHlo.after (hostOps2 (F := F)) V (Proc.devRef .tc main_v37) = biasOf0 (V (Proc.devRef .tc main_arg6)) := by
  after_results_simp <;> rfl
theorem ops2_v32 (V : Valuation τ sig (Elt F)) : StableHlo.after (hostOps2 (F := F)) V (Proc.devRef .tc main_v32) = V (Proc.devRef .tc main_v32) := by
  after_results_simp <;> rfl
theorem ops2_v17 (V : Valuation τ sig (Elt F)) : StableHlo.after (hostOps2 (F := F)) V (Proc.devRef .tc main_v17) = V (Proc.devRef .tc main_v17) := by
  after_results_simp <;> rfl
theorem ops2_v3 (V : Valuation τ sig (Elt F)) : StableHlo.after (hostOps2 (F := F)) V (Proc.devRef .tc main_v3) = V (Proc.devRef .tc main_v3) := by
  after_results_simp <;> rfl
theorem ops2_v6 (V : Valuation τ sig (Elt F)) : StableHlo.after (hostOps2 (F := F)) V (Proc.devRef .tc main_v6) = V (Proc.devRef .tc main_v6) := by
  after_results_simp <;> rfl
theorem ops2_arg5 (V : Valuation τ sig (Elt F)) : StableHlo.after (hostOps2 (F := F)) V (Proc.devRef .tc main_arg5) = V (Proc.devRef .tc main_arg5) := by
  after_results_simp <;> rfl
theorem ops2_arg6 (V : Valuation τ sig (Elt F)) : StableHlo.after (hostOps2 (F := F)) V (Proc.devRef .tc main_arg6) = V (Proc.devRef .tc main_arg6) := by
  after_results_simp <;> rfl
theorem ops2_arg7 (V : Valuation τ sig (Elt F)) : StableHlo.after (hostOps2 (F := F)) V (Proc.devRef .tc main_arg7) = V (Proc.devRef .tc main_arg7) := by
  after_results_simp <;> rfl
theorem ops2_arg8 (V : Valuation τ sig (Elt F)) : StableHlo.after (hostOps2 (F := F)) V (Proc.devRef .tc main_arg8) = V (Proc.devRef .tc main_arg8) := by
  after_results_simp <;> rfl

theorem ops3_v49 (V : Valuation τ sig (Elt F)) : StableHlo.after (hostOps3 (F := F)) V (Proc.devRef .tc main_v49) = aggregate (V (Proc.devRef .tc main_v38)) (V (Proc.devRef .tc main_v3)) (V (Proc.devRef .tc main_v6)) := by
  after_results_simp <;> rfl
theorem ops3_v50 (V : Valuation τ sig (Elt F)) : StableHlo.after (hostOps3 (F := F)) V (Proc.devRef .tc main_v50) = biasRow (V (Proc.devRef .tc main_v37)) := by
  after_results_simp <;> rfl
theorem ops3_v32 (V : Valuation τ sig (Elt F)) : StableHlo.after (hostOps3 (F := F)) V (Proc.devRef .tc main_v32) = V (Proc.devRef .tc main_v32) := by
  after_results_simp <;> rfl
theorem ops3_v17 (V : Valuation τ sig (Elt F)) : StableHlo.after (hostOps3 (F := F)) V (Proc.devRef .tc main_v17) = V (Proc.devRef .tc main_v17) := by
  after_results_simp <;> rfl
theorem ops3_v3 (V : Valuation τ sig (Elt F)) : StableHlo.after (hostOps3 (F := F)) V (Proc.devRef .tc main_v3) = V (Proc.devRef .tc main_v3) := by
  after_results_simp <;> rfl
theorem ops3_v6 (V : Valuation τ sig (Elt F)) : StableHlo.after (hostOps3 (F := F)) V (Proc.devRef .tc main_v6) = V (Proc.devRef .tc main_v6) := by
  after_results_simp <;> rfl
theorem ops3_arg5 (V : Valuation τ sig (Elt F)) : StableHlo.after (hostOps3 (F := F)) V (Proc.devRef .tc main_arg5) = V (Proc.devRef .tc main_arg5) := by
  after_results_simp <;> rfl
theorem ops3_arg6 (V : Valuation τ sig (Elt F)) : StableHlo.after (hostOps3 (F := F)) V (Proc.devRef .tc main_arg6) = V (Proc.devRef .tc main_arg6) := by
  after_results_simp <;> rfl
theorem ops3_arg7 (V : Valuation τ sig (Elt F)) : StableHlo.after (hostOps3 (F := F)) V (Proc.devRef .tc main_arg7) = V (Proc.devRef .tc main_arg7) := by
  after_results_simp <;> rfl
theorem ops3_arg8 (V : Valuation τ sig (Elt F)) : StableHlo.after (hostOps3 (F := F)) V (Proc.devRef .tc main_arg8) = V (Proc.devRef .tc main_arg8) := by
  after_results_simp <;> rfl

theorem ops4_v54 (V : Valuation τ sig (Elt F)) : StableHlo.after (hostOps4 (F := F)) V (Proc.devRef .tc main_v54) = narrow (weightOf1 (V (Proc.devRef .tc main_arg5))) := by
  after_results_simp <;> rfl
theorem ops4_v56 (V : Valuation τ sig (Elt F)) : StableHlo.after (hostOps4 (F := F)) V (Proc.devRef .tc main_v56) = biasOf1 (V (Proc.devRef .tc main_arg6)) := by
  after_results_simp <;> rfl
theorem ops4_v51 (V : Valuation τ sig (Elt F)) : StableHlo.after (hostOps4 (F := F)) V (Proc.devRef .tc main_v51) = V (Proc.devRef .tc main_v51) := by
  after_results_simp <;> rfl
theorem ops4_v17 (V : Valuation τ sig (Elt F)) : StableHlo.after (hostOps4 (F := F)) V (Proc.devRef .tc main_v17) = V (Proc.devRef .tc main_v17) := by
  after_results_simp <;> rfl
theorem ops4_v3 (V : Valuation τ sig (Elt F)) : StableHlo.after (hostOps4 (F := F)) V (Proc.devRef .tc main_v3) = V (Proc.devRef .tc main_v3) := by
  after_results_simp <;> rfl
theorem ops4_v6 (V : Valuation τ sig (Elt F)) : StableHlo.after (hostOps4 (F := F)) V (Proc.devRef .tc main_v6) = V (Proc.devRef .tc main_v6) := by
  after_results_simp <;> rfl
theorem ops4_arg5 (V : Valuation τ sig (Elt F)) : StableHlo.after (hostOps4 (F := F)) V (Proc.devRef .tc main_arg5) = V (Proc.devRef .tc main_arg5) := by
  after_results_simp <;> rfl
theorem ops4_arg6 (V : Valuation τ sig (Elt F)) : StableHlo.after (hostOps4 (F := F)) V (Proc.devRef .tc main_arg6) = V (Proc.devRef .tc main_arg6) := by
  after_results_simp <;> rfl
theorem ops4_arg7 (V : Valuation τ sig (Elt F)) : StableHlo.after (hostOps4 (F := F)) V (Proc.devRef .tc main_arg7) = V (Proc.devRef .tc main_arg7) := by
  after_results_simp <;> rfl
theorem ops4_arg8 (V : Valuation τ sig (Elt F)) : StableHlo.after (hostOps4 (F := F)) V (Proc.devRef .tc main_arg8) = V (Proc.devRef .tc main_arg8) := by
  after_results_simp <;> rfl

theorem ops5_v68 (V : Valuation τ sig (Elt F)) : StableHlo.after (hostOps5 (F := F)) V (Proc.devRef .tc main_v68) = aggregate (V (Proc.devRef .tc main_v57)) (V (Proc.devRef .tc main_v3)) (V (Proc.devRef .tc main_v6)) := by
  after_results_simp <;> rfl
theorem ops5_v69 (V : Valuation τ sig (Elt F)) : StableHlo.after (hostOps5 (F := F)) V (Proc.devRef .tc main_v69) = biasRow (V (Proc.devRef .tc main_v56)) := by
  after_results_simp <;> rfl
theorem ops5_v51 (V : Valuation τ sig (Elt F)) : StableHlo.after (hostOps5 (F := F)) V (Proc.devRef .tc main_v51) = V (Proc.devRef .tc main_v51) := by
  after_results_simp <;> rfl
theorem ops5_v17 (V : Valuation τ sig (Elt F)) : StableHlo.after (hostOps5 (F := F)) V (Proc.devRef .tc main_v17) = V (Proc.devRef .tc main_v17) := by
  after_results_simp <;> rfl
theorem ops5_v3 (V : Valuation τ sig (Elt F)) : StableHlo.after (hostOps5 (F := F)) V (Proc.devRef .tc main_v3) = V (Proc.devRef .tc main_v3) := by
  after_results_simp <;> rfl
theorem ops5_v6 (V : Valuation τ sig (Elt F)) : StableHlo.after (hostOps5 (F := F)) V (Proc.devRef .tc main_v6) = V (Proc.devRef .tc main_v6) := by
  after_results_simp <;> rfl
theorem ops5_arg5 (V : Valuation τ sig (Elt F)) : StableHlo.after (hostOps5 (F := F)) V (Proc.devRef .tc main_arg5) = V (Proc.devRef .tc main_arg5) := by
  after_results_simp <;> rfl
theorem ops5_arg6 (V : Valuation τ sig (Elt F)) : StableHlo.after (hostOps5 (F := F)) V (Proc.devRef .tc main_arg6) = V (Proc.devRef .tc main_arg6) := by
  after_results_simp <;> rfl
theorem ops5_arg7 (V : Valuation τ sig (Elt F)) : StableHlo.after (hostOps5 (F := F)) V (Proc.devRef .tc main_arg7) = V (Proc.devRef .tc main_arg7) := by
  after_results_simp <;> rfl
theorem ops5_arg8 (V : Valuation τ sig (Elt F)) : StableHlo.after (hostOps5 (F := F)) V (Proc.devRef .tc main_arg8) = V (Proc.devRef .tc main_arg8) := by
  after_results_simp <;> rfl

theorem ops6_v73 (V : Valuation τ sig (Elt F)) : StableHlo.after (hostOps6 (F := F)) V (Proc.devRef .tc main_v73) = narrow (weightOf2 (V (Proc.devRef .tc main_arg5))) := by
  after_results_simp <;> rfl
theorem ops6_v75 (V : Valuation τ sig (Elt F)) : StableHlo.after (hostOps6 (F := F)) V (Proc.devRef .tc main_v75) = biasOf2 (V (Proc.devRef .tc main_arg6)) := by
  after_results_simp <;> rfl
theorem ops6_v70 (V : Valuation τ sig (Elt F)) : StableHlo.after (hostOps6 (F := F)) V (Proc.devRef .tc main_v70) = V (Proc.devRef .tc main_v70) := by
  after_results_simp <;> rfl
theorem ops6_v17 (V : Valuation τ sig (Elt F)) : StableHlo.after (hostOps6 (F := F)) V (Proc.devRef .tc main_v17) = V (Proc.devRef .tc main_v17) := by
  after_results_simp <;> rfl
theorem ops6_v3 (V : Valuation τ sig (Elt F)) : StableHlo.after (hostOps6 (F := F)) V (Proc.devRef .tc main_v3) = V (Proc.devRef .tc main_v3) := by
  after_results_simp <;> rfl
theorem ops6_v6 (V : Valuation τ sig (Elt F)) : StableHlo.after (hostOps6 (F := F)) V (Proc.devRef .tc main_v6) = V (Proc.devRef .tc main_v6) := by
  after_results_simp <;> rfl
theorem ops6_arg7 (V : Valuation τ sig (Elt F)) : StableHlo.after (hostOps6 (F := F)) V (Proc.devRef .tc main_arg7) = V (Proc.devRef .tc main_arg7) := by
  after_results_simp <;> rfl
theorem ops6_arg8 (V : Valuation τ sig (Elt F)) : StableHlo.after (hostOps6 (F := F)) V (Proc.devRef .tc main_arg8) = V (Proc.devRef .tc main_arg8) := by
  after_results_simp <;> rfl

theorem ops7_v87 (V : Valuation τ sig (Elt F)) : StableHlo.after (hostOps7 (F := F)) V (Proc.devRef .tc main_v87) = aggregate (V (Proc.devRef .tc main_v76)) (V (Proc.devRef .tc main_v3)) (V (Proc.devRef .tc main_v6)) := by
  after_results_simp <;> rfl
theorem ops7_v88 (V : Valuation τ sig (Elt F)) : StableHlo.after (hostOps7 (F := F)) V (Proc.devRef .tc main_v88) = biasRow (V (Proc.devRef .tc main_v75)) := by
  after_results_simp <;> rfl
theorem ops7_v70 (V : Valuation τ sig (Elt F)) : StableHlo.after (hostOps7 (F := F)) V (Proc.devRef .tc main_v70) = V (Proc.devRef .tc main_v70) := by
  after_results_simp <;> rfl
theorem ops7_v17 (V : Valuation τ sig (Elt F)) : StableHlo.after (hostOps7 (F := F)) V (Proc.devRef .tc main_v17) = V (Proc.devRef .tc main_v17) := by
  after_results_simp <;> rfl
theorem ops7_arg7 (V : Valuation τ sig (Elt F)) : StableHlo.after (hostOps7 (F := F)) V (Proc.devRef .tc main_arg7) = V (Proc.devRef .tc main_arg7) := by
  after_results_simp <;> rfl
theorem ops7_arg8 (V : Valuation τ sig (Elt F)) : StableHlo.after (hostOps7 (F := F)) V (Proc.devRef .tc main_arg8) = V (Proc.devRef .tc main_arg8) := by
  after_results_simp <;> rfl

theorem ops8_v97 (V : Valuation τ sig (Elt F)) : StableHlo.after (hostOps8 (F := F)) V (Proc.devRef .tc main_v97) = meanHead (V (Proc.devRef .tc main_v89)) (V (Proc.devRef .tc main_arg7)) (V (Proc.devRef .tc main_arg8)) := by
  after_results_simp <;> rfl

end Cert.KernelIdeal.Stages

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«143480_j89300960018655_2_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.Spec.lean ====
/-
  A graph-convolution layer on the extended reals, as whole-array functions.

  Nodes are numbered below `N`, edges below `E`; edge `e` reads node `rw e` and is added into the node whose number is the
  integer `cs e` (an edge whose `cs e` is no node's number is dropped). `d` is a column of per-node scales.

  One spelling of a layer scales row `r` of the product `x · w` by `d r` first (`scaledProduct`), sums the scaled rows over
  the edges of each target node (`sumEdges`), then scales the sum by `d n` and adds the bias, a carried array and floors at
  `z` (`combine`, `combineRes`). The other spelling multiplies the plain product's row by the edge's weight
  `nrm e = d (rw e) · d (cw e)` inside the sum (`sumEdgesWeighted`), where `cw e` is a node that equals the target whenever
  the edge is not dropped. The two agree when every `d n` is a nonnegative real: a nonnegative real factor moves across a
  finite sum of extended reals, and the product of extended reals is associative (`layer_eq`, `layer0_eq`). Nothing is
  assumed of `x`, `w`, the bias or the carried array.
-/
import proofs.«143480_j89300960018655_2_alg».proof.Proof.LibMatProduct

noncomputable section

namespace Cert.Gcn

open Idealize.ShloMosaic Idealize.ShloMosaic.ValueIdx Cert.MatProduct

/-- An array of extended reals with `r` rows and `c` columns. -/
abbrev Arr (r c : ℕ) := (⟨2, ![r, c]⟩ : Shape).Idx → EReal

/-- The product `x · w` with row `r` scaled by entry `r` of the column `d`. -/
def scaledProduct {M K N : ℕ} (x : Arr M K) (w : Arr K N) (d : Arr M 1) : Arr M N :=
  fun y => prod x w y * d (ix2 (rowOf y) (0 : Fin 1))

/-- `max (a · d + b) z`: row `r` of `a` scaled by `d r`, the one-row bias `b` added, floored at `z`. -/
def combine {M N : ℕ} (z : EReal) (a : Arr M N) (d : Arr M 1) (b : Arr 1 N) : Arr M N :=
  fun y => max (a y * d (ix2 (rowOf y) (0 : Fin 1)) + b (ix2 (0 : Fin 1) (colOf y))) z

/-- `max ((a · d + b) + s) z`: the same with a carried array `s` added before the floor. -/
def combineRes {M N : ℕ} (z : EReal) (a : Arr M N) (d : Arr M 1) (b : Arr 1 N) (s : Arr M N) : Arr M N :=
  fun y => max (a y * d (ix2 (rowOf y) (0 : Fin 1)) + b (ix2 (0 : Fin 1) (colOf y)) + s y) z

/-- Entry `(n, j)` is `z` plus the sum, over the edges whose target number is `n`, of entry `(rw e, j)` of `t`. -/
def sumEdges {N E C : ℕ} (z : EReal) (cs : Fin E → ℤ) (rw : Fin E → Fin N) (t : Arr N C) : Arr N C :=
  fun y => z + ∑ e ∈ Finset.univ.filter (fun e : Fin E => cs e = ((rowOf y).val : ℤ)), t (ix2 (rw e) (colOf y))

/-- The same sum with each edge's term multiplied by the edge's weight `nrm e`. -/
def sumEdgesWeighted {N E C : ℕ} (z : EReal) (cs : Fin E → ℤ) (rw : Fin E → Fin N) (nrm : Fin E → EReal) (t : Arr N C) :
    Arr N C :=
  fun y => z + ∑ e ∈ Finset.univ.filter (fun e : Fin E => cs e = ((rowOf y).val : ℤ)), t (ix2 (rw e) (colOf y)) * nrm e

/-- A layer with the scales outside the sum, first layer (nothing carried). -/
def scaledLayer0 {N E K C : ℕ} (z : EReal) (cs : Fin E → ℤ) (rw : Fin E → Fin N) (d : Arr N 1) (x : Arr N K) (w : Arr K C)
    (b : Arr 1 C) : Arr N C :=
  combine z (sumEdges z cs rw (scaledProduct x w d)) d b

/-- A layer with the scales outside the sum and a carried array. -/
def scaledLayer {N E K C : ℕ} (z : EReal) (cs : Fin E → ℤ) (rw : Fin E → Fin N) (d : Arr N 1) (x : Arr N K) (w : Arr K C)
    (b : Arr 1 C) (s : Arr N C) : Arr N C :=
  combineRes z (sumEdges z cs rw (scaledProduct x w d)) d b s

/-- A layer with the edge weights inside the sum, first layer (nothing carried). -/
def weightedLayer0 {N E K C : ℕ} (z : EReal) (cs : Fin E → ℤ) (rw : Fin E → Fin N) (nrm : Fin E → EReal) (x : Arr N K)
    (w : Arr K C) (b : Arr 1 C) : Arr N C :=
  fun y => max (sumEdgesWeighted z cs rw nrm (prod x w) y + b (ix2 (0 : Fin 1) (colOf y))) z

/-- A layer with the edge weights inside the sum and a carried array. -/
def weightedLayer {N E K C : ℕ} (z : EReal) (cs : Fin E → ℤ) (rw : Fin E → Fin N) (nrm : Fin E → EReal) (x : Arr N K)
    (w : Arr K C) (b : Arr 1 C) (s : Arr N C) : Arr N C :=
  fun y => max (sumEdgesWeighted z cs rw nrm (prod x w) y + b (ix2 (0 : Fin 1) (colOf y)) + s y) z

end Cert.Gcn

end
-- ==== Proof.Fold.lean ====
/-
  The idealized kernel program's result as one function of its arguments.

  The program is nine stretches of host operations around eight launches. The buffers' contents at each of the
  nineteen boundaries are a fold over the launch memory; this file reads that fold forward, boundary by boundary: a
  buffer a stretch computes holds the stage of its operands' contents (Stages), a launch's output array holds the scaled
  product or the combination of what the launch finds in its operands (`Launches`), and every buffer a stretch or a
  launch does not write keeps its contents. At the last boundary the result buffer holds `result` of the arguments: four
  layers, each a scaled product, the aggregation over the edges and the combination, then the mean head.
-/
import proofs.«143480_j89300960018655_2_alg».proof.Proof.Gen.KernelIdeal.Frame
import proofs.«143480_j89300960018655_2_alg».proof.Proof.Stages
import proofs.«143480_j89300960018655_2_alg».proof.Proof.Spec
import Idealize.ShloMosaic.PureOps.Ideal

set_option maxRecDepth 16384

noncomputable section

namespace Cert.KernelIdeal.Fold

open Cert.KernelIdeal Cert.KernelIdeal.Gen Cert.KernelIdeal.Stages Cert.Gcn
open Idealize.ShloMosaic Idealize.ShloMosaic.TcCoe Idealize.SL.Sem Idealize.ShloMosaic.StableHlo

/-- The scaled product of layer 1: the node features times the first weight, row by row scaled. -/
def prod1 (x0 : (⟨S50000x128, .f32⟩ : BufTy).Contents (Elt Ideal)) (x1 : (⟨S2x800000, .i32⟩ : BufTy).Contents (Elt Ideal)) (x3 : (⟨S128x128, .f32⟩ : BufTy).Contents (Elt Ideal)) : Arr 50000 128 := scaledProduct x0 (narrow x3) (scaleCol x1)
/-- The features after layer 1. -/
def feat1 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) : Arr 50000 128 :=
  combine (Ideal.ofBits .f32 0x00000000#32) (aggregate (prod1 x0 x1 x3) (rowIds x1) (colIds x1)) (scaleCol x1) (biasRow x4)
def prod2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) : Arr 50000 128 := scaledProduct (feat1 x0 x1 x3 x4) (narrow (weightOf0 x5)) (scaleCol x1)
/-- The features after layer 2. -/
def feat2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) : Arr 50000 128 :=
  combineRes (Ideal.ofBits .f32 0x00000000#32) (aggregate (prod2 x0 x1 x3 x4 x5) (rowIds x1) (colIds x1)) (scaleCol x1) (biasRow (biasOf0 x6)) (feat1 x0 x1 x3 x4)
def prod3 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) : Arr 50000 128 := scaledProduct (feat2 x0 x1 x3 x4 x5 x6) (narrow (weightOf1 x5)) (scaleCol x1)
/-- The features after layer 3. -/
def feat3 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) : Arr 50000 128 :=
  combineRes (Ideal.ofBits .f32 0x00000000#32) (aggregate (prod3 x0 x1 x3 x4 x5 x6) (rowIds x1) (colIds x1)) (scaleCol x1) (biasRow (biasOf1 x6)) (feat2 x0 x1 x3 x4 x5 x6)
def prod4 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) : Arr 50000 128 := scaledProduct (feat3 x0 x1 x3 x4 x5 x6) (narrow (weightOf2 x5)) (scaleCol x1)
/-- The features after layer 4. -/
def feat4 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) : Arr 50000 128 :=
  combineRes (Ideal.ofBits .f32 0x00000000#32) (aggregate (prod4 x0 x1 x3 x4 x5 x6) (rowIds x1) (colIds x1)) (scaleCol x1) (biasRow (biasOf2 x6)) (feat3 x0 x1 x3 x4 x5 x6)
/-- The program's result: the mean over the nodes of the final dense map of the last features. -/
def result (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) (x7 : (⟨S128x2, .f32⟩ : BufTy).Contents (Elt Ideal)) (x8 : (⟨S2, .f32⟩ : BufTy).Contents (Elt Ideal)) : (⟨S1x2, .f32⟩ : BufTy).Contents (Elt Ideal) := meanHead (feat4 x0 x1 x3 x4 x5 x6) x7 x8

/-- What the eight launches leave in their output arrays, as functions of what they find in their operands: the four
    scaled products and the four combinations. -/
structure Launches : Prop where
  arr0 : ∀ (V : ((c : Dev nD) → (b : Ref sig .tc) → Buf (Elt Ideal) ((c : Thread nD τ).loc b))) (c : Dev nD), (dat0 (F := Ideal) V c).arrAt 3 cfg0.N = scaledProduct (V c main_arg0) (V c main_v18) (V c main_v17)
  arr1 : ∀ (V : ((c : Dev nD) → (b : Ref sig .tc) → Buf (Elt Ideal) ((c : Thread nD τ).loc b))) (c : Dev nD), (dat1 (F := Ideal) V c).arrAt 3 cfg1.N = combine (Ideal.ofBits .f32 0x00000000#32) (V c main_v30) (V c main_v17) (V c main_v31)
  arr2 : ∀ (V : ((c : Dev nD) → (b : Ref sig .tc) → Buf (Elt Ideal) ((c : Thread nD τ).loc b))) (c : Dev nD), (dat2 (F := Ideal) V c).arrAt 3 cfg2.N = scaledProduct (V c main_v32) (V c main_v35) (V c main_v17)
  arr3 : ∀ (V : ((c : Dev nD) → (b : Ref sig .tc) → Buf (Elt Ideal) ((c : Thread nD τ).loc b))) (c : Dev nD), (dat3 (F := Ideal) V c).arrAt 4 cfg3.N = combineRes (Ideal.ofBits .f32 0x00000000#32) (V c main_v49) (V c main_v17) (V c main_v50) (V c main_v32)
  arr4 : ∀ (V : ((c : Dev nD) → (b : Ref sig .tc) → Buf (Elt Ideal) ((c : Thread nD τ).loc b))) (c : Dev nD), (dat4 (F := Ideal) V c).arrAt 3 cfg4.N = scaledProduct (V c main_v51) (V c main_v54) (V c main_v17)
  arr5 : ∀ (V : ((c : Dev nD) → (b : Ref sig .tc) → Buf (Elt Ideal) ((c : Thread nD τ).loc b))) (c : Dev nD), (dat5 (F := Ideal) V c).arrAt 4 cfg5.N = combineRes (Ideal.ofBits .f32 0x00000000#32) (V c main_v68) (V c main_v17) (V c main_v69) (V c main_v51)
  arr6 : ∀ (V : ((c : Dev nD) → (b : Ref sig .tc) → Buf (Elt Ideal) ((c : Thread nD τ).loc b))) (c : Dev nD), (dat6 (F := Ideal) V c).arrAt 3 cfg6.N = scaledProduct (V c main_v70) (V c main_v73) (V c main_v17)
  arr7 : ∀ (V : ((c : Dev nD) → (b : Ref sig .tc) → Buf (Elt Ideal) ((c : Thread nD τ).loc b))) (c : Dev nD), (dat7 (F := Ideal) V c).arrAt 4 cfg7.N = combineRes (Ideal.ofBits .f32 0x00000000#32) (V c main_v87) (V c main_v17) (V c main_v88) (V c main_v70)

variable (m : (ℓ : Loc nD τ sig) → Buf (Elt Ideal) ℓ) (ρ : Dev nD → PrngReg) (c : Dev nD)

/-! ## Up to the first launch -/

theorem at1_v3 : W1 (F := Ideal) m ρ c (Proc.devRef .tc main_v3) = rowIds (m ((c : Thread nD τ).loc main_arg1)) := ops0_v3 _
theorem at1_v6 : W1 (F := Ideal) m ρ c (Proc.devRef .tc main_v6) = colIds (m ((c : Thread nD τ).loc main_arg1)) := ops0_v6 _
theorem at1_v12 : W1 (F := Ideal) m ρ c (Proc.devRef .tc main_v12) = positive (m ((c : Thread nD τ).loc main_arg1)) := ops0_v12 _
theorem at1_v15 : W1 (F := Ideal) m ρ c (Proc.devRef .tc main_v15) = invRoot (m ((c : Thread nD τ).loc main_arg1)) := ops0_v15 _
theorem at1_cst_3 : W1 (F := Ideal) m ρ c (Proc.devRef .tc main_cst_3) = constant (F := Ideal) S_ .f32 0x00000000#32 := ops0_cst3 _
theorem at1_arg0 : W1 (F := Ideal) m ρ c (Proc.devRef .tc main_arg0) = (m ((c : Thread nD τ).loc main_arg0)) := ops0_arg0 _
theorem at1_arg3 : W1 (F := Ideal) m ρ c (Proc.devRef .tc main_arg3) = (m ((c : Thread nD τ).loc main_arg3)) := ops0_arg3 _
theorem at1_arg4 : W1 (F := Ideal) m ρ c (Proc.devRef .tc main_arg4) = (m ((c : Thread nD τ).loc main_arg4)) := ops0_arg4 _
theorem at1_arg5 : W1 (F := Ideal) m ρ c (Proc.devRef .tc main_arg5) = (m ((c : Thread nD τ).loc main_arg5)) := ops0_arg5 _
theorem at1_arg6 : W1 (F := Ideal) m ρ c (Proc.devRef .tc main_arg6) = (m ((c : Thread nD τ).loc main_arg6)) := ops0_arg6 _
theorem at1_arg7 : W1 (F := Ideal) m ρ c (Proc.devRef .tc main_arg7) = (m ((c : Thread nD τ).loc main_arg7)) := ops0_arg7 _
theorem at1_arg8 : W1 (F := Ideal) m ρ c (Proc.devRef .tc main_arg8) = (m ((c : Thread nD τ).loc main_arg8)) := ops0_arg8 _
theorem at2_v16 : W2 (F := Ideal) m ρ c (Proc.devRef .tc main_v16) = scale (m ((c : Thread nD τ).loc main_arg1)) :=
  (ops0a_v16 _).trans (by rw [at1_v12 m ρ c, at1_v15 m ρ c, at1_cst_3 m ρ c]; first | done | rfl)
theorem at2_v3 : W2 (F := Ideal) m ρ c (Proc.devRef .tc main_v3) = rowIds (m ((c : Thread nD τ).loc main_arg1)) :=
  (ops0a_v3 _).trans (at1_v3 m ρ c)
theorem at2_v6 : W2 (F := Ideal) m ρ c (Proc.devRef .tc main_v6) = colIds (m ((c : Thread nD τ).loc main_arg1)) :=
  (ops0a_v6 _).trans (at1_v6 m ρ c)
theorem at2_arg0 : W2 (F := Ideal) m ρ c (Proc.devRef .tc main_arg0) = (m ((c : Thread nD τ).loc main_arg0)) :=
  (ops0a_arg0 _).trans (at1_arg0 m ρ c)
theorem at2_arg3 : W2 (F := Ideal) m ρ c (Proc.devRef .tc main_arg3) = (m ((c : Thread nD τ).loc main_arg3)) :=
  (ops0a_arg3 _).trans (at1_arg3 m ρ c)
theorem at2_arg4 : W2 (F := Ideal) m ρ c (Proc.devRef .tc main_arg4) = (m ((c : Thread nD τ).loc main_arg4)) :=
  (ops0a_arg4 _).trans (at1_arg4 m ρ c)
theorem at2_arg5 : W2 (F := Ideal) m ρ c (Proc.devRef .tc main_arg5) = (m ((c : Thread nD τ).loc main_arg5)) :=
  (ops0a_arg5 _).trans (at1_arg5 m ρ c)
theorem at2_arg6 : W2 (F := Ideal) m ρ c (Proc.devRef .tc main_arg6) = (m ((c : Thread nD τ).loc main_arg6)) :=
  (ops0a_arg6 _).trans (at1_arg6 m ρ c)
theorem at2_arg7 : W2 (F := Ideal) m ρ c (Proc.devRef .tc main_arg7) = (m ((c : Thread nD τ).loc main_arg7)) :=
  (ops0a_arg7 _).trans (at1_arg7 m ρ c)
theorem at2_arg8 : W2 (F := Ideal) m ρ c (Proc.devRef .tc main_arg8) = (m ((c : Thread nD τ).loc main_arg8)) :=
  (ops0a_arg8 _).trans (at1_arg8 m ρ c)
theorem at3_v17 : W3 (F := Ideal) m ρ c (Proc.devRef .tc main_v17) = scaleCol (m ((c : Thread nD τ).loc main_arg1)) :=
  (ops0b_v17 _).trans (by rw [at2_v16 m ρ c]; first | done | rfl)
theorem at3_v18 : W3 (F := Ideal) m ρ c (Proc.devRef .tc main_v18) = narrow (m ((c : Thread nD τ).loc main_arg3)) :=
  (ops0b_v18 _).trans (by rw [at2_arg3 m ρ c]; first | done | rfl)
theorem at3_v3 : W3 (F := Ideal) m ρ c (Proc.devRef .tc main_v3) = rowIds (m ((c : Thread nD τ).loc main_arg1)) :=
  (ops0b_v3 _).trans (at2_v3 m ρ c)
theorem at3_v6 : W3 (F := Ideal) m ρ c (Proc.devRef .tc main_v6) = colIds (m ((c : Thread nD τ).loc main_arg1)) :=
  (ops0b_v6 _).trans (at2_v6 m ρ c)
theorem at3_arg0 : W3 (F := Ideal) m ρ c (Proc.devRef .tc main_arg0) = (m ((c : Thread nD τ).loc main_arg0)) :=
  (ops0b_arg0 _).trans (at2_arg0 m ρ c)
theorem at3_arg4 : W3 (F := Ideal) m ρ c (Proc.devRef .tc main_arg4) = (m ((c : Thread nD τ).loc main_arg4)) :=
  (ops0b_arg4 _).trans (at2_arg4 m ρ c)
theorem at3_arg5 : W3 (F := Ideal) m ρ c (Proc.devRef .tc main_arg5) = (m ((c : Thread nD τ).loc main_arg5)) :=
  (ops0b_arg5 _).trans (at2_arg5 m ρ c)
theorem at3_arg6 : W3 (F := Ideal) m ρ c (Proc.devRef .tc main_arg6) = (m ((c : Thread nD τ).loc main_arg6)) :=
  (ops0b_arg6 _).trans (at2_arg6 m ρ c)
theorem at3_arg7 : W3 (F := Ideal) m ρ c (Proc.devRef .tc main_arg7) = (m ((c : Thread nD τ).loc main_arg7)) :=
  (ops0b_arg7 _).trans (at2_arg7 m ρ c)
theorem at3_arg8 : W3 (F := Ideal) m ρ c (Proc.devRef .tc main_arg8) = (m ((c : Thread nD τ).loc main_arg8)) :=
  (ops0b_arg8 _).trans (at2_arg8 m ρ c)

variable (L : Launches)
include L

/-! ## Layer 1 -/

theorem at4_v19 : W4 (F := Ideal) m ρ c (Proc.devRef .tc main_v19) = prod1 (m ((c : Thread nD τ).loc main_arg0)) (m ((c : Thread nD τ).loc main_arg1)) (m ((c : Thread nD τ).loc main_arg3)) :=
  (W4_arr m ρ c 3).trans ((L.arr0 (V3 m ρ) c).trans (by dsimp only [V3]; rw [at3_arg0 m ρ c, at3_v18 m ρ c, at3_v17 m ρ c]; first | done | rfl))
theorem at4_v17 : W4 (F := Ideal) m ρ c (Proc.devRef .tc main_v17) = scaleCol (m ((c : Thread nD τ).loc main_arg1)) :=
  (W4_arr m ρ c 2).trans (((dat0 (V3 m ρ) c).arrAt_in 2 rfl _).trans ((A_eq0 (V3 m ρ) c 2).trans (at3_v17 m ρ c)))
theorem at4_v3 : W4 (F := Ideal) m ρ c (Proc.devRef .tc main_v3) = rowIds (m ((c : Thread nD τ).loc main_arg1)) :=
  (W4_of_ne m ρ c main_v3 (by decide)).trans (at3_v3 m ρ c)
theorem at4_v6 : W4 (F := Ideal) m ρ c (Proc.devRef .tc main_v6) = colIds (m ((c : Thread nD τ).loc main_arg1)) :=
  (W4_of_ne m ρ c main_v6 (by decide)).trans (at3_v6 m ρ c)
theorem at4_arg4 : W4 (F := Ideal) m ρ c (Proc.devRef .tc main_arg4) = (m ((c : Thread nD τ).loc main_arg4)) :=
  (W4_of_ne m ρ c main_arg4 (by decide)).trans (at3_arg4 m ρ c)
theorem at4_arg5 : W4 (F := Ideal) m ρ c (Proc.devRef .tc main_arg5) = (m ((c : Thread nD τ).loc main_arg5)) :=
  (W4_of_ne m ρ c main_arg5 (by decide)).trans (at3_arg5 m ρ c)
theorem at4_arg6 : W4 (F := Ideal) m ρ c (Proc.devRef .tc main_arg6) = (m ((c : Thread nD τ).loc main_arg6)) :=
  (W4_of_ne m ρ c main_arg6 (by decide)).trans (at3_arg6 m ρ c)
theorem at4_arg7 : W4 (F := Ideal) m ρ c (Proc.devRef .tc main_arg7) = (m ((c : Thread nD τ).loc main_arg7)) :=
  (W4_of_ne m ρ c main_arg7 (by decide)).trans (at3_arg7 m ρ c)
theorem at4_arg8 : W4 (F := Ideal) m ρ c (Proc.devRef .tc main_arg8) = (m ((c : Thread nD τ).loc main_arg8)) :=
  (W4_of_ne m ρ c main_arg8 (by decide)).trans (at3_arg8 m ρ c)
theorem at5_v30 : W5 (F := Ideal) m ρ c (Proc.devRef .tc main_v30) = aggregate (prod1 (m ((c : Thread nD τ).loc main_arg0)) (m ((c : Thread nD τ).loc main_arg1)) (m ((c : Thread nD τ).loc main_arg3))) (rowIds (m ((c : Thread nD τ).loc main_arg1))) (colIds (m ((c : Thread nD τ).loc main_arg1))) :=
  (ops1_v30 _).trans (by rw [at4_v19 m ρ c L, at4_v3 m ρ c L, at4_v6 m ρ c L]; first | done | rfl)
theorem at5_v31 : W5 (F := Ideal) m ρ c (Proc.devRef .tc main_v31) = biasRow (m ((c : Thread nD τ).loc main_arg4)) :=
  (ops1_v31 _).trans (by rw [at4_arg4 m ρ c L]; first | done | rfl)
theorem at5_v17 : W5 (F := Ideal) m ρ c (Proc.devRef .tc main_v17) = scaleCol (m ((c : Thread nD τ).loc main_arg1)) :=
  (ops1_v17 _).trans (at4_v17 m ρ c L)
theorem at5_v3 : W5 (F := Ideal) m ρ c (Proc.devRef .tc main_v3) = rowIds (m ((c : Thread nD τ).loc main_arg1)) :=
  (ops1_v3 _).trans (at4_v3 m ρ c L)
theorem at5_v6 : W5 (F := Ideal) m ρ c (Proc.devRef .tc main_v6) = colIds (m ((c : Thread nD τ).loc main_arg1)) :=
  (ops1_v6 _).trans (at4_v6 m ρ c L)
theorem at5_arg5 : W5 (F := Ideal) m ρ c (Proc.devRef .tc main_arg5) = (m ((c : Thread nD τ).loc main_arg5)) :=
  (ops1_arg5 _).trans (at4_arg5 m ρ c L)
theorem at5_arg6 : W5 (F := Ideal) m ρ c (Proc.devRef .tc main_arg6) = (m ((c : Thread nD τ).loc main_arg6)) :=
  (ops1_arg6 _).trans (at4_arg6 m ρ c L)
theorem at5_arg7 : W5 (F := Ideal) m ρ c (Proc.devRef .tc main_arg7) = (m ((c : Thread nD τ).loc main_arg7)) :=
  (ops1_arg7 _).trans (at4_arg7 m ρ c L)
theorem at5_arg8 : W5 (F := Ideal) m ρ c (Proc.devRef .tc main_arg8) = (m ((c : Thread nD τ).loc main_arg8)) :=
  (ops1_arg8 _).trans (at4_arg8 m ρ c L)
theorem at6_v32 : W6 (F := Ideal) m ρ c (Proc.devRef .tc main_v32) = feat1 (m ((c : Thread nD τ).loc main_arg0)) (m ((c : Thread nD τ).loc main_arg1)) (m ((c : Thread nD τ).loc main_arg3)) (m ((c : Thread nD τ).loc main_arg4)) :=
  (W6_arr m ρ c 3).trans ((L.arr1 (V5 m ρ) c).trans (by dsimp only [V5]; rw [at5_v30 m ρ c L, at5_v17 m ρ c L, at5_v31 m ρ c L]; first | done | rfl))
theorem at6_v17 : W6 (F := Ideal) m ρ c (Proc.devRef .tc main_v17) = scaleCol (m ((c : Thread nD τ).loc main_arg1)) :=
  (W6_arr m ρ c 1).trans (((dat1 (V5 m ρ) c).arrAt_in 1 rfl _).trans ((A_eq1 (V5 m ρ) c 1).trans (at5_v17 m ρ c L)))
theorem at6_v3 : W6 (F := Ideal) m ρ c (Proc.devRef .tc main_v3) = rowIds (m ((c : Thread nD τ).loc main_arg1)) :=
  (W6_of_ne m ρ c main_v3 (by decide)).trans (at5_v3 m ρ c L)
theorem at6_v6 : W6 (F := Ideal) m ρ c (Proc.devRef .tc main_v6) = colIds (m ((c : Thread nD τ).loc main_arg1)) :=
  (W6_of_ne m ρ c main_v6 (by decide)).trans (at5_v6 m ρ c L)
theorem at6_arg5 : W6 (F := Ideal) m ρ c (Proc.devRef .tc main_arg5) = (m ((c : Thread nD τ).loc main_arg5)) :=
  (W6_of_ne m ρ c main_arg5 (by decide)).trans (at5_arg5 m ρ c L)
theorem at6_arg6 : W6 (F := Ideal) m ρ c (Proc.devRef .tc main_arg6) = (m ((c : Thread nD τ).loc main_arg6)) :=
  (W6_of_ne m ρ c main_arg6 (by decide)).trans (at5_arg6 m ρ c L)
theorem at6_arg7 : W6 (F := Ideal) m ρ c (Proc.devRef .tc main_arg7) = (m ((c : Thread nD τ).loc main_arg7)) :=
  (W6_of_ne m ρ c main_arg7 (by decide)).trans (at5_arg7 m ρ c L)
theorem at6_arg8 : W6 (F := Ideal) m ρ c (Proc.devRef .tc main_arg8) = (m ((c : Thread nD τ).loc main_arg8)) :=
  (W6_of_ne m ρ c main_arg8 (by decide)).trans (at5_arg8 m ρ c L)

/-! ## Layer 2 -/

theorem at7_v35 : W7 (F := Ideal) m ρ c (Proc.devRef .tc main_v35) = narrow (weightOf0 (m ((c : Thread nD τ).loc main_arg5))) :=
  (ops2_v35 _).trans (by rw [at6_arg5 m ρ c L]; first | done | rfl)
theorem at7_v37 : W7 (F := Ideal) m ρ c (Proc.devRef .tc main_v37) = biasOf0 (m ((c : Thread nD τ).loc main_arg6)) :=
  (ops2_v37 _).trans (by rw [at6_arg6 m ρ c L]; first | done | rfl)
theorem at7_v32 : W7 (F := Ideal) m ρ c (Proc.devRef .tc main_v32) = feat1 (m ((c : Thread nD τ).loc main_arg0)) (m ((c : Thread nD τ).loc main_arg1)) (m ((c : Thread nD τ).loc main_arg3)) (m ((c : Thread nD τ).loc main_arg4)) :=
  (ops2_v32 _).trans (at6_v32 m ρ c L)
theorem at7_v17 : W7 (F := Ideal) m ρ c (Proc.devRef .tc main_v17) = scaleCol (m ((c : Thread nD τ).loc main_arg1)) :=
  (ops2_v17 _).trans (at6_v17 m ρ c L)
theorem at7_v3 : W7 (F := Ideal) m ρ c (Proc.devRef .tc main_v3) = rowIds (m ((c : Thread nD τ).loc main_arg1)) :=
  (ops2_v3 _).trans (at6_v3 m ρ c L)
theorem at7_v6 : W7 (F := Ideal) m ρ c (Proc.devRef .tc main_v6) = colIds (m ((c : Thread nD τ).loc main_arg1)) :=
  (ops2_v6 _).trans (at6_v6 m ρ c L)
theorem at7_arg5 : W7 (F := Ideal) m ρ c (Proc.devRef .tc main_arg5) = (m ((c : Thread nD τ).loc main_arg5)) :=
  (ops2_arg5 _).trans (at6_arg5 m ρ c L)
theorem at7_arg6 : W7 (F := Ideal) m ρ c (Proc.devRef .tc main_arg6) = (m ((c : Thread nD τ).loc main_arg6)) :=
  (ops2_arg6 _).trans (at6_arg6 m ρ c L)
theorem at7_arg7 : W7 (F := Ideal) m ρ c (Proc.devRef .tc main_arg7) = (m ((c : Thread nD τ).loc main_arg7)) :=
  (ops2_arg7 _).trans (at6_arg7 m ρ c L)
theorem at7_arg8 : W7 (F := Ideal) m ρ c (Proc.devRef .tc main_arg8) = (m ((c : Thread nD τ).loc main_arg8)) :=
  (ops2_arg8 _).trans (at6_arg8 m ρ c L)
theorem at8_v38 : W8 (F := Ideal) m ρ c (Proc.devRef .tc main_v38) = prod2 (m ((c : Thread nD τ).loc main_arg0)) (m ((c : Thread nD τ).loc main_arg1)) (m ((c : Thread nD τ).loc main_arg3)) (m ((c : Thread nD τ).loc main_arg4)) (m ((c : Thread nD τ).loc main_arg5)) :=
  (W8_arr m ρ c 3).trans ((L.arr2 (V7 m ρ) c).trans (by dsimp only [V7]; rw [at7_v32 m ρ c L, at7_v35 m ρ c L, at7_v17 m ρ c L]; first | done | rfl))
theorem at8_v32 : W8 (F := Ideal) m ρ c (Proc.devRef .tc main_v32) = feat1 (m ((c : Thread nD τ).loc main_arg0)) (m ((c : Thread nD τ).loc main_arg1)) (m ((c : Thread nD τ).loc main_arg3)) (m ((c : Thread nD τ).loc main_arg4)) :=
  (W8_arr m ρ c 0).trans (((dat2 (V7 m ρ) c).arrAt_in 0 rfl _).trans ((A_eq2 (V7 m ρ) c 0).trans (at7_v32 m ρ c L)))
theorem at8_v37 : W8 (F := Ideal) m ρ c (Proc.devRef .tc main_v37) = biasOf0 (m ((c : Thread nD τ).loc main_arg6)) :=
  (W8_of_ne m ρ c main_v37 (by decide)).trans (at7_v37 m ρ c L)
theorem at8_v17 : W8 (F := Ideal) m ρ c (Proc.devRef .tc main_v17) = scaleCol (m ((c : Thread nD τ).loc main_arg1)) :=
  (W8_arr m ρ c 2).trans (((dat2 (V7 m ρ) c).arrAt_in 2 rfl _).trans ((A_eq2 (V7 m ρ) c 2).trans (at7_v17 m ρ c L)))
theorem at8_v3 : W8 (F := Ideal) m ρ c (Proc.devRef .tc main_v3) = rowIds (m ((c : Thread nD τ).loc main_arg1)) :=
  (W8_of_ne m ρ c main_v3 (by decide)).trans (at7_v3 m ρ c L)
theorem at8_v6 : W8 (F := Ideal) m ρ c (Proc.devRef .tc main_v6) = colIds (m ((c : Thread nD τ).loc main_arg1)) :=
  (W8_of_ne m ρ c main_v6 (by decide)).trans (at7_v6 m ρ c L)
theorem at8_arg5 : W8 (F := Ideal) m ρ c (Proc.devRef .tc main_arg5) = (m ((c : Thread nD τ).loc main_arg5)) :=
  (W8_of_ne m ρ c main_arg5 (by decide)).trans (at7_arg5 m ρ c L)
theorem at8_arg6 : W8 (F := Ideal) m ρ c (Proc.devRef .tc main_arg6) = (m ((c : Thread nD τ).loc main_arg6)) :=
  (W8_of_ne m ρ c main_arg6 (by decide)).trans (at7_arg6 m ρ c L)
theorem at8_arg7 : W8 (F := Ideal) m ρ c (Proc.devRef .tc main_arg7) = (m ((c : Thread nD τ).loc main_arg7)) :=
  (W8_of_ne m ρ c main_arg7 (by decide)).trans (at7_arg7 m ρ c L)
theorem at8_arg8 : W8 (F := Ideal) m ρ c (Proc.devRef .tc main_arg8) = (m ((c : Thread nD τ).loc main_arg8)) :=
  (W8_of_ne m ρ c main_arg8 (by decide)).trans (at7_arg8 m ρ c L)
theorem at9_v49 : W9 (F := Ideal) m ρ c (Proc.devRef .tc main_v49) = aggregate (prod2 (m ((c : Thread nD τ).loc main_arg0)) (m ((c : Thread nD τ).loc main_arg1)) (m ((c : Thread nD τ).loc main_arg3)) (m ((c : Thread nD τ).loc main_arg4)) (m ((c : Thread nD τ).loc main_arg5))) (rowIds (m ((c : Thread nD τ).loc main_arg1))) (colIds (m ((c : Thread nD τ).loc main_arg1))) :=
  (ops3_v49 _).trans (by rw [at8_v38 m ρ c L, at8_v3 m ρ c L, at8_v6 m ρ c L]; first | done | rfl)
theorem at9_v50 : W9 (F := Ideal) m ρ c (Proc.devRef .tc main_v50) = biasRow (biasOf0 (m ((c : Thread nD τ).loc main_arg6))) :=
  (ops3_v50 _).trans (by rw [at8_v37 m ρ c L]; first | done | rfl)
theorem at9_v32 : W9 (F := Ideal) m ρ c (Proc.devRef .tc main_v32) = feat1 (m ((c : Thread nD τ).loc main_arg0)) (m ((c : Thread nD τ).loc main_arg1)) (m ((c : Thread nD τ).loc main_arg3)) (m ((c : Thread nD τ).loc main_arg4)) :=
  (ops3_v32 _).trans (at8_v32 m ρ c L)
theorem at9_v17 : W9 (F := Ideal) m ρ c (Proc.devRef .tc main_v17) = scaleCol (m ((c : Thread nD τ).loc main_arg1)) :=
  (ops3_v17 _).trans (at8_v17 m ρ c L)
theorem at9_v3 : W9 (F := Ideal) m ρ c (Proc.devRef .tc main_v3) = rowIds (m ((c : Thread nD τ).loc main_arg1)) :=
  (ops3_v3 _).trans (at8_v3 m ρ c L)
theorem at9_v6 : W9 (F := Ideal) m ρ c (Proc.devRef .tc main_v6) = colIds (m ((c : Thread nD τ).loc main_arg1)) :=
  (ops3_v6 _).trans (at8_v6 m ρ c L)
theorem at9_arg5 : W9 (F := Ideal) m ρ c (Proc.devRef .tc main_arg5) = (m ((c : Thread nD τ).loc main_arg5)) :=
  (ops3_arg5 _).trans (at8_arg5 m ρ c L)
theorem at9_arg6 : W9 (F := Ideal) m ρ c (Proc.devRef .tc main_arg6) = (m ((c : Thread nD τ).loc main_arg6)) :=
  (ops3_arg6 _).trans (at8_arg6 m ρ c L)
theorem at9_arg7 : W9 (F := Ideal) m ρ c (Proc.devRef .tc main_arg7) = (m ((c : Thread nD τ).loc main_arg7)) :=
  (ops3_arg7 _).trans (at8_arg7 m ρ c L)
theorem at9_arg8 : W9 (F := Ideal) m ρ c (Proc.devRef .tc main_arg8) = (m ((c : Thread nD τ).loc main_arg8)) :=
  (ops3_arg8 _).trans (at8_arg8 m ρ c L)
theorem at10_v51 : W10 (F := Ideal) m ρ c (Proc.devRef .tc main_v51) = feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W10_arr m ρ c 4).trans ((L.arr3 (V9 m ρ) c).trans (by dsimp only [V9]; rw [at9_v49 m ρ c L, at9_v17 m ρ c L, at9_v50 m ρ c L, at9_v32 m ρ c L]; first | done | rfl))
theorem at10_v17 : W10 (F := Ideal) m ρ c (Proc.devRef .tc main_v17) = scaleCol (m ((c : Thread nD τ).loc main_arg1)) :=
  (W10_arr m ρ c 1).trans (((dat3 (V9 m ρ) c).arrAt_in 1 rfl _).trans ((A_eq3 (V9 m ρ) c 1).trans (at9_v17 m ρ c L)))
theorem at10_v3 : W10 (F := Ideal) m ρ c (Proc.devRef .tc main_v3) = rowIds (m ((c : Thread nD τ).loc main_arg1)) :=
  (W10_of_ne m ρ c main_v3 (by decide)).trans (at9_v3 m ρ c L)
theorem at10_v6 : W10 (F := Ideal) m ρ c (Proc.devRef .tc main_v6) = colIds (m ((c : Thread nD τ).loc main_arg1)) :=
  (W10_of_ne m ρ c main_v6 (by decide)).trans (at9_v6 m ρ c L)
theorem at10_arg5 : W10 (F := Ideal) m ρ c (Proc.devRef .tc main_arg5) = (m ((c : Thread nD τ).loc main_arg5)) :=
  (W10_of_ne m ρ c main_arg5 (by decide)).trans (at9_arg5 m ρ c L)
theorem at10_arg6 : W10 (F := Ideal) m ρ c (Proc.devRef .tc main_arg6) = (m ((c : Thread nD τ).loc main_arg6)) :=
  (W10_of_ne m ρ c main_arg6 (by decide)).trans (at9_arg6 m ρ c L)
theorem at10_arg7 : W10 (F := Ideal) m ρ c (Proc.devRef .tc main_arg7) = (m ((c : Thread nD τ).loc main_arg7)) :=
  (W10_of_ne m ρ c main_arg7 (by decide)).trans (at9_arg7 m ρ c L)
theorem at10_arg8 : W10 (F := Ideal) m ρ c (Proc.devRef .tc main_arg8) = (m ((c : Thread nD τ).loc main_arg8)) :=
  (W10_of_ne m ρ c main_arg8 (by decide)).trans (at9_arg8 m ρ c L)

/-! ## Layer 3 -/

theorem at11_v54 : W11 (F := Ideal) m ρ c (Proc.devRef .tc main_v54) = narrow (weightOf1 (m ((c : Thread nD τ).loc main_arg5))) :=
  (ops4_v54 _).trans (by rw [at10_arg5 m ρ c L]; first | done | rfl)
theorem at11_v56 : W11 (F := Ideal) m ρ c (Proc.devRef .tc main_v56) = biasOf1 (m ((c : Thread nD τ).loc main_arg6)) :=
  (ops4_v56 _).trans (by rw [at10_arg6 m ρ c L]; first | done | rfl)
theorem at11_v51 : W11 (F := Ideal) m ρ c (Proc.devRef .tc main_v51) = feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (ops4_v51 _).trans (at10_v51 m ρ c L)
theorem at11_v17 : W11 (F := Ideal) m ρ c (Proc.devRef .tc main_v17) = scaleCol (m ((c : Thread nD τ).loc main_arg1)) :=
  (ops4_v17 _).trans (at10_v17 m ρ c L)
theorem at11_v3 : W11 (F := Ideal) m ρ c (Proc.devRef .tc main_v3) = rowIds (m ((c : Thread nD τ).loc main_arg1)) :=
  (ops4_v3 _).trans (at10_v3 m ρ c L)
theorem at11_v6 : W11 (F := Ideal) m ρ c (Proc.devRef .tc main_v6) = colIds (m ((c : Thread nD τ).loc main_arg1)) :=
  (ops4_v6 _).trans (at10_v6 m ρ c L)
theorem at11_arg5 : W11 (F := Ideal) m ρ c (Proc.devRef .tc main_arg5) = (m ((c : Thread nD τ).loc main_arg5)) :=
  (ops4_arg5 _).trans (at10_arg5 m ρ c L)
theorem at11_arg6 : W11 (F := Ideal) m ρ c (Proc.devRef .tc main_arg6) = (m ((c : Thread nD τ).loc main_arg6)) :=
  (ops4_arg6 _).trans (at10_arg6 m ρ c L)
theorem at11_arg7 : W11 (F := Ideal) m ρ c (Proc.devRef .tc main_arg7) = (m ((c : Thread nD τ).loc main_arg7)) :=
  (ops4_arg7 _).trans (at10_arg7 m ρ c L)
theorem at11_arg8 : W11 (F := Ideal) m ρ c (Proc.devRef .tc main_arg8) = (m ((c : Thread nD τ).loc main_arg8)) :=
  (ops4_arg8 _).trans (at10_arg8 m ρ c L)
theorem at12_v57 : W12 (F := Ideal) m ρ c (Proc.devRef .tc main_v57) = prod3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W12_arr m ρ c 3).trans ((L.arr4 (V11 m ρ) c).trans (by dsimp only [V11]; rw [at11_v51 m ρ c L, at11_v54 m ρ c L, at11_v17 m ρ c L]; first | done | rfl))
theorem at12_v51 : W12 (F := Ideal) m ρ c (Proc.devRef .tc main_v51) = feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W12_arr m ρ c 0).trans (((dat4 (V11 m ρ) c).arrAt_in 0 rfl _).trans ((A_eq4 (V11 m ρ) c 0).trans (at11_v51 m ρ c L)))
theorem at12_v56 : W12 (F := Ideal) m ρ c (Proc.devRef .tc main_v56) = biasOf1 (m ((c : Thread nD τ).loc main_arg6)) :=
  (W12_of_ne m ρ c main_v56 (by decide)).trans (at11_v56 m ρ c L)
theorem at12_v17 : W12 (F := Ideal) m ρ c (Proc.devRef .tc main_v17) = scaleCol (m ((c : Thread nD τ).loc main_arg1)) :=
  (W12_arr m ρ c 2).trans (((dat4 (V11 m ρ) c).arrAt_in 2 rfl _).trans ((A_eq4 (V11 m ρ) c 2).trans (at11_v17 m ρ c L)))
theorem at12_v3 : W12 (F := Ideal) m ρ c (Proc.devRef .tc main_v3) = rowIds (m ((c : Thread nD τ).loc main_arg1)) :=
  (W12_of_ne m ρ c main_v3 (by decide)).trans (at11_v3 m ρ c L)
theorem at12_v6 : W12 (F := Ideal) m ρ c (Proc.devRef .tc main_v6) = colIds (m ((c : Thread nD τ).loc main_arg1)) :=
  (W12_of_ne m ρ c main_v6 (by decide)).trans (at11_v6 m ρ c L)
theorem at12_arg5 : W12 (F := Ideal) m ρ c (Proc.devRef .tc main_arg5) = (m ((c : Thread nD τ).loc main_arg5)) :=
  (W12_of_ne m ρ c main_arg5 (by decide)).trans (at11_arg5 m ρ c L)
theorem at12_arg6 : W12 (F := Ideal) m ρ c (Proc.devRef .tc main_arg6) = (m ((c : Thread nD τ).loc main_arg6)) :=
  (W12_of_ne m ρ c main_arg6 (by decide)).trans (at11_arg6 m ρ c L)
theorem at12_arg7 : W12 (F := Ideal) m ρ c (Proc.devRef .tc main_arg7) = (m ((c : Thread nD τ).loc main_arg7)) :=
  (W12_of_ne m ρ c main_arg7 (by decide)).trans (at11_arg7 m ρ c L)
theorem at12_arg8 : W12 (F := Ideal) m ρ c (Proc.devRef .tc main_arg8) = (m ((c : Thread nD τ).loc main_arg8)) :=
  (W12_of_ne m ρ c main_arg8 (by decide)).trans (at11_arg8 m ρ c L)
theorem at13_v68 : W13 (F := Ideal) m ρ c (Proc.devRef .tc main_v68) = aggregate (prod3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (rowIds (m ((c : Thread nD τ).loc main_arg1))) (colIds (m ((c : Thread nD τ).loc main_arg1))) :=
  (ops5_v68 _).trans (by rw [at12_v57 m ρ c L, at12_v3 m ρ c L, at12_v6 m ρ c L]; first | done | rfl)
theorem at13_v69 : W13 (F := Ideal) m ρ c (Proc.devRef .tc main_v69) = biasRow (biasOf1 (m ((c : Thread nD τ).loc main_arg6))) :=
  (ops5_v69 _).trans (by rw [at12_v56 m ρ c L]; first | done | rfl)
theorem at13_v51 : W13 (F := Ideal) m ρ c (Proc.devRef .tc main_v51) = feat2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (ops5_v51 _).trans (at12_v51 m ρ c L)
theorem at13_v17 : W13 (F := Ideal) m ρ c (Proc.devRef .tc main_v17) = scaleCol (m ((c : Thread nD τ).loc main_arg1)) :=
  (ops5_v17 _).trans (at12_v17 m ρ c L)
theorem at13_v3 : W13 (F := Ideal) m ρ c (Proc.devRef .tc main_v3) = rowIds (m ((c : Thread nD τ).loc main_arg1)) :=
  (ops5_v3 _).trans (at12_v3 m ρ c L)
theorem at13_v6 : W13 (F := Ideal) m ρ c (Proc.devRef .tc main_v6) = colIds (m ((c : Thread nD τ).loc main_arg1)) :=
  (ops5_v6 _).trans (at12_v6 m ρ c L)
theorem at13_arg5 : W13 (F := Ideal) m ρ c (Proc.devRef .tc main_arg5) = (m ((c : Thread nD τ).loc main_arg5)) :=
  (ops5_arg5 _).trans (at12_arg5 m ρ c L)
theorem at13_arg6 : W13 (F := Ideal) m ρ c (Proc.devRef .tc main_arg6) = (m ((c : Thread nD τ).loc main_arg6)) :=
  (ops5_arg6 _).trans (at12_arg6 m ρ c L)
theorem at13_arg7 : W13 (F := Ideal) m ρ c (Proc.devRef .tc main_arg7) = (m ((c : Thread nD τ).loc main_arg7)) :=
  (ops5_arg7 _).trans (at12_arg7 m ρ c L)
theorem at13_arg8 : W13 (F := Ideal) m ρ c (Proc.devRef .tc main_arg8) = (m ((c : Thread nD τ).loc main_arg8)) :=
  (ops5_arg8 _).trans (at12_arg8 m ρ c L)
theorem at14_v70 : W14 (F := Ideal) m ρ c (Proc.devRef .tc main_v70) = feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W14_arr m ρ c 4).trans ((L.arr5 (V13 m ρ) c).trans (by dsimp only [V13]; rw [at13_v68 m ρ c L, at13_v17 m ρ c L, at13_v69 m ρ c L, at13_v51 m ρ c L]; first | done | rfl))
theorem at14_v17 : W14 (F := Ideal) m ρ c (Proc.devRef .tc main_v17) = scaleCol (m ((c : Thread nD τ).loc main_arg1)) :=
  (W14_arr m ρ c 1).trans (((dat5 (V13 m ρ) c).arrAt_in 1 rfl _).trans ((A_eq5 (V13 m ρ) c 1).trans (at13_v17 m ρ c L)))
theorem at14_v3 : W14 (F := Ideal) m ρ c (Proc.devRef .tc main_v3) = rowIds (m ((c : Thread nD τ).loc main_arg1)) :=
  (W14_of_ne m ρ c main_v3 (by decide)).trans (at13_v3 m ρ c L)
theorem at14_v6 : W14 (F := Ideal) m ρ c (Proc.devRef .tc main_v6) = colIds (m ((c : Thread nD τ).loc main_arg1)) :=
  (W14_of_ne m ρ c main_v6 (by decide)).trans (at13_v6 m ρ c L)
theorem at14_arg5 : W14 (F := Ideal) m ρ c (Proc.devRef .tc main_arg5) = (m ((c : Thread nD τ).loc main_arg5)) :=
  (W14_of_ne m ρ c main_arg5 (by decide)).trans (at13_arg5 m ρ c L)
theorem at14_arg6 : W14 (F := Ideal) m ρ c (Proc.devRef .tc main_arg6) = (m ((c : Thread nD τ).loc main_arg6)) :=
  (W14_of_ne m ρ c main_arg6 (by decide)).trans (at13_arg6 m ρ c L)
theorem at14_arg7 : W14 (F := Ideal) m ρ c (Proc.devRef .tc main_arg7) = (m ((c : Thread nD τ).loc main_arg7)) :=
  (W14_of_ne m ρ c main_arg7 (by decide)).trans (at13_arg7 m ρ c L)
theorem at14_arg8 : W14 (F := Ideal) m ρ c (Proc.devRef .tc main_arg8) = (m ((c : Thread nD τ).loc main_arg8)) :=
  (W14_of_ne m ρ c main_arg8 (by decide)).trans (at13_arg8 m ρ c L)

/-! ## Layer 4 and the head -/

theorem at15_v73 : W15 (F := Ideal) m ρ c (Proc.devRef .tc main_v73) = narrow (weightOf2 (m ((c : Thread nD τ).loc main_arg5))) :=
  (ops6_v73 _).trans (by rw [at14_arg5 m ρ c L]; first | done | rfl)
theorem at15_v75 : W15 (F := Ideal) m ρ c (Proc.devRef .tc main_v75) = biasOf2 (m ((c : Thread nD τ).loc main_arg6)) :=
  (ops6_v75 _).trans (by rw [at14_arg6 m ρ c L]; first | done | rfl)
theorem at15_v70 : W15 (F := Ideal) m ρ c (Proc.devRef .tc main_v70) = feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (ops6_v70 _).trans (at14_v70 m ρ c L)
theorem at15_v17 : W15 (F := Ideal) m ρ c (Proc.devRef .tc main_v17) = scaleCol (m ((c : Thread nD τ).loc main_arg1)) :=
  (ops6_v17 _).trans (at14_v17 m ρ c L)
theorem at15_v3 : W15 (F := Ideal) m ρ c (Proc.devRef .tc main_v3) = rowIds (m ((c : Thread nD τ).loc main_arg1)) :=
  (ops6_v3 _).trans (at14_v3 m ρ c L)
theorem at15_v6 : W15 (F := Ideal) m ρ c (Proc.devRef .tc main_v6) = colIds (m ((c : Thread nD τ).loc main_arg1)) :=
  (ops6_v6 _).trans (at14_v6 m ρ c L)
theorem at15_arg7 : W15 (F := Ideal) m ρ c (Proc.devRef .tc main_arg7) = (m ((c : Thread nD τ).loc main_arg7)) :=
  (ops6_arg7 _).trans (at14_arg7 m ρ c L)
theorem at15_arg8 : W15 (F := Ideal) m ρ c (Proc.devRef .tc main_arg8) = (m ((c : Thread nD τ).loc main_arg8)) :=
  (ops6_arg8 _).trans (at14_arg8 m ρ c L)
theorem at16_v76 : W16 (F := Ideal) m ρ c (Proc.devRef .tc main_v76) = prod4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W16_arr m ρ c 3).trans ((L.arr6 (V15 m ρ) c).trans (by dsimp only [V15]; rw [at15_v70 m ρ c L, at15_v73 m ρ c L, at15_v17 m ρ c L]; first | done | rfl))
theorem at16_v70 : W16 (F := Ideal) m ρ c (Proc.devRef .tc main_v70) = feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W16_arr m ρ c 0).trans (((dat6 (V15 m ρ) c).arrAt_in 0 rfl _).trans ((A_eq6 (V15 m ρ) c 0).trans (at15_v70 m ρ c L)))
theorem at16_v75 : W16 (F := Ideal) m ρ c (Proc.devRef .tc main_v75) = biasOf2 (m ((c : Thread nD τ).loc main_arg6)) :=
  (W16_of_ne m ρ c main_v75 (by decide)).trans (at15_v75 m ρ c L)
theorem at16_v17 : W16 (F := Ideal) m ρ c (Proc.devRef .tc main_v17) = scaleCol (m ((c : Thread nD τ).loc main_arg1)) :=
  (W16_arr m ρ c 2).trans (((dat6 (V15 m ρ) c).arrAt_in 2 rfl _).trans ((A_eq6 (V15 m ρ) c 2).trans (at15_v17 m ρ c L)))
theorem at16_v3 : W16 (F := Ideal) m ρ c (Proc.devRef .tc main_v3) = rowIds (m ((c : Thread nD τ).loc main_arg1)) :=
  (W16_of_ne m ρ c main_v3 (by decide)).trans (at15_v3 m ρ c L)
theorem at16_v6 : W16 (F := Ideal) m ρ c (Proc.devRef .tc main_v6) = colIds (m ((c : Thread nD τ).loc main_arg1)) :=
  (W16_of_ne m ρ c main_v6 (by decide)).trans (at15_v6 m ρ c L)
theorem at16_arg7 : W16 (F := Ideal) m ρ c (Proc.devRef .tc main_arg7) = (m ((c : Thread nD τ).loc main_arg7)) :=
  (W16_of_ne m ρ c main_arg7 (by decide)).trans (at15_arg7 m ρ c L)
theorem at16_arg8 : W16 (F := Ideal) m ρ c (Proc.devRef .tc main_arg8) = (m ((c : Thread nD τ).loc main_arg8)) :=
  (W16_of_ne m ρ c main_arg8 (by decide)).trans (at15_arg8 m ρ c L)
theorem at17_v87 : W17 (F := Ideal) m ρ c (Proc.devRef .tc main_v87) = aggregate (prod4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (rowIds (m ((c : Thread nD τ).loc main_arg1))) (colIds (m ((c : Thread nD τ).loc main_arg1))) :=
  (ops7_v87 _).trans (by rw [at16_v76 m ρ c L, at16_v3 m ρ c L, at16_v6 m ρ c L]; first | done | rfl)
theorem at17_v88 : W17 (F := Ideal) m ρ c (Proc.devRef .tc main_v88) = biasRow (biasOf2 (m ((c : Thread nD τ).loc main_arg6))) :=
  (ops7_v88 _).trans (by rw [at16_v75 m ρ c L]; first | done | rfl)
theorem at17_v70 : W17 (F := Ideal) m ρ c (Proc.devRef .tc main_v70) = feat3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (ops7_v70 _).trans (at16_v70 m ρ c L)
theorem at17_v17 : W17 (F := Ideal) m ρ c (Proc.devRef .tc main_v17) = scaleCol (m ((c : Thread nD τ).loc main_arg1)) :=
  (ops7_v17 _).trans (at16_v17 m ρ c L)
theorem at17_arg7 : W17 (F := Ideal) m ρ c (Proc.devRef .tc main_arg7) = (m ((c : Thread nD τ).loc main_arg7)) :=
  (ops7_arg7 _).trans (at16_arg7 m ρ c L)
theorem at17_arg8 : W17 (F := Ideal) m ρ c (Proc.devRef .tc main_arg8) = (m ((c : Thread nD τ).loc main_arg8)) :=
  (ops7_arg8 _).trans (at16_arg8 m ρ c L)
theorem at18_v89 : W18 (F := Ideal) m ρ c (Proc.devRef .tc main_v89) = feat4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W18_arr m ρ c 4).trans ((L.arr7 (V17 m ρ) c).trans (by dsimp only [V17]; rw [at17_v87 m ρ c L, at17_v17 m ρ c L, at17_v88 m ρ c L, at17_v70 m ρ c L]; first | done | rfl))
theorem at18_arg7 : W18 (F := Ideal) m ρ c (Proc.devRef .tc main_arg7) = (m ((c : Thread nD τ).loc main_arg7)) :=
  (W18_of_ne m ρ c main_arg7 (by decide)).trans (at17_arg7 m ρ c L)
theorem at18_arg8 : W18 (F := Ideal) m ρ c (Proc.devRef .tc main_arg8) = (m ((c : Thread nD τ).loc main_arg8)) :=
  (W18_of_ne m ρ c main_arg8 (by decide)).trans (at17_arg8 m ρ c L)
theorem at19_v97 : W19 (F := Ideal) m ρ c (Proc.devRef .tc main_v97) = result (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (ops8_v97 _).trans (by rw [at18_v89 m ρ c L, at18_arg7 m ρ c L, at18_arg8 m ρ c L]; first | done | rfl)

end Cert.KernelIdeal.Fold

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«143480_j89300960018655_2_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.RegionsA.lean ====
/-
  The four product regions, each as one function of the whole arrays it reads.

  A product region walks the 50000 rows in 25 blocks of 2000. At block `t` it multiplies rows `2000 t … 2000 t + 1999` of
  the left factor by the whole 128 × 128 weight and scales row `p` of that product by entry `2000 t + p` of the column.
  Row `p` of a product reads row `p` of the left factor only, and the scale of a row reads that row's entry of the column
  only, so the block the region writes at `t` is rows `2000 t …` of the scaled product of the WHOLE left factor by the
  weight and the WHOLE column. The 25 blocks tile the rows (row `r` lies in block `r / 2000`), so the array the region
  leaves is that scaled product. The roundings to the narrower format on the way into and out of the product are the
  identity on the extended reals.
-/
import proofs.«143480_j89300960018655_2_alg».proof.Proof.Gen.KernelIdeal.Frame
import proofs.«143480_j89300960018655_2_alg».proof.Proof.Spec
import proofs.«143480_j89300960018655_2_alg».proof.Proof.LibColumnBroadcast
import proofs.«143480_j89300960018655_2_alg».proof.Proof.LibRowBlocks
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open Cert.MatProduct (rowOf colOf prod)
open Cert.Bridge (RowsAt)

/-- The offsets `(0, 0)` are the zero offsets. -/
theorem zeroOffsets_prod : (![0, 0] : Fin 2 → Nat) = fun _ => 0 := funext fun a => by fin_cases a <;> rfl

/-- The matrix unit's dimension numbers are those of a plain `[2000, 128]` by `[128, 128]` product. -/
theorem dot_plain : dot_S2000x128_S128x128_S2000x128_1_0_0_1_n_n = DotDims.plain 2000 128 128 := rfl

/-- Scaling the rows of a product keeps "a block is a stretch of rows": row `p` of the scaled product reads row `p` of
    the left factor and entry `p` of the column. -/
theorem scaledProduct_rows {M R K N : ℕ} {o : ℕ} {x : Cert.Gcn.Arr M K} {x' : Cert.Gcn.Arr R K} (w : Cert.Gcn.Arr K N)
    {d : Cert.Gcn.Arr M 1} {d' : Cert.Gcn.Arr R 1} (hx : RowsAt o x x') (hd : RowsAt o d d') :
    RowsAt o (Cert.Gcn.scaledProduct x w d) (Cert.Gcn.scaledProduct x' w d') := fun p r j e => by
  show prod x w (ix2 p j) * d (ix2 p (0 : Fin 1)) = prod x' w (ix2 r j) * d' (ix2 r (0 : Fin 1))
  rw [(hx.prod w) p r j e, hd p r 0 e]

/-! ## Region 0 -/

/-- The body of region 0 on the extended reals: the block's rows times the weight, row `p` scaled by entry `p` of the
    column's block. -/
theorem pay0_eq (x0 : Vec Ideal S2000x128 .f32) (x1 : Vec Ideal S128x128 .bf16) (x2 : Vec Ideal S2000x1 .f32) :
    Gen.k0_pay1 x0 x1 x2 = Cert.Gcn.scaledProduct x0 x1 x2 := by
  unfold Gen.k0_pay1
  dsimp only
  rw [shapeCast_self, shapeCast_self, shapeCast_self, dot_plain]
  funext y
  obtain ⟨p, q, rfl⟩ : ∃ (p : Fin 2000) (q : Fin 128), y = ix2 p q := ⟨rowOf y, colOf y, Cert.MatProduct.eq_row_col y⟩
  rw [truncf_apply, mulf_apply, Cert.Layout.broadcastTo_a1_ab_apply]
  have hm := Cert.MatProduct.matmul_zero_eq_prod (M := 2000) (K := 128) (N := 128) (φ₁ := .bf16) (φ₂ := .bf16) none
    (truncf FTy.bf16 x0 bitsLt_bf16_f32) x1
  refine (congrArg (fun z => z * x2 (ix2 p (0 : Fin 1))) (congrFun hm (ix2 p q))).trans ?_
  rfl

/-- The block index of each window of region 0 at grid point `t`: the row-block windows sit at block `t`, the weight at
    block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b)) (c : Dev nD)

/-- The left factor's block at point `t` is rows `2000 t …` of the left factor. -/
theorem rows0_0 (t : Fin cfg0.N) :
    RowsAt (2000 * t.val) (iblk0 V c 0 t : Vec Ideal S2000x128 .f32) (V c main_arg0 : Vec Ideal S50000x128 .f32) := by
  obtain ⟨e0, e1, -⟩ := idx_facts0 t
  intro p r j e
  unfold iblk0
  rw [View.read_apply]
  show V c main_arg0 (((cfg0.win 0).blk t).view.emb (ix2 p j)) = V c main_arg0 (ix2 r j)
  refine congrArg _ ?_
  funext a
  apply Fin.ext
  match a with
  | ⟨0, _⟩ => show win0_0.index t (0 : Fin 2) * 2000 + 1 * p.val = r.val; rw [e0, e]; omega
  | ⟨1, _⟩ => show win0_0.index t (1 : Fin 2) * 128 + 1 * j.val = j.val; rw [e1]; omega

/-- The column's block at point `t` is rows `2000 t …` of the column. -/
theorem rows0_2 (t : Fin cfg0.N) :
    RowsAt (2000 * t.val) (iblk0 V c 2 t : Vec Ideal S2000x1 .f32) (V c main_v17 : Vec Ideal S50000x1 .f32) := by
  obtain ⟨-, -, -, -, e0, e1, -⟩ := idx_facts0 t
  intro p r j e
  unfold iblk0
  rw [View.read_apply]
  show V c main_v17 (((cfg0.win 2).blk t).view.emb (ix2 p j)) = V c main_v17 (ix2 r j)
  refine congrArg _ ?_
  funext a
  apply Fin.ext
  match a with
  | ⟨0, _⟩ => show win0_2.index t (0 : Fin 2) * 2000 + 1 * p.val = r.val; rw [e0, e]; omega
  | ⟨1, _⟩ => show win0_2.index t (1 : Fin 2) * 1 + 1 * j.val = j.val; rw [e1]; omega

/-- The weight's block at every point is the whole weight. -/
theorem whole0_1 (t : Fin cfg0.N) :
    (iblk0 V c 1 t : Vec Ideal S128x128 .bf16) = (V c main_v18 : Vec Ideal S128x128 .bf16) := by
  obtain ⟨-, -, e0, e1, -⟩ := idx_facts0 t
  funext y
  unfold iblk0
  rw [View.read_apply]
  show V c main_v18 (((cfg0.win 1).blk t).view.emb y) = V c main_v18 y
  refine congrArg _ ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- What point `t` writes back is block `t` of the scaled product of the whole arrays. -/
theorem flushed0_eq (t : Fin cfg0.N) :
    (Gen.dat0 (F := Ideal) V c).flushed 3 t = ((cfg0.win 3).blk t).view.read (Elt Ideal)
      (Cert.Gcn.scaledProduct (V c main_arg0) (V c main_v18) (V c main_v17)) := by
  show (cfg0.win 3).cut (grid0.coords t) ((Gen.dat0 V c).after 3 t) = _
  rw [Gen.after0_3]
  unfold Gen.out0_3
  rw [View.canon_unit_zero zeroOffsets_prod]
  simp only [View.ld_unit_zero (S := S2000x128) zeroOffsets_prod, View.ld_unit_zero (S := S128x128) zeroOffsets_prod,
    View.ld_unit_zero (S := S2000x1) zeroOffsets_prod]
  rw [pay0_eq, whole0_1]
  obtain ⟨-, -, -, -, -, -, e0, e1⟩ := idx_facts0 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg0.win 3).blk t).view.emb (ix2 p q) = ix2 (⟨2000 * t.val + p.val, by omega⟩ : Fin 50000) q := by
    funext a
    apply Fin.ext
    match a with
    | ⟨0, _⟩ => show win0_3.index t (0 : Fin 2) * 2000 + 1 * p.val = 2000 * t.val + p.val; rw [e0]; omega
    | ⟨1, _⟩ => show win0_3.index t (1 : Fin 2) * 128 + 1 * q.val = q.val; rw [e1]; omega
  rw [hemb]
  exact scaledProduct_rows (V c main_v18 : Vec Ideal S128x128 .bf16) (rows0_0 V c t) (rows0_2 V c t) p _ q rfl

end

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v19).slice (win0_3.rect t)).set ↔ _
  rw [View.set_slice_whole, Rect.mem_set_unit]
  exact Iff.rfl

/-- Row `r` of the output array lies in the block of point `r / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 2000 < cfg0.N := Nat.lt_of_lt_of_eq (by omega) N_0.symm
  obtain ⟨-, -, -, -, -, -, e0, e1⟩ := idx_facts0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    rw [e1]
    omega

/-- Region 0 leaves the scaled product of its whole operands in its output array. -/
theorem arr0 (V : (c : Dev nD) → (b : Ref sig .tc) → Buf (Elt Ideal) ((c : Thread nD τ).loc b)) (c : Dev nD) :
    (Gen.dat0 (F := Ideal) V c).arrAt 3 cfg0.N
      = Cert.Gcn.scaledProduct (V c main_arg0) (V c main_v18) (V c main_v17) :=
  (Gen.dat0 (F := Ideal) V c).arrAt_eq_of_cover 3 _ (fun t _ => flushed0_eq V c t) cover0

/-! ## Region 2 -/

/-- The body of region 2 on the extended reals: the block's rows times the weight, row `p` scaled by entry `p` of the
    column's block. -/
theorem pay2_eq (x0 : Vec Ideal S2000x128 .f32) (x1 : Vec Ideal S128x128 .bf16) (x2 : Vec Ideal S2000x1 .f32) :
    Gen.k2_pay1 x0 x1 x2 = Cert.Gcn.scaledProduct x0 x1 x2 := by
  unfold Gen.k2_pay1
  dsimp only
  rw [shapeCast_self, shapeCast_self, shapeCast_self, shapeCast_self, dot_plain]
  funext y
  obtain ⟨p, q, rfl⟩ : ∃ (p : Fin 2000) (q : Fin 128), y = ix2 p q := ⟨rowOf y, colOf y, Cert.MatProduct.eq_row_col y⟩
  rw [truncf_apply, mulf_apply, Cert.Layout.broadcastTo_a1_ab_apply]
  have hm := Cert.MatProduct.matmul_zero_eq_prod (M := 2000) (K := 128) (N := 128) (φ₁ := .bf16) (φ₂ := .bf16) none
    (truncf FTy.bf16 x0 bitsLt_bf16_f32) x1
  refine (congrArg (fun z => z * x2 (ix2 p (0 : Fin 1))) (congrFun hm (ix2 p q))).trans ?_
  rfl

/-- The block index of each window of region 2 at grid point `t`: the row-block windows sit at block `t`, the weight at
    block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b)) (c : Dev nD)

/-- The left factor's block at point `t` is rows `2000 t …` of the left factor. -/
theorem rows2_0 (t : Fin cfg2.N) :
    RowsAt (2000 * t.val) (iblk2 V c 0 t : Vec Ideal S2000x128 .f32) (V c main_v32 : Vec Ideal S50000x128 .f32) := by
  obtain ⟨e0, e1, -⟩ := idx_facts2 t
  intro p r j e
  unfold iblk2
  rw [View.read_apply]
  show V c main_v32 (((cfg2.win 0).blk t).view.emb (ix2 p j)) = V c main_v32 (ix2 r j)
  refine congrArg _ ?_
  funext a
  apply Fin.ext
  match a with
  | ⟨0, _⟩ => show win2_0.index t (0 : Fin 2) * 2000 + 1 * p.val = r.val; rw [e0, e]; omega
  | ⟨1, _⟩ => show win2_0.index t (1 : Fin 2) * 128 + 1 * j.val = j.val; rw [e1]; omega

/-- The column's block at point `t` is rows `2000 t …` of the column. -/
theorem rows2_2 (t : Fin cfg2.N) :
    RowsAt (2000 * t.val) (iblk2 V c 2 t : Vec Ideal S2000x1 .f32) (V c main_v17 : Vec Ideal S50000x1 .f32) := by
  obtain ⟨-, -, -, -, e0, e1, -⟩ := idx_facts2 t
  intro p r j e
  unfold iblk2
  rw [View.read_apply]
  show V c main_v17 (((cfg2.win 2).blk t).view.emb (ix2 p j)) = V c main_v17 (ix2 r j)
  refine congrArg _ ?_
  funext a
  apply Fin.ext
  match a with
  | ⟨0, _⟩ => show win2_2.index t (0 : Fin 2) * 2000 + 1 * p.val = r.val; rw [e0, e]; omega
  | ⟨1, _⟩ => show win2_2.index t (1 : Fin 2) * 1 + 1 * j.val = j.val; rw [e1]; omega

/-- The weight's block at every point is the whole weight. -/
theorem whole2_1 (t : Fin cfg2.N) :
    (iblk2 V c 1 t : Vec Ideal S128x128 .bf16) = (V c main_v35 : Vec Ideal S128x128 .bf16) := by
  obtain ⟨-, -, e0, e1, -⟩ := idx_facts2 t
  funext y
  unfold iblk2
  rw [View.read_apply]
  show V c main_v35 (((cfg2.win 1).blk t).view.emb y) = V c main_v35 y
  refine congrArg _ ?_
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- What point `t` writes back is block `t` of the scaled product of the whole arrays. -/
theorem flushed2_eq (t : Fin cfg2.N) :
    (Gen.dat2 (F := Ideal) V c).flushed 3 t = ((cfg2.win 3).blk t).view.read (Elt Ideal)
      (Cert.Gcn.scaledProduct (V c main_v32) (V c main_v35) (V c main_v17)) := by
  show (cfg2.win 3).cut (grid2.coords t) ((Gen.dat2 V c).after 3 t) = _
  rw [Gen.after2_3]
  unfold Gen.out2_3
  rw [View.canon_unit_zero zeroOffsets_prod]
  simp only [View.ld_unit_zero (S := S2000x128) zeroOffsets_prod, View.ld_unit_zero (S := S128x128) zeroOffsets_prod,
    View.ld_unit_zero (S := S2000x1) zeroOffsets_prod]
  rw [pay2_eq, whole2_1]
  obtain ⟨-, -, -, -, -, -, e0, e1⟩ := idx_facts2 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg2.win 3).blk t).view.emb (ix2 p q) = ix2 (⟨2000 * t.val + p.val, by omega⟩ : Fin 50000) q := by
    funext a
    apply Fin.ext
    match a with
    | ⟨0, _⟩ => show win2_3.index t (0 : Fin 2) * 2000 + 1 * p.val = 2000 * t.val + p.val; rw [e0]; omega
    | ⟨1, _⟩ => show win2_3.index t (1 : Fin 2) * 128 + 1 * q.val = q.val; rw [e1]; omega
  rw [hemb]
  exact scaledProduct_rows (V c main_v35 : Vec Ideal S128x128 .bf16) (rows2_0 V c t) (rows2_2 V c t) p _ q rfl

end

/-- An index of the output array is in point `t`'s block iff each coordinate is in the block's range on its axis. -/
theorem mem_blk2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v38).slice (win2_3.rect t)).set ↔ _
  rw [View.set_slice_whole, Rect.mem_set_unit]
  exact Iff.rfl

/-- Row `r` of the output array lies in the block of point `r / 2000`. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hlt : (i 0).val / 2000 < cfg2.N := Nat.lt_of_lt_of_eq (by omega) N_2.symm
  obtain ⟨-, -, -, -, -, -, e0, e1⟩ := idx_facts2 ⟨(i 0).val / 2000, hlt⟩
  refine ⟨⟨(i 0).val / 2000, hlt⟩, flush2_3 _, ?_⟩
  rw [mem_blk2]
  intro a
  match a with
  | ⟨0, _⟩ =>
    show win2_3.index ⟨(i 0).val / 2000, hlt⟩ (0 : Fin 2) * 2000 ≤ (i 0).val
      ∧ (i 0).val < win2_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win2_3.index ⟨(i 0).val / 2000, hlt⟩ (1 : Fin 2) * 128 ≤ (i 1).val
      ∧ (i 1).val < win2_3.index ⟨(i 0).val / 2000, hlt⟩ (1 : Fin 2) * 128 + 128
    rw [e1]
    omega

/-- Region 2 leaves the scaled product of its whole operands in its output array. -/
theorem arr2 (V : (c : Dev nD) → (b : Ref sig .tc) → Buf (Elt Ideal) ((c : Thread nD τ).loc b)) (c : Dev nD) :
    (Gen.dat2 (F := Ideal) V c).arrAt 3 cfg2.N
      = Cert.Gcn.scaledProduct (V c main_v32) (V c main_v35) (V c main_v17) :=
  (Gen.dat2 (F := Ideal) V c).arrAt_eq_of_cover 3 _ (fun t _ => flushed2_eq V c t) cover2

/-! ## Region 4 -/

/-- The body of region 4 on the extended reals: the block's rows times the weight, row `p` scaled by entry `p` of the
    column's block. -/
theorem pay4_eq (x0 : Vec Ideal S2000x128 .f32) (x1 : Vec Ideal S128x128 .bf16) (x2 : Vec Ideal S2000x1 .f32) :
    Gen.k4_pay1 x0 x1 x2 = Cert.Gcn.scaledProduct x0 x1 x2 := by
  unfold Gen.k4_pay1
  dsimp only
  rw [shapeCast_self, shapeCast_self, shapeCast_self, shapeCast_self, dot_plain]
  funext y
  obtain ⟨p, q, rfl⟩ : ∃ (p : Fin 2000) (q : Fin 128), y = ix2 p q := ⟨rowOf y, colOf y, Cert.MatProduct.eq_row_col y⟩
  rw [truncf_apply, mulf_apply, Cert.Layout.broadcastTo_a1_ab_apply]
  have hm := Cert.MatProduct.matmul_zero_eq_prod (M := 2000) (K := 128) (N := 128) (φ₁ := .bf16) (φ₂ := .bf16) none
    (truncf FTy.bf16 x0 bitsLt_bf16_f32) x1
  refine (congrArg (fun z => z * x2 (ix2 p (0 : Fin 1))) (congrFun hm (ix2 p q))).trans ?_
  rfl

/-- The block index of each window of region 4 at grid point `t`: the row-block windows sit at block `t`, the weight at
    block 0. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b)) (c : Dev nD)

/-- The left factor's block at point `t` is rows `2000 t …` of the left factor. -/
theorem rows4_0 (t : Fin cfg4.N) :
    RowsAt (2000 * t.val) (iblk4 V c 0 t : Vec Ideal S2000x128 .f32) (V c main_v51 : Vec Ideal S50000x128 .f32) := by
  obtain ⟨e0, e1, -⟩ := idx_facts4 t
  intro p r j e
  unfold iblk4
  rw [View.read_apply]
  show V c main_v51 (((cfg4.win 0).blk t).view.emb (ix2 p j)) = V c main_v51 (ix2 r j)
  refine congrArg _ ?_
  funext a
  apply Fin.ext
  match a with
  | ⟨0, _⟩ => show win4_0.index t (0 : Fin 2) * 2000 + 1 * p.val = r.val; rw [e0, e]; omega
  | ⟨1, _⟩ => show win4_0.index t (1 : Fin 2) * 128 + 1 * j.val = j.val; rw [e1]; omega

/-- The column's block at point `t` is rows `2000 t …` of the column. -/
theorem rows4_2 (t : Fin cfg4.N) :
    RowsAt (2000 * t.val) (iblk4 V c 2 t : Vec Ideal S2000x1 .f32) (V c main_v17 : Vec Ideal S50000x1 .f32) := by
  obtain ⟨-, -, -, -, e0, e1, -⟩ := idx_facts4 t
  intro p r j e
  unfold iblk4
  rw [View.read_apply]
  show V c main_v17 (((cfg4.win 2).blk t).view.emb (ix2 p j)) = V c main_v17 (ix2 r j)
  refine congrArg _ ?_
  funext a
  apply Fin.ext
  match a with
  | ⟨0, _⟩ => show win4_2.index t (0 : Fin 2) * 2000 + 1 * p.val = r.val; rw [e0, e]; omega
  | ⟨1, _⟩ => show win4_2.index t (1 : Fin 2) * 1 + 1 * j.val = j.val; rw [e1]; omega

/-- The weight's block at every point is the whole weight. -/
theorem whole4_1 (t : Fin cfg4.N) :
    (iblk4 V c 1 t : Vec Ideal S128x128 .bf16) = (V c main_v54 : Vec Ideal S128x128 .bf16) := by
  obtain ⟨-, -, e0, e1, -⟩ := idx_facts4 t
  funext y
  unfold iblk4
  rw [View.read_apply]
  show V c main_v54 (((cfg4.win 1).blk t).view.emb y) = V c main_v54 y
  refine congrArg _ ?_
  funext a
  apply Fin.ext
  match a with
  | ⟨0, _⟩ => show win4_1.index t (0 : Fin 2) * 128 + 1 * (y 0).val = (y 0).val; rw [e0]; omega
  | ⟨1, _⟩ => show win4_1.index t (1 : Fin 2) * 128 + 1 * (y 1).val = (y 1).val; rw [e1]; omega

/-- What point `t` writes back is block `t` of the scaled product of the whole arrays. -/
theorem flushed4_eq (t : Fin cfg4.N) :
    (Gen.dat4 (F := Ideal) V c).flushed 3 t = ((cfg4.win 3).blk t).view.read (Elt Ideal)
      (Cert.Gcn.scaledProduct (V c main_v51) (V c main_v54) (V c main_v17)) := by
  show (cfg4.win 3).cut (grid4.coords t) ((Gen.dat4 V c).after 3 t) = _
  rw [Gen.after4_3]
  unfold Gen.out4_3
  rw [View.canon_unit_zero zeroOffsets_prod]
  simp only [View.ld_unit_zero (S := S2000x128) zeroOffsets_prod, View.ld_unit_zero (S := S128x128) zeroOffsets_prod,
    View.ld_unit_zero (S := S2000x1) zeroOffsets_prod]
  rw [pay4_eq, whole4_1]
  obtain ⟨-, -, -, -, -, -, e0, e1⟩ := idx_facts4 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg4.win 3).blk t).view.emb (ix2 p q) = ix2 (⟨2000 * t.val + p.val, by omega⟩ : Fin 50000) q := by
    funext a
    apply Fin.ext
    match a with
    | ⟨0, _⟩ => show win4_3.index t (0 : Fin 2) * 2000 + 1 * p.val = 2000 * t.val + p.val; rw [e0]; omega
    | ⟨1, _⟩ => show win4_3.index t (1 : Fin 2) * 128 + 1 * q.val = q.val; rw [e1]; omega
  rw [hemb]
  exact scaledProduct_rows (V c main_v54 : Vec Ideal S128x128 .bf16) (rows4_0 V c t) (rows4_2 V c t) p _ q rfl

end

/-- An index of the output array is in point `t`'s block iff each coordinate is in the block's range on its axis. -/
theorem mem_blk4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v57).slice (win4_3.rect t)).set ↔ _
  rw [View.set_slice_whole, Rect.mem_set_unit]
  exact Iff.rfl

/-- Row `r` of the output array lies in the block of point `r / 2000`. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hlt : (i 0).val / 2000 < cfg4.N := Nat.lt_of_lt_of_eq (by omega) N_4.symm
  obtain ⟨-, -, -, -, -, -, e0, e1⟩ := idx_facts4 ⟨(i 0).val / 2000, hlt⟩
  refine ⟨⟨(i 0).val / 2000, hlt⟩, flush4_3 _, ?_⟩
  rw [mem_blk4]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win4_3.index ⟨(i 0).val / 2000, hlt⟩ (1 : Fin 2) * 128 ≤ (i 1).val
      ∧ (i 1).val < win4_3.index ⟨(i 0).val / 2000, hlt⟩ (1 : Fin 2) * 128 + 128
    rw [e1]
    omega

/-- Region 4 leaves the scaled product of its whole operands in its output array. -/
theorem arr4 (V : (c : Dev nD) → (b : Ref sig .tc) → Buf (Elt Ideal) ((c : Thread nD τ).loc b)) (c : Dev nD) :
    (Gen.dat4 (F := Ideal) V c).arrAt 3 cfg4.N
      = Cert.Gcn.scaledProduct (V c main_v51) (V c main_v54) (V c main_v17) :=
  (Gen.dat4 (F := Ideal) V c).arrAt_eq_of_cover 3 _ (fun t _ => flushed4_eq V c t) cover4

/-! ## Region 6 -/

/-- The body of region 6 on the extended reals: the block's rows times the weight, row `p` scaled by entry `p` of the
    column's block. -/
theorem pay6_eq (x0 : Vec Ideal S2000x128 .f32) (x1 : Vec Ideal S128x128 .bf16) (x2 : Vec Ideal S2000x1 .f32) :
    Gen.k6_pay1 x0 x1 x2 = Cert.Gcn.scaledProduct x0 x1 x2 := by
  unfold Gen.k6_pay1
  dsimp only
  rw [shapeCast_self, shapeCast_self, shapeCast_self, shapeCast_self, dot_plain]
  funext y
  obtain ⟨p, q, rfl⟩ : ∃ (p : Fin 2000) (q : Fin 128), y = ix2 p q := ⟨rowOf y, colOf y, Cert.MatProduct.eq_row_col y⟩
  rw [truncf_apply, mulf_apply, Cert.Layout.broadcastTo_a1_ab_apply]
  have hm := Cert.MatProduct.matmul_zero_eq_prod (M := 2000) (K := 128) (N := 128) (φ₁ := .bf16) (φ₂ := .bf16) none
    (truncf FTy.bf16 x0 bitsLt_bf16_f32) x1
  refine (congrArg (fun z => z * x2 (ix2 p (0 : Fin 1))) (congrFun hm (ix2 p q))).trans ?_
  rfl

/-- The block index of each window of region 6 at grid point `t`: the row-block windows sit at block `t`, the weight at
    block 0. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

section
variable (V : (c : Dev nD) → (b : Ref sig .tc) → Buf (Elt Ideal) ((c : Thread nD τ).loc b)) (c : Dev nD)

/-- The left factor's block at point `t` is rows `2000 t …` of the left factor. -/
theorem rows6_0 (t : Fin cfg6.N) :
    RowsAt (2000 * t.val) (iblk6 V c 0 t : Vec Ideal S2000x128 .f32) (V c main_v70 : Vec Ideal S50000x128 .f32) := by
  obtain ⟨e0, e1, -⟩ := idx_facts6 t
  intro p r j e
  unfold iblk6
  rw [View.read_apply]
  show V c main_v70 (((cfg6.win 0).blk t).view.emb (ix2 p j)) = V c main_v70 (ix2 r j)
  refine congrArg _ ?_
  funext a
  apply Fin.ext
  match a with
  | ⟨0, _⟩ => show win6_0.index t (0 : Fin 2) * 2000 + 1 * p.val = r.val; rw [e0, e]; omega
  | ⟨1, _⟩ => show win6_0.index t (1 : Fin 2) * 128 + 1 * j.val = j.val; rw [e1]; omega

/-- The column's block at point `t` is rows `2000 t …` of the column. -/
theorem rows6_2 (t : Fin cfg6.N) :
    RowsAt (2000 * t.val) (iblk6 V c 2 t : Vec Ideal S2000x1 .f32) (V c main_v17 : Vec Ideal S50000x1 .f32) := by
  obtain ⟨-, -, -, -, e0, e1, -⟩ := idx_facts6 t
  intro p r j e
  unfold iblk6
  rw [View.read_apply]
  show V c main_v17 (((cfg6.win 2).blk t).view.emb (ix2 p j)) = V c main_v17 (ix2 r j)
  refine congrArg _ ?_
  funext a
  apply Fin.ext
  match a with
  | ⟨0, _⟩ => show win6_2.index t (0 : Fin 2) * 2000 + 1 * p.val = r.val; rw [e0, e]; omega
  | ⟨1, _⟩ => show win6_2.index t (1 : Fin 2) * 1 + 1 * j.val = j.val; rw [e1]; omega

/-- The weight's block at every point is the whole weight. -/
theorem whole6_1 (t : Fin cfg6.N) :
    (iblk6 V c 1 t : Vec Ideal S128x128 .bf16) = (V c main_v73 : Vec Ideal S128x128 .bf16) := by
  obtain ⟨-, -, e0, e1, -⟩ := idx_facts6 t
  funext y
  unfold iblk6
  rw [View.read_apply]
  show V c main_v73 (((cfg6.win 1).blk t).view.emb y) = V c main_v73 y
  refine congrArg _ ?_
  funext a
  apply Fin.ext
  match a with
  | ⟨0, _⟩ => show win6_1.index t (0 : Fin 2) * 128 + 1 * (y 0).val = (y 0).val; rw [e0]; omega
  | ⟨1, _⟩ => show win6_1.index t (1 : Fin 2) * 128 + 1 * (y 1).val = (y 1).val; rw [e1]; omega

/-- What point `t` writes back is block `t` of the scaled product of the whole arrays. -/
theorem flushed6_eq (t : Fin cfg6.N) :
    (Gen.dat6 (F := Ideal) V c).flushed 3 t = ((cfg6.win 3).blk t).view.read (Elt Ideal)
      (Cert.Gcn.scaledProduct (V c main_v70) (V c main_v73) (V c main_v17)) := by
  show (cfg6.win 3).cut (grid6.coords t) ((Gen.dat6 V c).after 3 t) = _
  rw [Gen.after6_3]
  unfold Gen.out6_3
  rw [View.canon_unit_zero zeroOffsets_prod]
  simp only [View.ld_unit_zero (S := S2000x128) zeroOffsets_prod, View.ld_unit_zero (S := S128x128) zeroOffsets_prod,
    View.ld_unit_zero (S := S2000x1) zeroOffsets_prod]
  rw [pay6_eq, whole6_1]
  obtain ⟨-, -, -, -, -, -, e0, e1⟩ := idx_facts6 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg6.win 3).blk t).view.emb (ix2 p q) = ix2 (⟨2000 * t.val + p.val, by omega⟩ : Fin 50000) q := by
    funext a
    apply Fin.ext
    match a with
    | ⟨0, _⟩ => show win6_3.index t (0 : Fin 2) * 2000 + 1 * p.val = 2000 * t.val + p.val; rw [e0]; omega
    | ⟨1, _⟩ => show win6_3.index t (1 : Fin 2) * 128 + 1 * q.val = q.val; rw [e1]; omega
  rw [hemb]
  exact scaledProduct_rows (V c main_v73 : Vec Ideal S128x128 .bf16) (rows6_0 V c t) (rows6_2 V c t) p _ q rfl

end

/-- An index of the output array is in point `t`'s block iff each coordinate is in the block's range on its axis. -/
theorem mem_blk6 (t : Fin cfg6.N) (i : S50000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v76).slice (win6_3.rect t)).set ↔ _
  rw [View.set_slice_whole, Rect.mem_set_unit]
  exact Iff.rfl

/-- Row `r` of the output array lies in the block of point `r / 2000`. -/
theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hlt : (i 0).val / 2000 < cfg6.N := Nat.lt_of_lt_of_eq (by omega) N_6.symm
  obtain ⟨-, -, -, -, -, -, e0, e1⟩ := idx_facts6 ⟨(i 0).val / 2000, hlt⟩
  refine ⟨⟨(i 0).val / 2000, hlt⟩, flush6_3 _, ?_⟩
  rw [mem_blk6]
  intro a
  match a with
  | ⟨0, _⟩ =>
    show win6_3.index ⟨(i 0).val / 2000, hlt⟩ (0 : Fin 2) * 2000 ≤ (i 0).val
      ∧ (i 0).val < win6_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win6_3.index ⟨(i 0).val / 2000, hlt⟩ (1 : Fin 2) * 128 ≤ (i 1).val
      ∧ (i 1).val < win6_3.index ⟨(i 0).val / 2000, hlt⟩ (1 : Fin 2) * 128 + 128
    rw [e1]
    omega

/-- Region 6 leaves the scaled product of its whole operands in its output array. -/
theorem arr6 (V : (c : Dev nD) → (b : Ref sig .tc) → Buf (Elt Ideal) ((c : Thread nD τ).loc b)) (c : Dev nD) :
    (Gen.dat6 (F := Ideal) V c).arrAt 3 cfg6.N
      = Cert.Gcn.scaledProduct (V c main_v70) (V c main_v73) (V c main_v17) :=
  (Gen.dat6 (F := Ideal) V c).arrAt_eq_of_cover 3 _ (fun t _ => flushed6_eq V c t) cover6

end Cert.KernelIdeal.Regions
end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«143480_j89300960018655_2_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.RegionsB.lean ====
/-
  The four epilogue regions, each as one function of the whole arrays it reads.

  An epilogue region walks the 50000 rows in 25 blocks of 2000. At block `t` it scales row `p` of the block of the summed
  array by entry `2000 t + p` of the column, adds the one bias row to every row, in the later layers adds the same rows of a
  carried array, and floors every entry at zero. Each of these steps acts on a row by itself (the bias is the same for every
  row), so the block the region writes at `t` is rows `2000 t …` of the same function of the WHOLE arrays. The 25 blocks
  tile the rows (row `r` lies in block `r / 2000`), so the array the region leaves is that function of the whole arrays.
-/
import proofs.«143480_j89300960018655_2_alg».proof.Proof.Gen.KernelIdeal.Frame
import proofs.«143480_j89300960018655_2_alg».proof.Proof.Spec
import proofs.«143480_j89300960018655_2_alg».proof.Proof.LibColumnBroadcast
import proofs.«143480_j89300960018655_2_alg».proof.Proof.LibRowBias
import proofs.«143480_j89300960018655_2_alg».proof.Proof.LibRowBlocks
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)
open Cert.MatProduct (rowOf colOf)
open Cert.Bridge (RowsAt)

/-- The offsets `(0, 0)` are the zero offsets. -/
theorem zeroOffsets_epi : (![0, 0] : Fin 2 → Nat) = fun _ => 0 := funext fun a => by fin_cases a <;> rfl

/-- Scaling the rows, adding one bias row and flooring keeps "a block is a stretch of rows". -/
theorem combine_rows {M R N : ℕ} {o : ℕ} (z : EReal) {a : Cert.Gcn.Arr M N} {a' : Cert.Gcn.Arr R N}
    {d : Cert.Gcn.Arr M 1} {d' : Cert.Gcn.Arr R 1} (b : Cert.Gcn.Arr 1 N) (ha : RowsAt o a a') (hd : RowsAt o d d') :
    RowsAt o (Cert.Gcn.combine z a d b) (Cert.Gcn.combine z a' d' b) := fun p r j e => by
  show max (a (ix2 p j) * d (ix2 p (0 : Fin 1)) + b (ix2 (0 : Fin 1) j)) z
    = max (a' (ix2 r j) * d' (ix2 r (0 : Fin 1)) + b (ix2 (0 : Fin 1) j)) z
  rw [ha p r j e, hd p r 0 e]

/-- The same with a carried array added before the floor. -/
theorem combineRes_rows {M R N : ℕ} {o : ℕ} (z : EReal) {a : Cert.Gcn.Arr M N} {a' : Cert.Gcn.Arr R N}
    {d : Cert.Gcn.Arr M 1} {d' : Cert.Gcn.Arr R 1} (b : Cert.Gcn.Arr 1 N) {s : Cert.Gcn.Arr M N} {s' : Cert.Gcn.Arr R N}
    (ha : RowsAt o a a') (hd : RowsAt o d d') (hs : RowsAt o s s') :
    RowsAt o (Cert.Gcn.combineRes z a d b s) (Cert.Gcn.combineRes z a' d' b s') := fun p r j e => by
  show max (a (ix2 p j) * d (ix2 p (0 : Fin 1)) + b (ix2 (0 : Fin 1) j) + s (ix2 p j)) z
    = max (a' (ix2 r j) * d' (ix2 r (0 : Fin 1)) + b (ix2 (0 : Fin 1) j) + s' (ix2 r j)) z
  rw [ha p r j e, hd p r 0 e, hs p r j e]

/-! ## Region 1 -/

/-- The body of region 1 on the extended reals: row `p` of the block scaled by entry `p` of the column's block, the bias
    row added, every entry floored at zero. -/
theorem pay1_eq (x0 : Vec Ideal S2000x1 .f32) (x1 : Vec Ideal S1x128 .f32) (x2 : Vec Ideal S2000x128 .f32) :
    Gen.k1_pay1 x0 x1 x2 = Cert.Gcn.combine (Ideal.ofBits .f32 0x00000000#32) x2 x0 x1 := by
  unfold Gen.k1_pay1
  dsimp only
  rw [shapeCast_self, shapeCast_self, shapeCast_self, shapeCast_self, shapeCast_self]
  funext y
  obtain ⟨p, q, rfl⟩ : ∃ (p : Fin 2000) (q : Fin 128), y = ix2 p q := ⟨rowOf y, colOf y, Cert.MatProduct.eq_row_col y⟩
  rw [maximumf_apply, addf_apply, mulf_apply, broadcast_apply, Cert.Layout.broadcastTo_a1_ab_apply,
    Cert.RowBias.spreadRow_apply]
  rfl

/-- The block index of each window of region 1 at grid point `t`: the row-block windows sit at block `t`, the bias row at
    block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- The summed array's block at point `t` is rows `2000 t …` of the summed array. -/
theorem rows1_0 (t : Fin cfg1.N) :
    RowsAt (2000 * t.val) (iblk1 V c 0 t : Vec Ideal S2000x128 .f32) (V c main_v30 : Vec Ideal S50000x128 .f32) := by
  obtain ⟨e0, e1, -⟩ := idx_facts1 t
  intro p r j e
  unfold iblk1
  rw [View.read_apply]
  show V c main_v30 (((cfg1.win 0).blk t).view.emb (ix2 p j)) = V c main_v30 (ix2 r j)
  refine congrArg _ ?_
  funext a
  apply Fin.ext
  match a with
  | ⟨0, _⟩ => show win1_0.index t (0 : Fin 2) * 2000 + 1 * p.val = r.val; rw [e0, e]; omega
  | ⟨1, _⟩ => show win1_0.index t (1 : Fin 2) * 128 + 1 * j.val = j.val; rw [e1]; omega

/-- The column's block at point `t` is rows `2000 t …` of the column. -/
theorem rows1_1 (t : Fin cfg1.N) :
    RowsAt (2000 * t.val) (iblk1 V c 1 t : Vec Ideal S2000x1 .f32) (V c main_v17 : Vec Ideal S50000x1 .f32) := by
  obtain ⟨-, -, e0, e1, -⟩ := idx_facts1 t
  intro p r j e
  unfold iblk1
  rw [View.read_apply]
  show V c main_v17 (((cfg1.win 1).blk t).view.emb (ix2 p j)) = V c main_v17 (ix2 r j)
  refine congrArg _ ?_
  funext a
  apply Fin.ext
  match a with
  | ⟨0, _⟩ => show win1_1.index t (0 : Fin 2) * 2000 + 1 * p.val = r.val; rw [e0, e]; omega
  | ⟨1, _⟩ => show win1_1.index t (1 : Fin 2) * 1 + 1 * j.val = j.val; rw [e1]; omega

/-- The bias row's block at every point is the whole bias row. -/
theorem whole1_2 (t : Fin cfg1.N) :
    (iblk1 V c 2 t : Vec Ideal S1x128 .f32) = (V c main_v31 : Vec Ideal S1x128 .f32) := by
  obtain ⟨-, -, -, -, e0, e1, -⟩ := idx_facts1 t
  funext y
  unfold iblk1
  rw [View.read_apply]
  show V c main_v31 (((cfg1.win 2).blk t).view.emb y) = V c main_v31 y
  refine congrArg _ ?_
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What point `t` writes back is block `t` of the scaled, biased and floored whole arrays. -/
theorem flushed1_eq (t : Fin cfg1.N) :
    (Gen.dat1 (F := Ideal) V c).flushed 3 t = ((cfg1.win 3).blk t).view.read (Elt Ideal)
      (Cert.Gcn.combine (Ideal.ofBits .f32 0x00000000#32) (V c main_v30) (V c main_v17) (V c main_v31)) := by
  show (cfg1.win 3).cut (grid1.coords t) ((Gen.dat1 V c).after 3 t) = _
  rw [Gen.after1_3]
  unfold Gen.out1_3
  rw [View.canon_unit_zero zeroOffsets_epi]
  simp only [View.ld_unit_zero (S := S2000x128) zeroOffsets_epi, View.ld_unit_zero (S := S1x128) zeroOffsets_epi,
    View.ld_unit_zero (S := S2000x1) zeroOffsets_epi]
  rw [pay1_eq, whole1_2]
  obtain ⟨-, -, -, -, -, -, e0, e1⟩ := idx_facts1 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg1.win 3).blk t).view.emb (ix2 p q) = ix2 (⟨2000 * t.val + p.val, by omega⟩ : Fin 50000) q := by
    funext a
    apply Fin.ext
    match a with
    | ⟨0, _⟩ => show win1_3.index t (0 : Fin 2) * 2000 + 1 * p.val = 2000 * t.val + p.val; rw [e0]; omega
    | ⟨1, _⟩ => show win1_3.index t (1 : Fin 2) * 128 + 1 * q.val = q.val; rw [e1]; omega
  rw [hemb]
  exact combine_rows _ (V c main_v31 : Vec Ideal S1x128 .f32) (rows1_0 V c t) (rows1_1 V c t) p _ q rfl

end

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v32).slice (win1_3.rect t)).set ↔ _
  rw [View.set_slice_whole, Rect.mem_set_unit]
  exact Iff.rfl

/-- Row `r` of the output array lies in the block of point `r / 2000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hlt : (i 0).val / 2000 < cfg1.N := Nat.lt_of_lt_of_eq (by omega) N_1.symm
  obtain ⟨-, -, -, -, -, -, e0, e1⟩ := idx_facts1 ⟨(i 0).val / 2000, hlt⟩
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_3.index ⟨(i 0).val / 2000, hlt⟩ (1 : Fin 2) * 128 ≤ (i 1).val
      ∧ (i 1).val < win1_3.index ⟨(i 0).val / 2000, hlt⟩ (1 : Fin 2) * 128 + 128
    rw [e1]
    omega

/-- Region 1 leaves the scaled, biased and floored whole arrays in its output array. -/
theorem arr1 (V : (c : Dev nD) → (b : Ref sig .tc) → Buf (Elt Ideal) ((c : Thread nD τ).loc b)) (c : Dev nD) :
    (Gen.dat1 (F := Ideal) V c).arrAt 3 cfg1.N
      = Cert.Gcn.combine (Ideal.ofBits .f32 0x00000000#32) (V c main_v30) (V c main_v17) (V c main_v31) :=
  (Gen.dat1 (F := Ideal) V c).arrAt_eq_of_cover 3 _ (fun t _ => flushed1_eq V c t) cover1

/-! ## Region 3 -/

/-- The body of region 3 on the extended reals: row `p` of the block scaled by entry `p` of the column's block, the bias
    row added, the carried block added, every entry floored at zero. -/
theorem pay3_eq (x0 : Vec Ideal S2000x1 .f32) (x1 : Vec Ideal S1x128 .f32) (x2 : Vec Ideal S2000x128 .f32) (x3 : Vec Ideal S2000x128 .f32) :
    Gen.k3_pay1 x0 x1 x2 x3 = Cert.Gcn.combineRes (Ideal.ofBits .f32 0x00000000#32) x2 x0 x1 x3 := by
  unfold Gen.k3_pay1
  dsimp only
  rw [shapeCast_self, shapeCast_self, shapeCast_self, shapeCast_self, shapeCast_self, shapeCast_self]
  funext y
  obtain ⟨p, q, rfl⟩ : ∃ (p : Fin 2000) (q : Fin 128), y = ix2 p q := ⟨rowOf y, colOf y, Cert.MatProduct.eq_row_col y⟩
  rw [maximumf_apply, addf_apply, addf_apply, mulf_apply, broadcast_apply, Cert.Layout.broadcastTo_a1_ab_apply,
    Cert.RowBias.spreadRow_apply]
  rfl

/-- The block index of each window of region 3 at grid point `t`: the row-block windows sit at block `t`, the bias row at
    block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

section
variable (V : (c : Dev nD) → (b : Ref sig .tc) → Buf (Elt Ideal) ((c : Thread nD τ).loc b)) (c : Dev nD)

/-- The summed array's block at point `t` is rows `2000 t …` of the summed array. -/
theorem rows3_0 (t : Fin cfg3.N) :
    RowsAt (2000 * t.val) (iblk3 V c 0 t : Vec Ideal S2000x128 .f32) (V c main_v49 : Vec Ideal S50000x128 .f32) := by
  obtain ⟨e0, e1, -⟩ := idx_facts3 t
  intro p r j e
  unfold iblk3
  rw [View.read_apply]
  show V c main_v49 (((cfg3.win 0).blk t).view.emb (ix2 p j)) = V c main_v49 (ix2 r j)
  refine congrArg _ ?_
  funext a
  apply Fin.ext
  match a with
  | ⟨0, _⟩ => show win3_0.index t (0 : Fin 2) * 2000 + 1 * p.val = r.val; rw [e0, e]; omega
  | ⟨1, _⟩ => show win3_0.index t (1 : Fin 2) * 128 + 1 * j.val = j.val; rw [e1]; omega

/-- The column's block at point `t` is rows `2000 t …` of the column. -/
theorem rows3_1 (t : Fin cfg3.N) :
    RowsAt (2000 * t.val) (iblk3 V c 1 t : Vec Ideal S2000x1 .f32) (V c main_v17 : Vec Ideal S50000x1 .f32) := by
  obtain ⟨-, -, e0, e1, -⟩ := idx_facts3 t
  intro p r j e
  unfold iblk3
  rw [View.read_apply]
  show V c main_v17 (((cfg3.win 1).blk t).view.emb (ix2 p j)) = V c main_v17 (ix2 r j)
  refine congrArg _ ?_
  funext a
  apply Fin.ext
  match a with
  | ⟨0, _⟩ => show win3_1.index t (0 : Fin 2) * 2000 + 1 * p.val = r.val; rw [e0, e]; omega
  | ⟨1, _⟩ => show win3_1.index t (1 : Fin 2) * 1 + 1 * j.val = j.val; rw [e1]; omega

/-- The carried array's block at point `t` is rows `2000 t …` of the carried array. -/
theorem rows3_3 (t : Fin cfg3.N) :
    RowsAt (2000 * t.val) (iblk3 V c 3 t : Vec Ideal S2000x128 .f32) (V c main_v32 : Vec Ideal S50000x128 .f32) := by
  obtain ⟨-, -, -, -, -, -, e0, e1, -⟩ := idx_facts3 t
  intro p r j e
  unfold iblk3
  rw [View.read_apply]
  show V c main_v32 (((cfg3.win 3).blk t).view.emb (ix2 p j)) = V c main_v32 (ix2 r j)
  refine congrArg _ ?_
  funext a
  apply Fin.ext
  match a with
  | ⟨0, _⟩ => show win3_3.index t (0 : Fin 2) * 2000 + 1 * p.val = r.val; rw [e0, e]; omega
  | ⟨1, _⟩ => show win3_3.index t (1 : Fin 2) * 128 + 1 * j.val = j.val; rw [e1]; omega

/-- The bias row's block at every point is the whole bias row. -/
theorem whole3_2 (t : Fin cfg3.N) :
    (iblk3 V c 2 t : Vec Ideal S1x128 .f32) = (V c main_v50 : Vec Ideal S1x128 .f32) := by
  obtain ⟨-, -, -, -, e0, e1, -⟩ := idx_facts3 t
  funext y
  unfold iblk3
  rw [View.read_apply]
  show V c main_v50 (((cfg3.win 2).blk t).view.emb y) = V c main_v50 y
  refine congrArg _ ?_
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- What point `t` writes back is block `t` of the scaled, biased, carried-over and floored whole arrays. -/
theorem flushed3_eq (t : Fin cfg3.N) :
    (Gen.dat3 (F := Ideal) V c).flushed 4 t = ((cfg3.win 4).blk t).view.read (Elt Ideal)
      (Cert.Gcn.combineRes (Ideal.ofBits .f32 0x00000000#32) (V c main_v49) (V c main_v17) (V c main_v50) (V c main_v32)) := by
  show (cfg3.win 4).cut (grid3.coords t) ((Gen.dat3 V c).after 4 t) = _
  rw [Gen.after3_4]
  unfold Gen.out3_4
  rw [View.canon_unit_zero zeroOffsets_epi]
  simp only [View.ld_unit_zero (S := S2000x128) zeroOffsets_epi, View.ld_unit_zero (S := S1x128) zeroOffsets_epi,
    View.ld_unit_zero (S := S2000x1) zeroOffsets_epi]
  rw [pay3_eq, whole3_2]
  obtain ⟨-, -, -, -, -, -, -, -, e0, e1⟩ := idx_facts3 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg3.win 4).blk t).view.emb (ix2 p q) = ix2 (⟨2000 * t.val + p.val, by omega⟩ : Fin 50000) q := by
    funext a
    apply Fin.ext
    match a with
    | ⟨0, _⟩ => show win3_4.index t (0 : Fin 2) * 2000 + 1 * p.val = 2000 * t.val + p.val; rw [e0]; omega
    | ⟨1, _⟩ => show win3_4.index t (1 : Fin 2) * 128 + 1 * q.val = q.val; rw [e1]; omega
  rw [hemb]
  exact combineRes_rows _ (V c main_v50 : Vec Ideal S1x128 .f32) (rows3_0 V c t) (rows3_1 V c t) (rows3_3 V c t) p _ q rfl

end

/-- An index of the output array is in point `t`'s block iff each coordinate is in the block's range on its axis. -/
theorem mem_blk3 (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v51).slice (win3_4.rect t)).set ↔ _
  rw [View.set_slice_whole, Rect.mem_set_unit]
  exact Iff.rfl

/-- Row `r` of the output array lies in the block of point `r / 2000`. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hlt : (i 0).val / 2000 < cfg3.N := Nat.lt_of_lt_of_eq (by omega) N_3.symm
  obtain ⟨-, -, -, -, -, -, -, -, e0, e1⟩ := idx_facts3 ⟨(i 0).val / 2000, hlt⟩
  refine ⟨⟨(i 0).val / 2000, hlt⟩, flush3_4 _, ?_⟩
  rw [mem_blk3]
  intro a
  match a with
  | ⟨0, _⟩ =>
    show win3_4.index ⟨(i 0).val / 2000, hlt⟩ (0 : Fin 2) * 2000 ≤ (i 0).val
      ∧ (i 0).val < win3_4.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win3_4.index ⟨(i 0).val / 2000, hlt⟩ (1 : Fin 2) * 128 ≤ (i 1).val
      ∧ (i 1).val < win3_4.index ⟨(i 0).val / 2000, hlt⟩ (1 : Fin 2) * 128 + 128
    rw [e1]
    omega

/-- Region 3 leaves the scaled, biased, carried-over and floored whole arrays in its output array. -/
theorem arr3 (V : (c : Dev nD) → (b : Ref sig .tc) → Buf (Elt Ideal) ((c : Thread nD τ).loc b)) (c : Dev nD) :
    (Gen.dat3 (F := Ideal) V c).arrAt 4 cfg3.N
      = Cert.Gcn.combineRes (Ideal.ofBits .f32 0x00000000#32) (V c main_v49) (V c main_v17) (V c main_v50) (V c main_v32) :=
  (Gen.dat3 (F := Ideal) V c).arrAt_eq_of_cover 4 _ (fun t _ => flushed3_eq V c t) cover3

/-! ## Region 5 -/

/-- The body of region 5 on the extended reals: row `p` of the block scaled by entry `p` of the column's block, the bias
    row added, the carried block added, every entry floored at zero. -/
theorem pay5_eq (x0 : Vec Ideal S2000x1 .f32) (x1 : Vec Ideal S1x128 .f32) (x2 : Vec Ideal S2000x128 .f32) (x3 : Vec Ideal S2000x128 .f32) :
    Gen.k5_pay1 x0 x1 x2 x3 = Cert.Gcn.combineRes (Ideal.ofBits .f32 0x00000000#32) x2 x0 x1 x3 := by
  unfold Gen.k5_pay1
  dsimp only
  rw [shapeCast_self, shapeCast_self, shapeCast_self, shapeCast_self, shapeCast_self, shapeCast_self]
  funext y
  obtain ⟨p, q, rfl⟩ : ∃ (p : Fin 2000) (q : Fin 128), y = ix2 p q := ⟨rowOf y, colOf y, Cert.MatProduct.eq_row_col y⟩
  rw [maximumf_apply, addf_apply, addf_apply, mulf_apply, broadcast_apply, Cert.Layout.broadcastTo_a1_ab_apply,
    Cert.RowBias.spreadRow_apply]
  rfl

/-- The block index of each window of region 5 at grid point `t`: the row-block windows sit at block `t`, the bias row at
    block 0. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

section
variable (V : (c : Dev nD) → (b : Ref sig .tc) → Buf (Elt Ideal) ((c : Thread nD τ).loc b)) (c : Dev nD)

/-- The summed array's block at point `t` is rows `2000 t …` of the summed array. -/
theorem rows5_0 (t : Fin cfg5.N) :
    RowsAt (2000 * t.val) (iblk5 V c 0 t : Vec Ideal S2000x128 .f32) (V c main_v68 : Vec Ideal S50000x128 .f32) := by
  obtain ⟨e0, e1, -⟩ := idx_facts5 t
  intro p r j e
  unfold iblk5
  rw [View.read_apply]
  show V c main_v68 (((cfg5.win 0).blk t).view.emb (ix2 p j)) = V c main_v68 (ix2 r j)
  refine congrArg _ ?_
  funext a
  apply Fin.ext
  match a with
  | ⟨0, _⟩ => show win5_0.index t (0 : Fin 2) * 2000 + 1 * p.val = r.val; rw [e0, e]; omega
  | ⟨1, _⟩ => show win5_0.index t (1 : Fin 2) * 128 + 1 * j.val = j.val; rw [e1]; omega

/-- The column's block at point `t` is rows `2000 t …` of the column. -/
theorem rows5_1 (t : Fin cfg5.N) :
    RowsAt (2000 * t.val) (iblk5 V c 1 t : Vec Ideal S2000x1 .f32) (V c main_v17 : Vec Ideal S50000x1 .f32) := by
  obtain ⟨-, -, e0, e1, -⟩ := idx_facts5 t
  intro p r j e
  unfold iblk5
  rw [View.read_apply]
  show V c main_v17 (((cfg5.win 1).blk t).view.emb (ix2 p j)) = V c main_v17 (ix2 r j)
  refine congrArg _ ?_
  funext a
  apply Fin.ext
  match a with
  | ⟨0, _⟩ => show win5_1.index t (0 : Fin 2) * 2000 + 1 * p.val = r.val; rw [e0, e]; omega
  | ⟨1, _⟩ => show win5_1.index t (1 : Fin 2) * 1 + 1 * j.val = j.val; rw [e1]; omega

/-- The carried array's block at point `t` is rows `2000 t …` of the carried array. -/
theorem rows5_3 (t : Fin cfg5.N) :
    RowsAt (2000 * t.val) (iblk5 V c 3 t : Vec Ideal S2000x128 .f32) (V c main_v51 : Vec Ideal S50000x128 .f32) := by
  obtain ⟨-, -, -, -, -, -, e0, e1, -⟩ := idx_facts5 t
  intro p r j e
  unfold iblk5
  rw [View.read_apply]
  show V c main_v51 (((cfg5.win 3).blk t).view.emb (ix2 p j)) = V c main_v51 (ix2 r j)
  refine congrArg _ ?_
  funext a
  apply Fin.ext
  match a with
  | ⟨0, _⟩ => show win5_3.index t (0 : Fin 2) * 2000 + 1 * p.val = r.val; rw [e0, e]; omega
  | ⟨1, _⟩ => show win5_3.index t (1 : Fin 2) * 128 + 1 * j.val = j.val; rw [e1]; omega

/-- The bias row's block at every point is the whole bias row. -/
theorem whole5_2 (t : Fin cfg5.N) :
    (iblk5 V c 2 t : Vec Ideal S1x128 .f32) = (V c main_v69 : Vec Ideal S1x128 .f32) := by
  obtain ⟨-, -, -, -, e0, e1, -⟩ := idx_facts5 t
  funext y
  unfold iblk5
  rw [View.read_apply]
  show V c main_v69 (((cfg5.win 2).blk t).view.emb y) = V c main_v69 y
  refine congrArg _ ?_
  funext a
  apply Fin.ext
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

/-- What point `t` writes back is block `t` of the scaled, biased, carried-over and floored whole arrays. -/
theorem flushed5_eq (t : Fin cfg5.N) :
    (Gen.dat5 (F := Ideal) V c).flushed 4 t = ((cfg5.win 4).blk t).view.read (Elt Ideal)
      (Cert.Gcn.combineRes (Ideal.ofBits .f32 0x00000000#32) (V c main_v68) (V c main_v17) (V c main_v69) (V c main_v51)) := by
  show (cfg5.win 4).cut (grid5.coords t) ((Gen.dat5 V c).after 4 t) = _
  rw [Gen.after5_4]
  unfold Gen.out5_4
  rw [View.canon_unit_zero zeroOffsets_epi]
  simp only [View.ld_unit_zero (S := S2000x128) zeroOffsets_epi, View.ld_unit_zero (S := S1x128) zeroOffsets_epi,
    View.ld_unit_zero (S := S2000x1) zeroOffsets_epi]
  rw [pay5_eq, whole5_2]
  obtain ⟨-, -, -, -, -, -, -, -, e0, e1⟩ := idx_facts5 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg5.win 4).blk t).view.emb (ix2 p q) = ix2 (⟨2000 * t.val + p.val, by omega⟩ : Fin 50000) q := by
    funext a
    apply Fin.ext
    match a with
    | ⟨0, _⟩ => show win5_4.index t (0 : Fin 2) * 2000 + 1 * p.val = 2000 * t.val + p.val; rw [e0]; omega
    | ⟨1, _⟩ => show win5_4.index t (1 : Fin 2) * 128 + 1 * q.val = q.val; rw [e1]; omega
  rw [hemb]
  exact combineRes_rows _ (V c main_v69 : Vec Ideal S1x128 .f32) (rows5_0 V c t) (rows5_1 V c t) (rows5_3 V c t) p _ q rfl

end

/-- An index of the output array is in point `t`'s block iff each coordinate is in the block's range on its axis. -/
theorem mem_blk5 (t : Fin cfg5.N) (i : S50000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole main_v70).slice (win5_4.rect t)).set ↔ _
  rw [View.set_slice_whole, Rect.mem_set_unit]
  exact Iff.rfl

/-- Row `r` of the output array lies in the block of point `r / 2000`. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hlt : (i 0).val / 2000 < cfg5.N := Nat.lt_of_lt_of_eq (by omega) N_5.symm
  obtain ⟨-, -, -, -, -, -, -, -, e0, e1⟩ := idx_facts5 ⟨(i 0).val / 2000, hlt⟩
  refine ⟨⟨(i 0).val / 2000, hlt⟩, flush5_4 _, ?_⟩
  rw [mem_blk5]
  intro a
  match a with
  | ⟨0, _⟩ =>
    show win5_4.index ⟨(i 0).val / 2000, hlt⟩ (0 : Fin 2) * 2000 ≤ (i 0).val
      ∧ (i 0).val < win5_4.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win5_4.index ⟨(i 0).val / 2000, hlt⟩ (1 : Fin 2) * 128 ≤ (i 1).val
      ∧ (i 1).val < win5_4.index ⟨(i 0).val / 2000, hlt⟩ (1 : Fin 2) * 128 + 128
    rw [e1]
    omega

/-- Region 5 leaves the scaled, biased, carried-over and floored whole arrays in its output array. -/
theorem arr5 (V : (c : Dev nD) → (b : Ref sig .tc) → Buf (Elt Ideal) ((c : Thread nD τ).loc b)) (c : Dev nD) :
    (Gen.dat5 (F := Ideal) V c).arrAt 4 cfg5.N
      = Cert.Gcn.combineRes (Ideal.ofBits .f32 0x00000000#32) (V c main_v68) (V c main_v17) (V c main_v69) (V c main_v51) :=
  (Gen.dat5 (F := Ideal) V c).arrAt_eq_of_cover 4 _ (fun t _ => flushed5_eq V c t) cover5

/-! ## Region 7 -/

/-- The body of region 7 on the extended reals: row `p` of the block scaled by entry `p` of the column's block, the bias
    row added, the carried block added, every entry floored at zero. -/
theorem pay7_eq (x0 : Vec Ideal S2000x1 .f32) (x1 : Vec Ideal S1x128 .f32) (x2 : Vec Ideal S2000x128 .f32) (x3 : Vec Ideal S2000x128 .f32) :
    Gen.k7_pay1 x0 x1 x2 x3 = Cert.Gcn.combineRes (Ideal.ofBits .f32 0x00000000#32) x2 x0 x1 x3 := by
  unfold Gen.k7_pay1
  dsimp only
  rw [shapeCast_self, shapeCast_self, shapeCast_self, shapeCast_self, shapeCast_self, shapeCast_self]
  funext y
  obtain ⟨p, q, rfl⟩ : ∃ (p : Fin 2000) (q : Fin 128), y = ix2 p q := ⟨rowOf y, colOf y, Cert.MatProduct.eq_row_col y⟩
  rw [maximumf_apply, addf_apply, addf_apply, mulf_apply, broadcast_apply, Cert.Layout.broadcastTo_a1_ab_apply,
    Cert.RowBias.spreadRow_apply]
  rfl

/-- The block index of each window of region 7 at grid point `t`: the row-block windows sit at block `t`, the bias row at
    block 0. -/
theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

section
variable (V : (c : Dev nD) → (b : Ref sig .tc) → Buf (Elt Ideal) ((c : Thread nD τ).loc b)) (c : Dev nD)

/-- The summed array's block at point `t` is rows `2000 t …` of the summed array. -/
theorem rows7_0 (t : Fin cfg7.N) :
    RowsAt (2000 * t.val) (iblk7 V c 0 t : Vec Ideal S2000x128 .f32) (V c main_v87 : Vec Ideal S50000x128 .f32) := by
  obtain ⟨e0, e1, -⟩ := idx_facts7 t
  intro p r j e
  unfold iblk7
  rw [View.read_apply]
  show V c main_v87 (((cfg7.win 0).blk t).view.emb (ix2 p j)) = V c main_v87 (ix2 r j)
  refine congrArg _ ?_
  funext a
  apply Fin.ext
  match a with
  | ⟨0, _⟩ => show win7_0.index t (0 : Fin 2) * 2000 + 1 * p.val = r.val; rw [e0, e]; omega
  | ⟨1, _⟩ => show win7_0.index t (1 : Fin 2) * 128 + 1 * j.val = j.val; rw [e1]; omega

/-- The column's block at point `t` is rows `2000 t …` of the column. -/
theorem rows7_1 (t : Fin cfg7.N) :
    RowsAt (2000 * t.val) (iblk7 V c 1 t : Vec Ideal S2000x1 .f32) (V c main_v17 : Vec Ideal S50000x1 .f32) := by
  obtain ⟨-, -, e0, e1, -⟩ := idx_facts7 t
  intro p r j e
  unfold iblk7
  rw [View.read_apply]
  show V c main_v17 (((cfg7.win 1).blk t).view.emb (ix2 p j)) = V c main_v17 (ix2 r j)
  refine congrArg _ ?_
  funext a
  apply Fin.ext
  match a with
  | ⟨0, _⟩ => show win7_1.index t (0 : Fin 2) * 2000 + 1 * p.val = r.val; rw [e0, e]; omega
  | ⟨1, _⟩ => show win7_1.index t (1 : Fin 2) * 1 + 1 * j.val = j.val; rw [e1]; omega

/-- The carried array's block at point `t` is rows `2000 t …` of the carried array. -/
theorem rows7_3 (t : Fin cfg7.N) :
    RowsAt (2000 * t.val) (iblk7 V c 3 t : Vec Ideal S2000x128 .f32) (V c main_v70 : Vec Ideal S50000x128 .f32) := by
  obtain ⟨-, -, -, -, -, -, e0, e1, -⟩ := idx_facts7 t
  intro p r j e
  unfold iblk7
  rw [View.read_apply]
  show V c main_v70 (((cfg7.win 3).blk t).view.emb (ix2 p j)) = V c main_v70 (ix2 r j)
  refine congrArg _ ?_
  funext a
  apply Fin.ext
  match a with
  | ⟨0, _⟩ => show win7_3.index t (0 : Fin 2) * 2000 + 1 * p.val = r.val; rw [e0, e]; omega
  | ⟨1, _⟩ => show win7_3.index t (1 : Fin 2) * 128 + 1 * j.val = j.val; rw [e1]; omega

/-- The bias row's block at every point is the whole bias row. -/
theorem whole7_2 (t : Fin cfg7.N) :
    (iblk7 V c 2 t : Vec Ideal S1x128 .f32) = (V c main_v88 : Vec Ideal S1x128 .f32) := by
  obtain ⟨-, -, -, -, e0, e1, -⟩ := idx_facts7 t
  funext y
  unfold iblk7
  rw [View.read_apply]
  show V c main_v88 (((cfg7.win 2).blk t).view.emb y) = V c main_v88 y
  refine congrArg _ ?_
  funext a
  apply Fin.ext
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

/-- What point `t` writes back is block `t` of the scaled, biased, carried-over and floored whole arrays. -/
theorem flushed7_eq (t : Fin cfg7.N) :
    (Gen.dat7 (F := Ideal) V c).flushed 4 t = ((cfg7.win 4).blk t).view.read (Elt Ideal)
      (Cert.Gcn.combineRes (Ideal.ofBits .f32 0x00000000#32) (V c main_v87) (V c main_v17) (V c main_v88) (V c main_v70)) := by
  show (cfg7.win 4).cut (grid7.coords t) ((Gen.dat7 V c).after 4 t) = _
  rw [Gen.after7_4]
  unfold Gen.out7_4
  rw [View.canon_unit_zero zeroOffsets_epi]
  simp only [View.ld_unit_zero (S := S2000x128) zeroOffsets_epi, View.ld_unit_zero (S := S1x128) zeroOffsets_epi,
    View.ld_unit_zero (S := S2000x1) zeroOffsets_epi]
  rw [pay7_eq, whole7_2]
  obtain ⟨-, -, -, -, -, -, -, -, e0, e1⟩ := idx_facts7 t
  funext y
  obtain ⟨p, q, rfl⟩ : ∃ (p : Fin 2000) (q : Fin 128), y = ix2 p q := ⟨rowOf y, colOf y, Cert.MatProduct.eq_row_col y⟩
  rw [View.read_apply]
  have hp : p.val < 2000 := p.isLt
  have ht : t.val < 25 := t.isLt
  have hemb : ((cfg7.win 4).blk t).view.emb (ix2 p q) = ix2 (⟨2000 * t.val + p.val, by omega⟩ : Fin 50000) q := by
    funext a
    apply Fin.ext
    match a with
    | ⟨0, _⟩ => show win7_4.index t (0 : Fin 2) * 2000 + 1 * p.val = 2000 * t.val + p.val; rw [e0]; omega
    | ⟨1, _⟩ => show win7_4.index t (1 : Fin 2) * 128 + 1 * q.val = q.val; rw [e1]; omega
  rw [hemb]
  exact combineRes_rows _ (V c main_v88 : Vec Ideal S1x128 .f32) (rows7_0 V c t) (rows7_1 V c t) (rows7_3 V c t) p _ q rfl

end

/-- An index of the output array is in point `t`'s block iff each coordinate is in the block's range on its axis. -/
theorem mem_blk7 (t : Fin cfg7.N) (i : S50000x128.Idx) :
    i ∈ ((cfg7.win 4).blk t).view.set ↔ ∀ a : Fin 2, win7_4.index t a * S2000x128.size a ≤ (i a).val
      ∧ (i a).val < win7_4.index t a * S2000x128.size a + S2000x128.size a := by
  show i ∈ ((View.whole main_v89).slice (win7_4.rect t)).set ↔ _
  rw [View.set_slice_whole, Rect.mem_set_unit]
  exact Iff.rfl

/-- Row `r` of the output array lies in the block of point `r / 2000`. -/
theorem cover7 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hlt : (i 0).val / 2000 < cfg7.N := Nat.lt_of_lt_of_eq (by omega) N_7.symm
  obtain ⟨-, -, -, -, -, -, -, -, e0, e1⟩ := idx_facts7 ⟨(i 0).val / 2000, hlt⟩
  refine ⟨⟨(i 0).val / 2000, hlt⟩, flush7_4 _, ?_⟩
  rw [mem_blk7]
  intro a
  match a with
  | ⟨0, _⟩ =>
    show win7_4.index ⟨(i 0).val / 2000, hlt⟩ (0 : Fin 2) * 2000 ≤ (i 0).val
      ∧ (i 0).val < win7_4.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win7_4.index ⟨(i 0).val / 2000, hlt⟩ (1 : Fin 2) * 128 ≤ (i 1).val
      ∧ (i 1).val < win7_4.index ⟨(i 0).val / 2000, hlt⟩ (1 : Fin 2) * 128 + 128
    rw [e1]
    omega

/-- Region 7 leaves the scaled, biased, carried-over and floored whole arrays in its output array. -/
theorem arr7 (V : (c : Dev nD) → (b : Ref sig .tc) → Buf (Elt Ideal) ((c : Thread nD τ).loc b)) (c : Dev nD) :
    (Gen.dat7 (F := Ideal) V c).arrAt 4 cfg7.N
      = Cert.Gcn.combineRes (Ideal.ofBits .f32 0x00000000#32) (V c main_v87) (V c main_v17) (V c main_v88) (V c main_v70) :=
  (Gen.dat7 (F := Ideal) V c).arrAt_eq_of_cover 4 _ (fun t _ => flushed7_eq V c t) cover7

end Cert.KernelIdeal.Regions
end
-- ==== Proof.LibScatterAddRows.lean ====
/-
  Rows of updates added into a table at a column of row numbers, at the extended reals, read at an index.

  What `table.at[rows].add(updates)` lowers to for a table `[N, C]`, row numbers `[E]` held as an `[E, 1]` array and
  updates `[E, C]`: a scatter whose one window axis is the columns, the row axis inserted, the one start component the
  row. Update entry `(e, k)` lands at row `rows (e, 0)`, read as a signed integer and NOT clamped, column `k`; an update
  whose row number is negative or at least `N` is dropped. So entry `(n, c)` of the result is the table's entry plus the
  sum of `updates (e, c)` over the `e` whose row number is `n`.
-/
import Idealize.ShloMosaic.Lib.ValueIdx
import Idealize.ShloMosaic.PureOps.Ideal.Laws

noncomputable section

namespace Cert.LibScatterAddRows

open Idealize.ShloMosaic Idealize.ShloMosaic.ValueIdx

/-- The dimension numbers of that scatter; their conditions are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the row number of the update's row, read signed. -/
theorem start_row (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no start component names, the window starts at `0`. -/
theorem start_col (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from
    fun h => Nat.one_ne_zero (congrArg Fin.val (List.mem_singleton.mp h)))]

/-- The row axis is inserted: its window coordinate is `0`. -/
theorem window_row (j : (⟨2, ![E, C]⟩ : Shape).Idx) : (rowDims N E C wf).window j 0 = 0 := by
  unfold ScatterDims.window
  rw [dif_neg (show (0 : Fin 2) ∉ (rowDims N E C wf).sKept from fun h => by
    simp [ScatterDims.sKept, Shape.kept] at h)]

/-- The column axis is the window axis: its window coordinate is the update's column. -/
theorem window_col (j : (⟨2, ![E, C]⟩ : Shape).Idx) : (rowDims N E C wf).window j 1 = (j 1).val := by
  unfold ScatterDims.window
  rw [dif_pos (show (1 : Fin 2) ∈ (rowDims N E C wf).sKept from by
    simp [ScatterDims.sKept, Shape.kept])]
  rfl

/-- Where an update lands: update index `j` lands at `(n, c)` exactly when its row's number, read signed, is `n` and
    its column is `c`. A row number that is negative or at least `N` equals no `n`: the update is dropped. -/
theorem resultIdx?_eq_some_iff (idx : IVec ⟨2, ![E, 1]⟩ w) (j : (⟨2, ![E, C]⟩ : Shape).Idx) (n : Fin N) (c : Fin C) :
    (rowDims N E C wf).resultIdx? j idx = some (ix2 n c)
      ↔ (idx (ix2 (j 0) (0 : Fin 1))).toInt = (n.val : Int) ∧ j 1 = c := by
  have h0 := start_row wf j idx
  have h1 := start_col wf j idx
  have w0 := window_row wf j
  have w1 := window_col wf j
  have hj1 : (j 1).val < C := idx2_lt1 j
  have hn : n.val < N := n.isLt
  have hc : c.val < C := c.isLt
  unfold ScatterDims.resultIdx?
  by_cases hall : ∀ a, 0 ≤ (rowDims N E C wf).start j idx a + (rowDims N E C wf).window j a
      ∧ (rowDims N E C wf).start j idx a + (rowDims N E C wf).window j a < (⟨2, ![N, C]⟩ : Shape).size a
  · rw [dif_pos hall]
    constructor
    · intro h
      have h' := Option.some.inj h
      have a0 := (hall 0).1
      have e0 : ((rowDims N E C wf).start j idx 0 + (rowDims N E C wf).window j 0).toNat = n.val :=
        congrArg Fin.val (congrFun h' 0)
      have e1 : ((rowDims N E C wf).start j idx 1 + (rowDims N E C wf).window j 1).toNat = c.val :=
        congrArg Fin.val (congrFun h' 1)
      rw [h0, w0] at a0 e0
      rw [h1, w1] at e1
      exact ⟨by omega, Fin.ext (by omega)⟩
    · rintro ⟨hs, hk⟩
      refine congrArg some (funext fun a => Fin.ext ?_)
      match a with
      | ⟨0, _⟩ =>
        show ((rowDims N E C wf).start j idx 0 + (rowDims N E C wf).window j 0).toNat = n.val
        rw [h0, w0]; omega
      | ⟨1, _⟩ =>
        show ((rowDims N E C wf).start j idx 1 + (rowDims N E C wf).window j 1).toNat = c.val
        rw [h1, w1, hk]; omega
  · rw [dif_neg hall]
    constructor
    · intro h; cases h
    · rintro ⟨hs, hk⟩
      refine absurd (fun a => ?_) hall
      match a with
      | ⟨0, _⟩ =>
        show 0 ≤ (rowDims N E C wf).start j idx 0 + (rowDims N E C wf).window j 0
          ∧ (rowDims N E C wf).start j idx 0 + (rowDims N E C wf).window j 0 < (N : Int)
        rw [h0, w0]; omega
      | ⟨1, _⟩ =>
        show 0 ≤ (rowDims N E C wf).start j idx 1 + (rowDims N E C wf).window j 1
          ∧ (rowDims N E C wf).start j idx 1 + (rowDims N E C wf).window j 1 < (C : Int)
        rw [h1, w1]; omega

/-- The same at an update index given by its coordinates `(e, k)`. -/
theorem resultIdx?_ix2_eq_some_iff (idx : IVec ⟨2, ![E, 1]⟩ w) (e : Fin E) (k : Fin C) (n : Fin N) (c : Fin C) :
    (rowDims N E C wf).resultIdx? (ix2 e k) idx = some (ix2 n c)
      ↔ (idx (ix2 e (0 : Fin 1))).toInt = (n.val : Int) ∧ k = c :=
  resultIdx?_eq_some_iff wf idx (ix2 e k) n c

/-- THE ACCUMULATING SCATTER READ AT `(n, c)`: the table's entry plus the sum of column `c` of the update rows whose row
    number, read signed, is `n`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx?_eq_some_iff wf idx j n c).mp hj').1⟩
  · intro e he
    have he' := (Finset.mem_filter.mp he).2
    exact Finset.mem_filter.mpr ⟨Finset.mem_univ _, (resultIdx?_ix2_eq_some_iff wf idx e c n c).mpr ⟨he', rfl⟩⟩
  · intro j hj
    rw [Finset.mem_filter] at hj
    have hk := ((resultIdx?_eq_some_iff wf idx j n c).mp hj.2).2
    rw [← hk]
    exact (eq_ix2 j).symm
  · intro e _
    rfl
  · intro j hj
    rw [Finset.mem_filter] at hj
    have hk := ((resultIdx?_eq_some_iff wf idx j n c).mp hj.2).2
    rw [← hk]
    exact congrArg upd (eq_ix2 j)

/-- The same with the host's accumulating scatter at the ideal instance on the left. -/
theorem host_scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (rowDims N E C wf) x idx upd (ix2 n c)
      = x (ix2 n c) + ∑ e ∈ Finset.univ.filter (fun e : Fin E => (idx (ix2 e (0 : Fin 1))).toInt = (n.val : Int)),
          upd (ix2 e c) :=
  scatterAdd_rows_apply wf x idx upd n c

end Cert.LibScatterAddRows

end
-- ==== Proof.LibGatherRows.lean ====
/-
  Whole rows of a table gathered at a column of row numbers, read at an index, for any extents.

  What `table[rows]` lowers to for a table `[N, C]` and row numbers `[R]` held as an `[R, 1]` array: a gather with one
  offset axis (the columns), the row axis collapsed, slices of one row. Result entry `(r, k)` is the table at column `k`
  of the row whose number is `rows (r, 0)`, read as a signed integer and clamped into `0 … N − 1`; the column passes
  through.
-/
import Idealize.ShloMosaic.Lib.ValueIdx

noncomputable section

namespace Cert.LibGatherRows

open Idealize.ShloMosaic Idealize.ShloMosaic.ValueIdx

variable {α : Type}

/-- The dimension numbers of that gather; their conditions are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, k)`: column `k` of the row numbered `rows (r, 0)`, read signed and clamped into the table. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k)
      = x (ix2 ⟨min (idx (ix2 r (0 : Fin 1))).toInt.toNat (N - 1), by omega⟩ k) := by
  unfold Host.gather
  refine congrArg x (funext fun a => Fin.ext ?_)
  match a with
  | ⟨0, _⟩ =>
    show (rowDims N R C wf).start (ix2 r k) idx 0 + (rowDims N R C wf).batchCoord (ix2 r k) 0
      + (rowDims N R C wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r k) idx 1 + (rowDims N R C wf).batchCoord (ix2 r k) 1
      + (rowDims N R C wf).offCoord (ix2 r k) 1 = k.val
    rw [GatherDims.batchCoord_eq_zero _ _ _ List.not_mem_nil]
    unfold GatherDims.start
    rw [dif_neg (show ¬ (1 : Fin 2) ∈ (rowDims N R C wf).startIndexMap from
      fun h => Nat.one_ne_zero (congrArg Fin.val (List.mem_singleton.mp h)))]
    simp only [Nat.add_zero, Nat.zero_add]
    rfl

end Cert.LibGatherRows

end
-- ==== Proof.KernelLayer.lean ====
/-
  The aggregation over the edges, read at an index, and one layer of the idealized kernel program as the
  specification's layer with the scales outside the sum.

  Edge `e`'s target number is entry `e` of the column list read as a signed integer; its source node is entry `e` of
  the row list, a negative number wrapped by the node count, read signed and clamped into the nodes. The aggregate's
  entry `(n, j)` is zero plus the sum, over the edges whose target number is `n`, of entry `(source, j)` of the table:
  the accumulating scatter lands an update row exactly at its row number, the gather reads the clamped row, a change
  of float format is the identity on the extended reals. A narrowed weight is the weight.
-/
import proofs.«143480_j89300960018655_2_alg».proof.Proof.Stages
import proofs.«143480_j89300960018655_2_alg».proof.Proof.Spec
import proofs.«143480_j89300960018655_2_alg».proof.Proof.LibScatterAddRows
import proofs.«143480_j89300960018655_2_alg».proof.Proof.LibGatherRows
import Idealize.ShloMosaic.PureOps.Ideal
import Idealize.ShloMosaic.Lib.ValueIdx
import Idealize.ShloMosaic.Lib.Pipeline.Value

set_option maxRecDepth 16384

noncomputable section

namespace Cert.KernelIdeal.Layer

open Cert.KernelIdeal Cert.KernelIdeal.Gen Cert.KernelIdeal.Stages Cert.Gcn Cert.MatProduct
open Idealize.ShloMosaic Idealize.ShloMosaic.ValueIdx

/-- Edge `e`'s target number: entry `e` of the column list, read signed. -/
def target (c : (⟨S850000, .i32⟩ : BufTy).Contents (Elt Ideal)) (e : Fin 850000) : ℤ := (c (ix1 e)).toInt

/-- Edge `e`'s source node: entry `e` of the row list, wrapped, read signed and clamped into the nodes. -/
def source (r : (⟨S850000, .i32⟩ : BufTy).Contents (Elt Ideal)) (e : Fin 850000) : Fin 50000 :=
  ⟨min (wrapIds (F := Ideal) r (ix1 e)).toInt.toNat (50000 - 1), by omega⟩

/-- A list spread into a column, read at `(e, 0)`. -/
theorem column_apply (v : (⟨S850000, .i32⟩ : BufTy).Contents (Elt Ideal)) (e : Fin 850000) :
    broadcastInDim S850000x1 ![0] bcast_S850000_S850000x1_0 v (ix2 e (0 : Fin 1)) = v (ix1 e) :=
  broadcastInDim_apply _ bcast_S850000_S850000x1_0 v _ (ix1 e) (fun a => match a with
    | ⟨0, _⟩ => by show e.val = if (850000 : Nat) = 1 then 0 else e.val; rw [if_neg (by decide)])

/-- The table of zeros, read anywhere. -/
theorem zeros_apply (y : S50000x128.Idx) :
    broadcastInDim S50000x128 ![] bcast_S_S50000x128 (constant (F := Ideal) S_ .f32 0x00000000#32) y = Ideal.ofBits .f32 0x00000000#32 :=
  broadcastInDim_apply _ bcast_S_S50000x128 _ y (fun a => a.elim0) (fun a => a.elim0)

/-- The aggregate is the specification's sum over the edges. -/
theorem aggregate_eq (t : (⟨S50000x128, .bf16⟩ : BufTy).Contents (Elt Ideal)) (r c : (⟨S850000, .i32⟩ : BufTy).Contents (Elt Ideal)) :
    aggregate (F := Ideal) t r c = sumEdges (Ideal.ofBits .f32 0x00000000#32) (target c) (source r) t := by
  funext y
  rw [eq_row_col y]
  unfold aggregate sumEdges
  refine (Cert.LibScatterAddRows.host_scatterAdd_rows_apply (N := 50000) (E := 850000) (C := 128)
    scatter_S50000x128_S850000x1_S850000x128_1_0_0_1_wf _ _ _ (rowOf y) (colOf y)).trans ?_
  rw [zeros_apply]
  refine congrArg _ ?_
  refine Finset.sum_congr (Finset.filter_congr fun e _ => by rw [column_apply]; rfl) fun e _ => ?_
  rw [extf_apply]
  refine (Cert.LibGatherRows.gather_rows_apply (N := 50000) (R := 850000) (C := 128) (by decide)
    gather_S50000x128_S850000x1_S850000x128_1_0_n_n_0_1_1128_wf t _ e (colOf y)).trans ?_
  refine congrArg (fun q : Fin 50000 => t (ix2 q (colOf y))) (Fin.ext ?_)
  show min (broadcastInDim S850000x1 ![0] bcast_S850000_S850000x1_0 (wrapIds (F := Ideal) r) (ix2 e (0 : Fin 1))).toInt.toNat (50000 - 1)
    = min (wrapIds (F := Ideal) r (ix1 e)).toInt.toNat (50000 - 1)
  rw [column_apply]

/-- A weight narrowed to the matrix unit's format is the weight. -/
theorem narrow_eq (w : (⟨S128x128, .f32⟩ : BufTy).Contents (Elt Ideal)) : (narrow (F := Ideal) w : S128x128.Idx → EReal) = w := rfl

/-- The first layer, with the scales outside the sum. -/
theorem combine_aggregate (x : Arr 50000 128) (w : (⟨S128x128, .f32⟩ : BufTy).Contents (Elt Ideal)) (d : Arr 50000 1) (b : Arr 1 128)
    (r c : (⟨S850000, .i32⟩ : BufTy).Contents (Elt Ideal)) :
    combine (Ideal.ofBits .f32 0x00000000#32) (aggregate (F := Ideal) (scaledProduct x (narrow (F := Ideal) w) d) r c) d b
      = scaledLayer0 (Ideal.ofBits .f32 0x00000000#32) (target c) (source r) d x w b := by
  rw [aggregate_eq, narrow_eq]; rfl

/-- A later layer, with the scales outside the sum and the carried array. -/
theorem combineRes_aggregate (x : Arr 50000 128) (w : (⟨S128x128, .f32⟩ : BufTy).Contents (Elt Ideal)) (d : Arr 50000 1) (b : Arr 1 128)
    (s : Arr 50000 128) (r c : (⟨S850000, .i32⟩ : BufTy).Contents (Elt Ideal)) :
    combineRes (Ideal.ofBits .f32 0x00000000#32) (aggregate (F := Ideal) (scaledProduct x (narrow (F := Ideal) w) d) r c) d b s
      = scaledLayer (Ideal.ofBits .f32 0x00000000#32) (target c) (source r) d x w b s := by
  rw [aggregate_eq, narrow_eq]; rfl

end Cert.KernelIdeal.Layer

end
-- ==== Proof.LayerLaw.lean ====
/-
  The two spellings of a graph-convolution layer agree when every node's scale is a nonnegative real.

  With the sum's start `z = 0`, the scaled spelling's entry `(n, j)` is
  `(∑ e, (x · w) (rw e, j) · d (rw e)) · d n`, the sum running over the edges whose target number is `n`. A factor that is
  nonnegative and not `⊤` distributes over a sum of two extended reals, hence (by induction on the finite index set) over
  any finite sum; the product of extended reals is associative; and on every edge of that sum `cw e = n`, so the term
  becomes `(x · w) (rw e, j) · (d (rw e) · d (cw e)) = (x · w) (rw e, j) · nrm e`, which is the weighted spelling's term.
  Nothing is assumed of the entries of `x`, `w`, the bias or the carried array: they may be infinite.
-/
import proofs.«143480_j89300960018655_2_alg».proof.Proof.Spec

noncomputable section

namespace Cert.Gcn

open Idealize.ShloMosaic Idealize.ShloMosaic.ValueIdx Cert.MatProduct

/-- The row of the index built from `r` and `c` is `r`. -/
theorem rowOf_ix2 {M N : ℕ} (r : Fin M) (c : Fin N) : rowOf (ix2 r c) = r := rfl

/-- The column of the index built from `r` and `c` is `c`. -/
theorem colOf_ix2 {M N : ℕ} (r : Fin M) (c : Fin N) : colOf (ix2 r c) = c := rfl

/-- A factor that is nonnegative and not `⊤` moves across a finite sum of extended reals. -/
theorem sum_mul_of_nonneg_of_ne_top {ι : Type} (S : Finset ι) (f : ι → EReal) {c : EReal} (h0 : 0 ≤ c) (ht : c ≠ ⊤) :
    (∑ e ∈ S, f e) * c = ∑ e ∈ S, f e * c := by
  classical
  induction S using Finset.induction_on with
  | empty => simp
  | insert a S ha ih =>
    rw [Finset.sum_insert ha, Finset.sum_insert ha, EReal.right_distrib_of_nonneg_of_ne_top h0 ht, ih]

/-- The scaled sum over a node's edges, scaled again by the node's own scale, is the weighted sum. -/
theorem sumEdges_scaled_mul {N E K C : ℕ} {z : EReal} {cs : Fin E → ℤ} {rw : Fin E → Fin N} {cw : Fin E → Fin N}
    {nrm : Fin E → EReal} {d : Arr N 1} (x : Arr N K) (w : Arr K C)
    (hz : z = 0) (hd : ∀ n : Fin N, 0 ≤ d (ix2 n (0 : Fin 1)) ∧ d (ix2 n (0 : Fin 1)) ≠ ⊤)
    (hn : ∀ e, nrm e = d (ix2 (rw e) (0 : Fin 1)) * d (ix2 (cw e) (0 : Fin 1)))
    (hcw : ∀ (e : Fin E) (n : Fin N), cs e = (n.val : ℤ) → cw e = n) (y : (⟨2, ![N, C]⟩ : Shape).Idx) :
    sumEdges z cs rw (scaledProduct x w d) y * d (ix2 (rowOf y) (0 : Fin 1))
      = sumEdgesWeighted z cs rw nrm (prod x w) y := by
  subst hz
  unfold sumEdges sumEdgesWeighted
  rw [zero_add, zero_add, sum_mul_of_nonneg_of_ne_top _ _ (hd (rowOf y)).1 (hd (rowOf y)).2]
  refine Finset.sum_congr rfl (fun e he => ?_)
  have hce : cw e = rowOf y := hcw e (rowOf y) (Finset.mem_filter.mp he).2
  unfold scaledProduct
  rw [rowOf_ix2, mul_assoc, hn e, hce]

theorem layer_eq {N E K C : ℕ} {z : EReal} {cs : Fin E → ℤ} {rw : Fin E → Fin N} {cw : Fin E → Fin N}
    {nrm : Fin E → EReal} {d : Arr N 1} (x : Arr N K) (w : Arr K C) (b : Arr 1 C) (s : Arr N C)
    (hz : z = 0) (hd : ∀ n : Fin N, 0 ≤ d (ix2 n (0 : Fin 1)) ∧ d (ix2 n (0 : Fin 1)) ≠ ⊤)
    (hn : ∀ e, nrm e = d (ix2 (rw e) (0 : Fin 1)) * d (ix2 (cw e) (0 : Fin 1)))
    (hcw : ∀ (e : Fin E) (n : Fin N), cs e = (n.val : ℤ) → cw e = n) :
    scaledLayer z cs rw d x w b s = weightedLayer z cs rw nrm x w b s := by
  funext y
  unfold scaledLayer weightedLayer combineRes
  rw [sumEdges_scaled_mul x w hz hd hn hcw y]

theorem layer0_eq {N E K C : ℕ} {z : EReal} {cs : Fin E → ℤ} {rw : Fin E → Fin N} {cw : Fin E → Fin N}
    {nrm : Fin E → EReal} {d : Arr N 1} (x : Arr N K) (w : Arr K C) (b : Arr 1 C)
    (hz : z = 0) (hd : ∀ n : Fin N, 0 ≤ d (ix2 n (0 : Fin 1)) ∧ d (ix2 n (0 : Fin 1)) ≠ ⊤)
    (hn : ∀ e, nrm e = d (ix2 (rw e) (0 : Fin 1)) * d (ix2 (cw e) (0 : Fin 1)))
    (hcw : ∀ (e : Fin E) (n : Fin N), cs e = (n.val : ℤ) → cw e = n) :
    scaledLayer0 z cs rw d x w b = weightedLayer0 z cs rw nrm x w b := by
  funext y
  unfold scaledLayer0 weightedLayer0 combine
  rw [sumEdges_scaled_mul x w hz hd hn hcw y]

end Cert.Gcn

end
-- ==== Proof.LibScatterRows.lean ====
/-
  Where a row of updates lands when whole rows are scattered into a table at a column of row numbers, for any extents.

  What a sum of update rows `[R, C]` into the rows of a table `[N, C]` at row numbers `[R]`, held as an `[R, 1]` array,
  lowers to: a scatter with one window axis (the columns), the row axis inserted and named by the map from scatter
  dimensions to the table's axes. Update entry `(e, k)` lands at the table index whose row is the number `rows (e, 0)`
  read as a signed integer — NOT clamped: an update whose row number is outside `0 … N − 1` lands nowhere — and whose
  column is `k`. So an update that lands in row `d` has row number exactly `d`.

  Also: the same for single entries scattered into a vector, and the wrap of a non-negative 32-bit row number
  (`v < 0 ? v + n : v`) leaving it as it is.
-/
import Idealize.ShloMosaic.Lib.ValueIdx
import Idealize.ShloMosaic.Lib.Affine

noncomputable section

namespace Cert.LibScatterRows

open Idealize.ShloMosaic Idealize.ShloMosaic.ValueIdx

/-- The dimension numbers of the row scatter: the updates' axis 1 is the window axis, the table's axis 0 is inserted
    and is the one axis the scatter indices name, the index vector on axis 1 of the row numbers. Their conditions are
    decided on a program's literal shapes. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

/-- On the row axis the window of update `(e, k)` starts at the row number `rows (e, 0)`, read signed. -/
theorem start_row : (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is inserted: the window coordinate on it is `0`. -/
theorem window_row : (rowScatter N R C wf).window (ix2 e k) 0 = 0 := by
  unfold ScatterDims.window
  rw [dif_neg (show ¬ (0 : Fin 2) ∈ (rowScatter N R C wf).sKept from by
    simp [ScatterDims.sKept, Shape.kept, List.mem_filter])]

/-- The scatter indices do not name the column axis: the window starts at column `0`. -/
theorem start_col : (rowScatter N R C wf).start (ix2 e k) idx 1 = 0 := by
  unfold ScatterDims.start
  rw [dif_neg (show ¬ (1 : Fin 2) ∈ (rowScatter N R C wf).scatterDimsToOperandDims from
    fun h => Nat.one_ne_zero (congrArg Fin.val (List.mem_singleton.mp h)))]

/-- On the column axis the window coordinate of update `(e, k)` is `k`. -/
theorem window_col : (rowScatter N R C wf).window (ix2 e k) 1 = k.val := by
  unfold ScatterDims.window
  rw [dif_pos (show (1 : Fin 2) ∈ (rowScatter N R C wf).sKept from by
    simp [ScatterDims.sKept, Shape.kept, List.mem_filter])]
  rfl

/-- An update `(e, k)` that lands at table index `i`: the row number `rows (e, 0)`, read signed, is exactly `i`'s
    row, and `i`'s column is `k`. -/
theorem row_of_resultIdx (i : (⟨2, ![N, C]⟩ : Shape).Idx)
    (h : (rowScatter N R C wf).resultIdx? (ix2 e k) idx = some i) :
    (idx (ix2 e (0 : Fin 1))).toInt = ((i 0).val : Int) ∧ (i 1).val = k.val := by
  unfold ScatterDims.resultIdx? at h
  split at h
  · rename_i hb
    have hi := Option.some.inj h
    subst hi
    have h0 := (hb 0).1
    have h1 := (hb 1).1
    refine ⟨?_, ?_⟩
    · show _ = (((rowScatter N R C wf).start (ix2 e k) idx 0 + ((rowScatter N R C wf).window (ix2 e k) 0 : Nat) : Int).toNat : Int)
      rw [start_row, window_row] at h0 ⊢
      omega
    · show ((rowScatter N R C wf).start (ix2 e k) idx 1 + ((rowScatter N R C wf).window (ix2 e k) 1 : Nat) : Int).toNat = k.val
      rw [start_col, window_col]
      omega
  · cases h

end Rows

/-! ## Single entries scattered into a vector -/

/-- The dimension numbers of the entry scatter into a vector `[N]` at positions `[R, 1]` with updates `[R]`: no window
    axis, the vector's only axis inserted and named by the scatter indices, the index vector on axis 1 of the
    positions. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec
variable {N R w : Nat} (wf : ScatterDims.WF ⟨1, ![N]⟩ ⟨2, ![R, 1]⟩ ⟨1, ![R]⟩ [] [0] [0] 1)
  (idx : IVec ⟨2, ![R, 1]⟩ w) (e : Fin R)

/-- The window of update `e` starts at the position `rows (e, 0)`, read signed. -/
theorem start_vec : (vecScatter N R wf).start (ix1 e) idx 0 = (idx (ix2 e (0 : Fin 1))).toInt := by
  unfold ScatterDims.start
  rw [dif_pos (show (0 : Fin 1) ∈ (vecScatter N R wf).scatterDimsToOperandDims from List.mem_singleton.mpr rfl)]
  have hsi : (vecScatter N R wf).siIdx (ix1 e) ⟨List.idxOf (0 : Fin 1) (vecScatter N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The vector's axis is inserted: the window coordinate on it is `0`. -/
theorem window_vec : (vecScatter N R wf).window (ix1 e) 0 = 0 := by
  unfold ScatterDims.window
  rw [dif_neg (show ¬ (0 : Fin 1) ∈ (vecScatter N R wf).sKept from by
    simp [ScatterDims.sKept, Shape.kept, List.mem_filter])]

/-- An update `e` that lands at vector index `i`: the position `rows (e, 0)`, read signed, is exactly `i`. -/
theorem pos_of_resultIdx (i : (⟨1, ![N]⟩ : Shape).Idx)
    (h : (vecScatter N R wf).resultIdx? (ix1 e) idx = some i) :
    (idx (ix2 e (0 : Fin 1))).toInt = ((i 0).val : Int) := by
  unfold ScatterDims.resultIdx? at h
  split at h
  · rename_i hb
    have hi := Option.some.inj h
    subst hi
    have h0 := (hb 0).1
    show _ = (((vecScatter N R wf).start (ix1 e) idx 0 + ((vecScatter N R wf).window (ix1 e) 0 : Nat) : Int).toNat : Int)
    rw [start_vec, window_vec] at h0 ⊢
    omega
  · cases h

end Vec

/-! ## The wrap of a row number -/

/-- A 32-bit row number that is not negative is left as it is by the wrap `v < 0 ? v + n : v`. -/
theorem wrap_of_nonneg (v n : BitVec 32) (h : 0 ≤ v.toInt) :
    Scalar.select (IntOp.cmpi .slt v 0#32) (IntOp.addi v n) v = v := by
  have hz : (0#32 : BitVec 32).toInt = 0 := by decide
  have hc : ¬ IntOp.cmpi .slt v 0#32 = 1#1 := by
    rw [IntOp.cmpi_slt, hz]
    omega
  unfold Scalar.select
  exact if_neg hc

end Cert.LibScatterRows

end
-- ==== Proof.EdgeFacts.lean ====
/-
  Facts about node numbers and node scales that hold for any input.

  Node numbers. A 32-bit number `col` that equals a node's number `n < 50000` is not negative, so the wrap
  `col < 0 ? col + 50000 : col` leaves it as it is, and clamping it into `0 … 49999` leaves it as it is too: the node a
  gather reads through the wrapped number is `n` itself.

  Scales. The floor `c₀` (the single-precision pattern `0x2B8CBCCC`, the real `9223372 · 2⁻⁶³`) is a positive real. For
  any extended real `a`, `max a c₀` is therefore positive: it is either `⊤`, whose reciprocal square root is `0`, or a
  positive real `r`, whose reciprocal square root is the nonnegative real `(√r)⁻¹`. Either way the scale
  `rsqrt (max a c₀)` is nonnegative and is not `⊤`; so is `0`, hence so is the choice between the two by any bit.
-/
import Idealize.ShloMosaic.PureOps.Ideal
import proofs.«143480_j89300960018655_2_alg».proof.Proof.LibScatterRows

noncomputable section

namespace Cert.EdgeFacts

open Idealize.ShloMosaic

/-! ### Node numbers -/

/-- A number that equals node `n`'s number, wrapped and clamped into the node range, is `n`. -/
theorem node_of_wrapped (col : BitVec 32) (n : Fin 50000) (h : col.toInt = (n.val : ℤ)) :
    (⟨min (Scalar.select (IntOp.cmpi .slt col 0#32) (IntOp.addi col 50000#32) col).toInt.toNat (50000 - 1), by omega⟩ :
      Fin 50000) = n := by
  have h0 : 0 ≤ col.toInt := by omega
  apply Fin.ext
  show min (Scalar.select (IntOp.cmpi .slt col 0#32) (IntOp.addi col 50000#32) col).toInt.toNat (50000 - 1) = n.val
  rw [Cert.LibScatterRows.wrap_of_nonneg col 50000#32 h0, h]
  have := n.isLt
  omega

/-- The same for a number that is known only to lie in the node range: wrapped and clamped it is itself. -/
theorem wrapped_of_range (col : BitVec 32) (h0 : 0 ≤ col.toInt) (h1 : col.toInt < 50000) :
    min (Scalar.select (IntOp.cmpi .slt col 0#32) (IntOp.addi col 50000#32) col).toInt.toNat (50000 - 1)
      = col.toInt.toNat := by
  rw [Cert.LibScatterRows.wrap_of_nonneg col 50000#32 h0]
  omega

/-! ### Node scales -/

/-- The floor under a node's degree denotes the real `9223372 · 2⁻⁶³`. -/
theorem floor_eq : Ideal.ofBits .f32 0x2B8CBCCC#32 = ((9223372 * (2 : ℝ) ^ (-63 : ℤ) : ℝ) : EReal) := by
  simp [Ideal.ofBits, Ideal.ieee, -EReal.coe_mul]

/-- The floor is positive. -/
theorem floor_pos : (0 : EReal) < Ideal.ofBits .f32 0x2B8CBCCC#32 := by
  rw [floor_eq]
  exact_mod_cast (by positivity : (0 : ℝ) < 9223372 * (2 : ℝ) ^ (-63 : ℤ))

/-- The floor is not `⊤`. -/
theorem floor_ne_top : Ideal.ofBits .f32 0x2B8CBCCC#32 ≠ ⊤ := by
  rw [floor_eq]
  exact EReal.coe_ne_top _

/-- The zero pattern denotes `0`. -/
theorem zero_eq : Ideal.ofBits .f32 0x00000000#32 = 0 := by
  simp [Ideal.ofBits, Ideal.ieee]

/-- The reciprocal square root of a positive extended real is nonnegative and is not `⊤`. -/
theorem rsqrt_of_pos (m : EReal) (hm : 0 < m) : 0 ≤ Ideal.rsqrt m ∧ Ideal.rsqrt m ≠ ⊤ := by
  induction m using EReal.rec with
  | bot => exact absurd hm (by simp)
  | top => exact ⟨le_of_eq Ideal.rsqrt_top.symm, by rw [Ideal.rsqrt_top]; exact EReal.zero_ne_top⟩
  | coe r =>
    have hr : 0 < r := by exact_mod_cast hm
    rw [Ideal.rsqrt_coe, if_neg (not_lt.mpr hr.le), if_neg hr.ne']
    exact ⟨by exact_mod_cast inv_nonneg.mpr (Real.sqrt_nonneg r), EReal.coe_ne_top _⟩

/-- The scale of a node of degree `a`: nonnegative and not `⊤`, whatever `a` is. -/
theorem rsqrt_max_floor (a : EReal) :
    0 ≤ Ideal.rsqrt (max a (Ideal.ofBits .f32 0x2B8CBCCC#32))
      ∧ Ideal.rsqrt (max a (Ideal.ofBits .f32 0x2B8CBCCC#32)) ≠ ⊤ :=
  rsqrt_of_pos _ (lt_of_lt_of_le floor_pos (le_max_right _ _))

/-- The choice by a bit between two extended reals that are nonnegative and not `⊤` is nonnegative and not `⊤`. -/
theorem select_nonneg_ne_top (p : BitVec 1) {u v : EReal} (hu : 0 ≤ u ∧ u ≠ ⊤) (hv : 0 ≤ v ∧ v ≠ ⊤) :
    0 ≤ Scalar.select p u v ∧ Scalar.select p u v ≠ ⊤ := by
  unfold Scalar.select
  split
  · exact hu
  · exact hv

/-- The scale as a host program spells it at an element, `p ? rsqrt (max a c₀) : 0`, is nonnegative and not `⊤`. -/
theorem scale_nonneg_ne_top (p : BitVec 1) (a : Ideal .f32) :
    0 ≤ Scalar.select p
          (FloatOps.hostUnary .rsqrt (FloatOps.maximumf a (FloatOps.ofBits (F := Ideal) .f32 0x2B8CBCCC#32)))
          (FloatOps.ofBits (F := Ideal) .f32 0x00000000#32)
      ∧ Scalar.select p
          (FloatOps.hostUnary .rsqrt (FloatOps.maximumf a (FloatOps.ofBits (F := Ideal) .f32 0x2B8CBCCC#32)))
          (FloatOps.ofBits (F := Ideal) .f32 0x00000000#32) ≠ ⊤ := by
  rw [Ideal.hostUnary_rsqrt_def, Ideal.maximumf_def, Ideal.ofBits_def, Ideal.ofBits_def, zero_eq]
  exact select_nonneg_ne_top p (rsqrt_max_floor a) ⟨le_refl _, EReal.zero_ne_top⟩

end Cert.EdgeFacts

end
-- ==== Proof.LibGatherVec.lean ====
/-
  A vector gathered at a column of positions, read at an index, for any extents.

  What `vec[pos]` lowers to for a vector `[N]` and positions `[R]` held as an `[R, 1]` array: a gather with no offset
  axis, the vector's one axis collapsed, slices of one element. Result entry `r` is the vector at the position
  `pos (r, 0)`, read as a signed integer and clamped into `0 … N − 1`.
-/
import Idealize.ShloMosaic.Lib.ValueIdx

noncomputable section

namespace Cert.LibGatherVec

open Idealize.ShloMosaic Idealize.ShloMosaic.ValueIdx

variable {α : Type}

/-- The dimension numbers of that gather; their conditions are decided on a program's literal shapes. -/
abbrev vecDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the vector at the position `pos (r, 0)`, read signed and clamped into the vector. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 ⟨min (idx (ix2 r (0 : Fin 1))).toInt.toNat (N - 1), by omega⟩) := by
  unfold Host.gather
  refine congrArg x (funext fun a => Fin.ext ?_)
  match a with
  | ⟨0, _⟩ =>
    show (vecDims N R wf).start (ix1 r) idx 0 + (vecDims N R wf).batchCoord (ix1 r) 0
      + (vecDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 r) ⟨List.idxOf (0 : Fin 1) (vecDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.LibGatherVec

end
-- ==== Proof.RefLayer.lean ====
/-
  The reference program's four graph-convolution layers, at the extended reals, as the specification's weighted layer.

  Each layer of the reference multiplies the previous layer's value by a weight matrix, gathers the product's rows at
  the node each edge reads, multiplies every gathered row by the edge's weight, adds the rows into zero at the node
  number each edge is added into, then adds the bias row (and, from the second layer on, the previous layer's value)
  and floors at zero. Read at an entry `(n, c)`: the accumulating scatter gives `0` plus the sum, over the edges whose
  target number is `n`, of the update's entry `(e, c)`; the update is the gathered entry times the weight; the gathered
  entry is the product at the row the edge reads, clamped into the node range. That is the specification's weighted
  sum over edges, so a layer is the specification's weighted layer.

  The index arrays, the weights, the zeros and the floor are computed again in every layer by the same terms, so all
  four layers are read with the first layer's arrays; only the product's factors, the bias and the carried array
  change. An edge's weight is the product of two node scales, each scale is nonnegative and not `⊤`, and an edge added
  into node `n` has `n` as its target-side node; under those three facts the weighted layer equals the layer with the
  scales outside the sum, which is the last group of statements.
-/
import proofs.«143480_j89300960018655_2_alg».proof.Proof.RefRead
import proofs.«143480_j89300960018655_2_alg».proof.Proof.Spec
import proofs.«143480_j89300960018655_2_alg».proof.Proof.LayerLaw
import proofs.«143480_j89300960018655_2_alg».proof.Proof.EdgeFacts
import proofs.«143480_j89300960018655_2_alg».proof.Proof.LibScatterAddRows
import proofs.«143480_j89300960018655_2_alg».proof.Proof.LibGatherRows
import proofs.«143480_j89300960018655_2_alg».proof.Proof.LibGatherVec
import proofs.«143480_j89300960018655_2_alg».proof.Proof.LibMatProduct

set_option maxRecDepth 16384

noncomputable section

namespace Cert.RefLayer

open Idealize.ShloMosaic Idealize.ShloMosaic.ValueIdx Cert.MatProduct Cert.Gcn
open Cert.ReferenceIdeal Cert.ReferenceIdeal.Gen Cert.ReferenceIdeal.ReadP

/-! ### One aggregation step over generic arrays -/

/-- Rows of `xw` gathered at the row numbers `gidx`, multiplied entry by entry by `m`, and added into `zeros` at the row
    numbers `sidx`. -/
def refAgg (zeros : FVec Ideal S50000x128 .f32) (sidx gidx : IVec S850000x1 32) (m : FVec Ideal S850000x128 .f32)
    (xw : FVec Ideal S50000x128 .f32) : FVec Ideal S50000x128 .f32 :=
  Host.scatterAdd scatter_S50000x128_S850000x1_S850000x128_1_0_0_1 zeros sidx
    (mulf (Host.gather gather_S50000x128_S850000x1_S850000x128_1_0_n_n_0_1_1128 xw gidx) m)

/-- Entry `(n, c)` of the aggregation: the start value plus, over the edges whose target number is `n`, the gathered
    row's entry times the multiplier's. -/
theorem refAgg_apply (zeros : FVec Ideal S50000x128 .f32) (sidx gidx : IVec S850000x1 32)
    (m : FVec Ideal S850000x128 .f32) (xw : FVec Ideal S50000x128 .f32) (n : Fin 50000) (c : Fin 128) :
    refAgg zeros sidx gidx m xw (ix2 n c)
      = zeros (ix2 n c)
        + ∑ e ∈ Finset.univ.filter (fun e : Fin 850000 => (sidx (ix2 e (0 : Fin 1))).toInt = (n.val : ℤ)),
            xw (ix2 ⟨min (gidx (ix2 e (0 : Fin 1))).toInt.toNat (50000 - 1), by omega⟩ c) * m (ix2 e c) := by
  unfold refAgg
  refine (Cert.LibScatterAddRows.host_scatterAdd_rows_apply (N := 50000) (E := 850000) (C := 128) (w := 32) (φ := .f32)
    scatter_S50000x128_S850000x1_S850000x128_1_0_0_1_wf zeros sidx
    (mulf (Host.gather gather_S50000x128_S850000x1_S850000x128_1_0_n_n_0_1_1128 xw gidx) m) n c).trans ?_
  refine congrArg (fun s => zeros (ix2 n c) + s) (Finset.sum_congr rfl (fun e _ => ?_))
  show FloatOps.mulf (Host.gather gather_S50000x128_S850000x1_S850000x128_1_0_n_n_0_1_1128 xw gidx (ix2 e c)) (m (ix2 e c))
    = _
  rw [Ideal.mulf_def]
  exact congrArg (fun t => t * m (ix2 e c))
    (Cert.LibGatherRows.gather_rows_apply (N := 50000) (R := 850000) (C := 128) (w := 32) (by omega)
      gather_S50000x128_S850000x1_S850000x128_1_0_n_n_0_1_1128_wf xw gidx e c)

/-- The entry-level core shared by both kinds of layer. -/
theorem refAgg_weighted {z : EReal} (cs : Fin 850000 → ℤ) (rw : Fin 850000 → Fin 50000) (nrm : Fin 850000 → EReal)
    (zeros : FVec Ideal S50000x128 .f32) (sidx gidx : IVec S850000x1 32) (m : FVec Ideal S850000x128 .f32)
    (t : Arr 50000 128)
    (hz : ∀ y, zeros y = z) (hs : ∀ e, (sidx (ix2 e (0 : Fin 1))).toInt = cs e)
    (hg : ∀ e, (⟨min (gidx (ix2 e (0 : Fin 1))).toInt.toNat (50000 - 1), by omega⟩ : Fin 50000) = rw e)
    (hm : ∀ e c, m (ix2 e c) = nrm e) (n : Fin 50000) (c : Fin 128) :
    refAgg zeros sidx gidx m t (ix2 n c) = sumEdgesWeighted z cs rw nrm t (ix2 n c) := by
  rw [refAgg_apply, hz]
  unfold sumEdgesWeighted
  have hfilter : Finset.univ.filter (fun e : Fin 850000 => (sidx (ix2 e (0 : Fin 1))).toInt = (n.val : ℤ))
      = Finset.univ.filter (fun e : Fin 850000 => cs e = (((rowOf (ix2 n c) : Fin 50000)).val : ℤ)) :=
    Finset.filter_congr (fun e _ => by rw [hs e]; rfl)
  rw [hfilter]
  refine congrArg (fun s => z + s) (Finset.sum_congr rfl (fun e _ => ?_))
  rw [hg e, hm e c]
  rfl

/-- A first layer assembled from its parts is the weighted layer. -/
theorem layer0_of_parts {z : EReal} (cs : Fin 850000 → ℤ) (rw : Fin 850000 → Fin 50000) (nrm : Fin 850000 → EReal)
    (zeros floor bias : FVec Ideal S50000x128 .f32) (sidx gidx : IVec S850000x1 32) (m : FVec Ideal S850000x128 .f32)
    (x : Arr 50000 128) (w : Arr 128 128) (b : Arr 1 128)
    (hz : ∀ y, zeros y = z) (hf : ∀ y, floor y = z) (hs : ∀ e, (sidx (ix2 e (0 : Fin 1))).toInt = cs e)
    (hg : ∀ e, (⟨min (gidx (ix2 e (0 : Fin 1))).toInt.toNat (50000 - 1), by omega⟩ : Fin 50000) = rw e)
    (hm : ∀ e c, m (ix2 e c) = nrm e) (hb : ∀ y, bias y = b (ix2 (0 : Fin 1) (colOf y))) :
    maximumf (addf (refAgg zeros sidx gidx m (prod x w)) bias) floor = weightedLayer0 z cs rw nrm x w b := by
  funext y
  obtain ⟨n, c, rfl⟩ : ∃ n c, y = ix2 n c := ⟨rowOf y, colOf y, eq_row_col y⟩
  show max (refAgg zeros sidx gidx m (prod x w) (ix2 n c) + bias (ix2 n c)) (floor (ix2 n c)) = _
  rw [refAgg_weighted cs rw nrm zeros sidx gidx m (prod x w) hz hs hg hm n c, hf, hb]
  rfl

/-- A later layer assembled from its parts, with the carried array `s`, is the weighted layer. -/
theorem layer_of_parts {z : EReal} (cs : Fin 850000 → ℤ) (rw : Fin 850000 → Fin 50000) (nrm : Fin 850000 → EReal)
    (zeros floor bias : FVec Ideal S50000x128 .f32) (sidx gidx : IVec S850000x1 32) (m : FVec Ideal S850000x128 .f32)
    (x : Arr 50000 128) (w : Arr 128 128) (b : Arr 1 128) (s : Arr 50000 128)
    (hz : ∀ y, zeros y = z) (hf : ∀ y, floor y = z) (hs : ∀ e, (sidx (ix2 e (0 : Fin 1))).toInt = cs e)
    (hg : ∀ e, (⟨min (gidx (ix2 e (0 : Fin 1))).toInt.toNat (50000 - 1), by omega⟩ : Fin 50000) = rw e)
    (hm : ∀ e c, m (ix2 e c) = nrm e) (hb : ∀ y, bias y = b (ix2 (0 : Fin 1) (colOf y))) :
    maximumf (addf (addf (refAgg zeros sidx gidx m (prod x w)) bias) s) floor = weightedLayer z cs rw nrm x w b s := by
  funext y
  obtain ⟨n, c, rfl⟩ : ∃ n c, y = ix2 n c := ⟨rowOf y, colOf y, eq_row_col y⟩
  show max (refAgg zeros sidx gidx m (prod x w) (ix2 n c) + bias (ix2 n c) + s (ix2 n c)) (floor (ix2 n c)) = _
  rw [refAgg_weighted cs rw nrm zeros sidx gidx m (prod x w) hz hs hg hm n c, hf, hb]
  rfl

/-! ### The reference's edges, scales and weights, as functions of its edge list -/

/-- A 32-bit number read signed and clamped into the node range, as a gather reads a row number. -/
def clampNode (v : BitVec 32) : Fin 50000 := ⟨min v.toInt.toNat (50000 - 1), by omega⟩

/-- The number of the node edge `e` is added into, as the scatter reads it (not wrapped, not clamped). -/
def tgtNum (x1 : (⟨S2x800000, .i32⟩ : BufTy).Contents (Elt Ideal)) (e : Fin 850000) : ℤ :=
  (val_main_v6 (F := Ideal) x1 (ix1 e)).toInt

/-- The node edge `e` reads, as the gathers read it (wrapped and clamped into the node range). -/
def srcNode (x1 : (⟨S2x800000, .i32⟩ : BufTy).Contents (Elt Ideal)) (e : Fin 850000) : Fin 50000 :=
  clampNode (val_main_v21 (F := Ideal) x1 (ix1 e))

/-- The node whose scale weighs edge `e` on the target side (the target's number wrapped and clamped). -/
def tgtNode (x1 : (⟨S2x800000, .i32⟩ : BufTy).Contents (Elt Ideal)) (e : Fin 850000) : Fin 50000 :=
  clampNode (val_main_v28 (F := Ideal) x1 (ix1 e))

/-- The per-node scales as a one-column array. -/
def scaleCol (x1 : (⟨S2x800000, .i32⟩ : BufTy).Contents (Elt Ideal)) : Arr 50000 1 :=
  fun i => val_main_v16 (F := Ideal) x1 (ix1 (rowOf i))

/-- The weight of edge `e`: the scale of the node it reads times the scale of its target-side node. -/
def edgeWeight (x1 : (⟨S2x800000, .i32⟩ : BufTy).Contents (Elt Ideal)) (e : Fin 850000) : EReal :=
  scaleCol x1 (ix2 (srcNode x1 e) (0 : Fin 1)) * scaleCol x1 (ix2 (tgtNode x1 e) (0 : Fin 1))

/-- A bias vector as a one-row array. -/
def biasRow (v : FVec Ideal S128 .f32) : Arr 1 128 := fun i => v (ix1 (colOf i))

/-- The zero the sums start from and the layers are floored at. -/
abbrev zeroE : EReal := Ideal.ofBits .f32 0x00000000#32

/-! ### The facts a layer's two spellings are compared under -/

/-- Every entry of the scale vector is nonnegative and is not `⊤`. -/
theorem scale_nonneg_ne_top (x1 : (⟨S2x800000, .i32⟩ : BufTy).Contents (Elt Ideal)) (i : S50000.Idx) :
    0 ≤ val_main_v16 (F := Ideal) x1 i ∧ val_main_v16 (F := Ideal) x1 i ≠ ⊤ := by
  rw [val_main_v16_apply, val_main_v15_apply, val_main_v14_apply, val_main_v13_apply, val_main_cst_2_apply,
    val_main_call0_v1_apply, val_main_call0_v0_apply, val_main_cst_3_apply]
  exact Cert.EdgeFacts.scale_nonneg_ne_top _ _

/-- Every node's scale is nonnegative and is not `⊤`. -/
theorem scaleCol_nonneg_ne_top (x1 : (⟨S2x800000, .i32⟩ : BufTy).Contents (Elt Ideal)) (n : Fin 50000) :
    0 ≤ scaleCol x1 (ix2 n (0 : Fin 1)) ∧ scaleCol x1 (ix2 n (0 : Fin 1)) ≠ ⊤ :=
  scale_nonneg_ne_top x1 (ix1 n)

/-- An edge's weight is the product of the two scales (by definition). -/
theorem edgeWeight_eq (x1 : (⟨S2x800000, .i32⟩ : BufTy).Contents (Elt Ideal)) (e : Fin 850000) :
    edgeWeight x1 e = scaleCol x1 (ix2 (srcNode x1 e) (0 : Fin 1)) * scaleCol x1 (ix2 (tgtNode x1 e) (0 : Fin 1)) := rfl

/-- An edge that is added into node `n` has `n` as its target-side node. -/
theorem tgtNode_of_tgtNum (x1 : (⟨S2x800000, .i32⟩ : BufTy).Contents (Elt Ideal)) (e : Fin 850000) (n : Fin 50000)
    (h : tgtNum x1 e = (n.val : ℤ)) : tgtNode x1 e = n := by
  have hw : val_main_v28 (F := Ideal) x1 (ix1 e)
      = Scalar.select (IntOp.cmpi .slt (val_main_v6 (F := Ideal) x1 (ix1 e)) 0#32)
          (IntOp.addi (val_main_v6 (F := Ideal) x1 (ix1 e)) 50000#32) (val_main_v6 (F := Ideal) x1 (ix1 e)) := by
    rw [val_main_v28_apply, val_main_v25_apply, val_main_v27_apply, val_main_v24_apply, val_main_c_5_apply,
      val_main_v26_apply, val_main_c_6_apply]
  have h1 : tgtNode x1 e = clampNode (Scalar.select (IntOp.cmpi .slt (val_main_v6 (F := Ideal) x1 (ix1 e)) 0#32)
      (IntOp.addi (val_main_v6 (F := Ideal) x1 (ix1 e)) 50000#32) (val_main_v6 (F := Ideal) x1 (ix1 e))) :=
    congrArg clampNode hw
  have h2 : clampNode (Scalar.select (IntOp.cmpi .slt (val_main_v6 (F := Ideal) x1 (ix1 e)) 0#32)
      (IntOp.addi (val_main_v6 (F := Ideal) x1 (ix1 e)) 50000#32) (val_main_v6 (F := Ideal) x1 (ix1 e))) = n :=
    Cert.EdgeFacts.node_of_wrapped (val_main_v6 (F := Ideal) x1 (ix1 e)) n h
  exact h1.trans h2

/-! ### The parts of a layer, read at an index -/

/-- The reference's product of a node array with a weight is the whole-array product. -/
theorem hostDot_eq_prod (l : FVec Ideal S50000x128 .f32) (r : FVec Ideal S128x128 .f32) :
    Host.dotGeneral dot_S50000x128_S128x128_S50000x128_1_0_0_1_n_n none l r = prod l r :=
  dotGeneral_eq_prod (M := 50000) (K := 128) (N := 128) (φ₁ := .f32) (φ₂ := .f32) none .single l r

theorem scaleCol_ix2 (x1 : (⟨S2x800000, .i32⟩ : BufTy).Contents (Elt Ideal)) (n : Fin 50000) :
    scaleCol x1 (ix2 n (0 : Fin 1)) = val_main_v16 (F := Ideal) x1 (ix1 n) := rfl

/-- The array the sums start from is `0` everywhere. -/
theorem zeros_apply (y : S50000x128.Idx) : val_main_v43 (F := Ideal) y = zeroE := by
  rw [val_main_v43_apply, val_main_cst_9_apply]
  rfl

/-- The array the layers are floored at is `0` everywhere. -/
theorem floor_apply (y : S50000x128.Idx) : val_main_call1_v0 (F := Ideal) y = zeroE := by
  rw [val_main_call1_v0_apply, val_main_call1_cst_apply]
  rfl

/-- The scatter's row number of edge `e`. -/
theorem sidx_apply (x1 : (⟨S2x800000, .i32⟩ : BufTy).Contents (Elt Ideal)) (e : Fin 850000) :
    (val_main_v44 (F := Ideal) x1 (ix2 e (0 : Fin 1))).toInt = tgtNum x1 e := by
  rw [val_main_v44_apply]
  have hi : idx_main_v44 (ix2 e (0 : Fin 1)) = ix1 e := by funext d; match d with | ⟨0, _⟩ => rfl
  rw [hi]
  rfl

/-- The wrapped row number is computed twice by the same term. -/
theorem v37_eq_v21 (x1 : (⟨S2x800000, .i32⟩ : BufTy).Contents (Elt Ideal)) : val_main_v37 (F := Ideal) x1 = val_main_v21 (F := Ideal) x1 := rfl

/-- The row gather's row number of edge `e`, clamped, is the node the edge reads. -/
theorem gidx_apply (x1 : (⟨S2x800000, .i32⟩ : BufTy).Contents (Elt Ideal)) (e : Fin 850000) :
    (⟨min (val_main_v38 (F := Ideal) x1 (ix2 e (0 : Fin 1))).toInt.toNat (50000 - 1), by omega⟩ : Fin 50000) = srcNode x1 e := by
  have h1 : val_main_v38 (F := Ideal) x1 (ix2 e (0 : Fin 1)) = val_main_v21 (F := Ideal) x1 (ix1 e) := by
    rw [val_main_v38_apply, v37_eq_v21]
    have hi : idx_main_v38 (ix2 e (0 : Fin 1)) = ix1 e := by funext d; match d with | ⟨0, _⟩ => rfl
    rw [hi]
  exact congrArg clampNode h1

/-- The scale gathered for the node edge `e` reads. -/
theorem scale_gather_src (x1 : (⟨S2x800000, .i32⟩ : BufTy).Contents (Elt Ideal)) (e : Fin 850000) :
    val_main_v23 (F := Ideal) x1 (ix1 e) = scaleCol x1 (ix2 (srcNode x1 e) (0 : Fin 1)) := by
  rw [scaleCol_ix2]
  unfold val_main_v23
  refine (Cert.LibGatherVec.gather_vec_apply (N := 50000) (R := 850000) (w := 32) (by omega)
    gather_S50000_S850000x1_S850000_n_0_n_n_0_1_1_wf (val_main_v16 (F := Ideal) x1) (val_main_v22 (F := Ideal) x1) e).trans ?_
  have h1 : val_main_v22 (F := Ideal) x1 (ix2 e (0 : Fin 1)) = val_main_v21 (F := Ideal) x1 (ix1 e) := by
    rw [val_main_v22_apply]
    have hi : idx_main_v22 (ix2 e (0 : Fin 1)) = ix1 e := by funext d; match d with | ⟨0, _⟩ => rfl
    rw [hi]
  exact congrArg (fun k : Fin 50000 => val_main_v16 (F := Ideal) x1 (ix1 k)) (congrArg clampNode h1)

/-- The scale gathered for the target-side node of edge `e`. -/
theorem scale_gather_tgt (x1 : (⟨S2x800000, .i32⟩ : BufTy).Contents (Elt Ideal)) (e : Fin 850000) :
    val_main_v30 (F := Ideal) x1 (ix1 e) = scaleCol x1 (ix2 (tgtNode x1 e) (0 : Fin 1)) := by
  rw [scaleCol_ix2]
  unfold val_main_v30
  refine (Cert.LibGatherVec.gather_vec_apply (N := 50000) (R := 850000) (w := 32) (by omega)
    gather_S50000_S850000x1_S850000_n_0_n_n_0_1_1_wf (val_main_v16 (F := Ideal) x1) (val_main_v29 (F := Ideal) x1) e).trans ?_
  have h1 : val_main_v29 (F := Ideal) x1 (ix2 e (0 : Fin 1)) = val_main_v28 (F := Ideal) x1 (ix1 e) := by
    rw [val_main_v29_apply]
    have hi : idx_main_v29 (ix2 e (0 : Fin 1)) = ix1 e := by funext d; match d with | ⟨0, _⟩ => rfl
    rw [hi]
  exact congrArg (fun k : Fin 50000 => val_main_v16 (F := Ideal) x1 (ix1 k)) (congrArg clampNode h1)

/-- The multiplier of edge `e`, in every column, is the edge's weight. -/
theorem weight_apply (x1 : (⟨S2x800000, .i32⟩ : BufTy).Contents (Elt Ideal)) (e : Fin 850000) (c : Fin 128) :
    val_main_v41 (F := Ideal) x1 (ix2 e c) = edgeWeight x1 e := by
  rw [val_main_v41_apply, val_main_v40_apply]
  have hi : idx_main_v40 (idx_main_v41 (ix2 e c)) = ix1 e := by funext d; match d with | ⟨0, _⟩ => rfl
  rw [hi, val_main_v31_apply, Ideal.mulf_def, scale_gather_src, scale_gather_tgt]
  rfl

/-- A bias vector broadcast over the rows, read at an index. -/
theorem bias_apply (v : FVec Ideal S128 .f32) (y : S50000x128.Idx) :
    val_main_v47 (F := Ideal) v y = biasRow v (ix2 (0 : Fin 1) (colOf y)) := by
  rw [val_main_v47_apply, val_main_v46_apply]
  show v (idx_main_v46 (idx_main_v47 y)) = v (ix1 (colOf (ix2 (0 : Fin 1) (colOf y))))
  refine congrArg v ?_
  funext d; match d with | ⟨0, _⟩ => rfl

/-! ### The four layers -/

/-- Layer 1 as the aggregation of the product of the input with its weight, plus bias. -/
theorem layer1_parts (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x3 x4
      = maximumf (addf (refAgg (val_main_v43 (F := Ideal)) (val_main_v44 (F := Ideal) x1) (val_main_v38 (F := Ideal) x1)
          (val_main_v41 (F := Ideal) x1) (prod x0 x3)) (val_main_v47 (F := Ideal) x4)) (val_main_call1_v0 (F := Ideal)) := by
  rw [← hostDot_eq_prod x0 x3]
  rfl

/-- Layer 1 of the reference is the weighted first layer. -/
theorem layer1_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x3 x4
      = weightedLayer0 zeroE (tgtNum x1) (srcNode x1) (edgeWeight x1) x0 x3 (biasRow x4) := by
  rw [layer1_parts]
  exact layer0_of_parts (tgtNum x1) (srcNode x1) (edgeWeight x1) (val_main_v43 (F := Ideal)) (val_main_call1_v0 (F := Ideal))
    (val_main_v47 (F := Ideal) x4) (val_main_v44 (F := Ideal) x1) (val_main_v38 (F := Ideal) x1) (val_main_v41 (F := Ideal) x1) x0 x3 (biasRow x4)
    zeros_apply floor_apply (sidx_apply x1) (gidx_apply x1) (weight_apply x1) (bias_apply x4)

/-- Layer 2 as the aggregation of the product of the previous layer's value with its weight, plus bias and carry. -/
theorem layer2_parts (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v72 (F := Ideal) x0 x1 x3 x4 x5 x6
      = maximumf (addf (addf (refAgg (val_main_v43 (F := Ideal)) (val_main_v44 (F := Ideal) x1) (val_main_v38 (F := Ideal) x1)
            (val_main_v41 (F := Ideal) x1) (prod (val_main_v49 (F := Ideal) x0 x1 x3 x4) (val_main_v51 (F := Ideal) x5)))
          (val_main_v47 (F := Ideal) (val_main_v53 (F := Ideal) x6))) (val_main_v49 (F := Ideal) x0 x1 x3 x4)) (val_main_call1_v0 (F := Ideal)) := by
  rw [← hostDot_eq_prod (val_main_v49 (F := Ideal) x0 x1 x3 x4) (val_main_v51 (F := Ideal) x5)]
  rfl

/-- Layer 2 of the reference is the weighted layer over the previous layer's value. -/
theorem layer2_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v72 (F := Ideal) x0 x1 x3 x4 x5 x6
      = weightedLayer zeroE (tgtNum x1) (srcNode x1) (edgeWeight x1) (val_main_v49 (F := Ideal) x0 x1 x3 x4)
          (val_main_v51 (F := Ideal) x5) (biasRow (val_main_v53 (F := Ideal) x6)) (val_main_v49 (F := Ideal) x0 x1 x3 x4) := by
  rw [layer2_parts]
  exact layer_of_parts (tgtNum x1) (srcNode x1) (edgeWeight x1) (val_main_v43 (F := Ideal)) (val_main_call1_v0 (F := Ideal))
    (val_main_v47 (F := Ideal) (val_main_v53 (F := Ideal) x6)) (val_main_v44 (F := Ideal) x1) (val_main_v38 (F := Ideal) x1) (val_main_v41 (F := Ideal) x1)
    (val_main_v49 (F := Ideal) x0 x1 x3 x4) (val_main_v51 (F := Ideal) x5) (biasRow (val_main_v53 (F := Ideal) x6))
    (val_main_v49 (F := Ideal) x0 x1 x3 x4) zeros_apply floor_apply (sidx_apply x1) (gidx_apply x1) (weight_apply x1)
    (bias_apply (val_main_v53 (F := Ideal) x6))

/-- Layer 3 as the aggregation of the product of the previous layer's value with its weight, plus bias and carry. -/
theorem layer3_parts (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v95 (F := Ideal) x0 x1 x3 x4 x5 x6
      = maximumf (addf (addf (refAgg (val_main_v43 (F := Ideal)) (val_main_v44 (F := Ideal) x1) (val_main_v38 (F := Ideal) x1)
            (val_main_v41 (F := Ideal) x1) (prod (val_main_v72 (F := Ideal) x0 x1 x3 x4 x5 x6) (val_main_v74 (F := Ideal) x5)))
          (val_main_v47 (F := Ideal) (val_main_v76 (F := Ideal) x6))) (val_main_v72 (F := Ideal) x0 x1 x3 x4 x5 x6)) (val_main_call1_v0 (F := Ideal)) := by
  rw [← hostDot_eq_prod (val_main_v72 (F := Ideal) x0 x1 x3 x4 x5 x6) (val_main_v74 (F := Ideal) x5)]
  rfl

/-- Layer 3 of the reference is the weighted layer over the previous layer's value. -/
theorem layer3_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v95 (F := Ideal) x0 x1 x3 x4 x5 x6
      = weightedLayer zeroE (tgtNum x1) (srcNode x1) (edgeWeight x1) (val_main_v72 (F := Ideal) x0 x1 x3 x4 x5 x6)
          (val_main_v74 (F := Ideal) x5) (biasRow (val_main_v76 (F := Ideal) x6)) (val_main_v72 (F := Ideal) x0 x1 x3 x4 x5 x6) := by
  rw [layer3_parts]
  exact layer_of_parts (tgtNum x1) (srcNode x1) (edgeWeight x1) (val_main_v43 (F := Ideal)) (val_main_call1_v0 (F := Ideal))
    (val_main_v47 (F := Ideal) (val_main_v76 (F := Ideal) x6)) (val_main_v44 (F := Ideal) x1) (val_main_v38 (F := Ideal) x1) (val_main_v41 (F := Ideal) x1)
    (val_main_v72 (F := Ideal) x0 x1 x3 x4 x5 x6) (val_main_v74 (F := Ideal) x5) (biasRow (val_main_v76 (F := Ideal) x6))
    (val_main_v72 (F := Ideal) x0 x1 x3 x4 x5 x6) zeros_apply floor_apply (sidx_apply x1) (gidx_apply x1) (weight_apply x1)
    (bias_apply (val_main_v76 (F := Ideal) x6))

/-- Layer 4 as the aggregation of the product of the previous layer's value with its weight, plus bias and carry. -/
theorem layer4_parts (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v118 (F := Ideal) x0 x1 x3 x4 x5 x6
      = maximumf (addf (addf (refAgg (val_main_v43 (F := Ideal)) (val_main_v44 (F := Ideal) x1) (val_main_v38 (F := Ideal) x1)
            (val_main_v41 (F := Ideal) x1) (prod (val_main_v95 (F := Ideal) x0 x1 x3 x4 x5 x6) (val_main_v97 (F := Ideal) x5)))
          (val_main_v47 (F := Ideal) (val_main_v99 (F := Ideal) x6))) (val_main_v95 (F := Ideal) x0 x1 x3 x4 x5 x6)) (val_main_call1_v0 (F := Ideal)) := by
  rw [← hostDot_eq_prod (val_main_v95 (F := Ideal) x0 x1 x3 x4 x5 x6) (val_main_v97 (F := Ideal) x5)]
  rfl

/-- Layer 4 of the reference is the weighted layer over the previous layer's value. -/
theorem layer4_eq (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v118 (F := Ideal) x0 x1 x3 x4 x5 x6
      = weightedLayer zeroE (tgtNum x1) (srcNode x1) (edgeWeight x1) (val_main_v95 (F := Ideal) x0 x1 x3 x4 x5 x6)
          (val_main_v97 (F := Ideal) x5) (biasRow (val_main_v99 (F := Ideal) x6)) (val_main_v95 (F := Ideal) x0 x1 x3 x4 x5 x6) := by
  rw [layer4_parts]
  exact layer_of_parts (tgtNum x1) (srcNode x1) (edgeWeight x1) (val_main_v43 (F := Ideal)) (val_main_call1_v0 (F := Ideal))
    (val_main_v47 (F := Ideal) (val_main_v99 (F := Ideal) x6)) (val_main_v44 (F := Ideal) x1) (val_main_v38 (F := Ideal) x1) (val_main_v41 (F := Ideal) x1)
    (val_main_v95 (F := Ideal) x0 x1 x3 x4 x5 x6) (val_main_v97 (F := Ideal) x5) (biasRow (val_main_v99 (F := Ideal) x6))
    (val_main_v95 (F := Ideal) x0 x1 x3 x4 x5 x6) zeros_apply floor_apply (sidx_apply x1) (gidx_apply x1) (weight_apply x1)
    (bias_apply (val_main_v99 (F := Ideal) x6))

/-! ### The same layers with the scales outside the sum -/

/-- The zero pattern denotes `0`. -/
theorem zeroE_eq : zeroE = 0 := Cert.EdgeFacts.zero_eq

/-- Layer 1 of the reference in the spelling with the scales outside the sum. -/
theorem layer1_scaled (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x3 x4
      = scaledLayer0 zeroE (tgtNum x1) (srcNode x1) (scaleCol x1) x0 x3 (biasRow x4) :=
  (layer1_eq x0 x1 x3 x4).trans
    (layer0_eq x0 x3 (biasRow x4) zeroE_eq (scaleCol_nonneg_ne_top x1) (edgeWeight_eq x1) (tgtNode_of_tgtNum x1)).symm

/-- Layer 2 of the reference in the spelling with the scales outside the sum. -/
theorem layer2_scaled (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v72 (F := Ideal) x0 x1 x3 x4 x5 x6
      = scaledLayer zeroE (tgtNum x1) (srcNode x1) (scaleCol x1) (val_main_v49 (F := Ideal) x0 x1 x3 x4)
          (val_main_v51 (F := Ideal) x5) (biasRow (val_main_v53 (F := Ideal) x6)) (val_main_v49 (F := Ideal) x0 x1 x3 x4) :=
  (layer2_eq x0 x1 x3 x4 x5 x6).trans
    (layer_eq (val_main_v49 (F := Ideal) x0 x1 x3 x4) (val_main_v51 (F := Ideal) x5) (biasRow (val_main_v53 (F := Ideal) x6))
      (val_main_v49 (F := Ideal) x0 x1 x3 x4) zeroE_eq (scaleCol_nonneg_ne_top x1) (edgeWeight_eq x1)
      (tgtNode_of_tgtNum x1)).symm

/-- Layer 3 of the reference in the spelling with the scales outside the sum. -/
theorem layer3_scaled (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v95 (F := Ideal) x0 x1 x3 x4 x5 x6
      = scaledLayer zeroE (tgtNum x1) (srcNode x1) (scaleCol x1) (val_main_v72 (F := Ideal) x0 x1 x3 x4 x5 x6)
          (val_main_v74 (F := Ideal) x5) (biasRow (val_main_v76 (F := Ideal) x6)) (val_main_v72 (F := Ideal) x0 x1 x3 x4 x5 x6) :=
  (layer3_eq x0 x1 x3 x4 x5 x6).trans
    (layer_eq (val_main_v72 (F := Ideal) x0 x1 x3 x4 x5 x6) (val_main_v74 (F := Ideal) x5) (biasRow (val_main_v76 (F := Ideal) x6))
      (val_main_v72 (F := Ideal) x0 x1 x3 x4 x5 x6) zeroE_eq (scaleCol_nonneg_ne_top x1) (edgeWeight_eq x1)
      (tgtNode_of_tgtNum x1)).symm

/-- Layer 4 of the reference in the spelling with the scales outside the sum. -/
theorem layer4_scaled (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S3x128x128, .f32⟩ : BufTy).Contents (Elt Ideal)) (x6 : (⟨S3x128, .f32⟩ : BufTy).Contents (Elt Ideal)) :
    val_main_v118 (F := Ideal) x0 x1 x3 x4 x5 x6
      = scaledLayer zeroE (tgtNum x1) (srcNode x1) (scaleCol x1) (val_main_v95 (F := Ideal) x0 x1 x3 x4 x5 x6)
          (val_main_v97 (F := Ideal) x5) (biasRow (val_main_v99 (F := Ideal) x6)) (val_main_v95 (F := Ideal) x0 x1 x3 x4 x5 x6) :=
  (layer4_eq x0 x1 x3 x4 x5 x6).trans
    (layer_eq (val_main_v95 (F := Ideal) x0 x1 x3 x4 x5 x6) (val_main_v97 (F := Ideal) x5) (biasRow (val_main_v99 (F := Ideal) x6))
      (val_main_v95 (F := Ideal) x0 x1 x3 x4 x5 x6) zeroE_eq (scaleCol_nonneg_ne_top x1) (edgeWeight_eq x1)
      (tgtNode_of_tgtNum x1)).symm

end Cert.RefLayer

end
-- ==== Proof.Agree.lean ====
/-
  The host stages of the two programs are the same functions of the arguments.

  Both programs build, from the edge list, the two rows of edge ends each followed by the node numbers (one self loop per
  node), wrap negative ends by the node count, count the edges into each node, and turn the count into the scale
  1/sqrt(max(count, tiny)) where the count is positive and zero elsewhere; both cut matrix `i` and vector `i` out of the
  stacked weights and biases; and both end with the same dense map, sum over the nodes and division by their count. Each
  program spells these with its own copies of the shapes and of the side conditions of the shape operations; the copies are
  the same shapes and the same dimension numbers, so each stage of one program equals the stage of the other applied to the
  same argument, operation by operation.
-/
import proofs.«143480_j89300960018655_2_alg».proof.Proof.Stages
import proofs.«143480_j89300960018655_2_alg».proof.Proof.RefRead
import Idealize.ShloMosaic.PureOps.Ideal

set_option maxRecDepth 16384

noncomputable section

namespace Cert.Agree

open Idealize.ShloMosaic Idealize.ShloMosaic.ValueIdx
open Cert.KernelIdeal.Stages Cert.ReferenceIdeal.ReadP

/-- The source ends of the edges, followed by the node numbers. -/
theorem rowIds_eq (x1 : (⟨Cert.ReferenceIdeal.S2x800000, .i32⟩ : BufTy).Contents (Elt Ideal)) :
    rowIds (F := Ideal) x1 = val_main_v3 (F := Ideal) x1 := by
  unfold rowIds val_main_v3 val_main_v2 val_main_v1 val_main_v0
  rfl

/-- The target ends of the edges, followed by the node numbers. -/
theorem colIds_eq (x1 : (⟨Cert.ReferenceIdeal.S2x800000, .i32⟩ : BufTy).Contents (Elt Ideal)) :
    colIds (F := Ideal) x1 = val_main_v6 (F := Ideal) x1 := by
  unfold colIds val_main_v6 val_main_v5 val_main_v4 val_main_v0
  rfl

/-- The source ends with the negative ones wrapped by the node count (first layer's copy). -/
theorem wrapRow_eq (x1 : (⟨Cert.ReferenceIdeal.S2x800000, .i32⟩ : BufTy).Contents (Elt Ideal)) :
    wrapIds (F := Ideal) (rowIds (F := Ideal) x1) = val_main_v21 (F := Ideal) x1 := by
  rw [rowIds_eq]
  unfold wrapIds val_main_v21 val_main_v18 val_main_v20 val_main_v17 val_main_v19 val_main_c val_main_c_4
  rfl

/-- The target ends with the negative ones wrapped by the node count. -/
theorem wrapCol_eq (x1 : (⟨Cert.ReferenceIdeal.S2x800000, .i32⟩ : BufTy).Contents (Elt Ideal)) :
    wrapIds (F := Ideal) (colIds (F := Ideal) x1) = val_main_v28 (F := Ideal) x1 := by
  rw [colIds_eq]
  unfold wrapIds val_main_v28 val_main_v25 val_main_v27 val_main_v24 val_main_v26 val_main_c_5 val_main_c_6
  rfl

/-- The number of edges into each node. -/
theorem degree_eq (x1 : (⟨Cert.ReferenceIdeal.S2x800000, .i32⟩ : BufTy).Contents (Elt Ideal)) :
    degree (F := Ideal) x1 = val_main_v10 (F := Ideal) x1 := by
  unfold degree val_main_v10 val_main_v9 val_main_v8 val_main_v7 val_main_cst val_main_cst_0
  rw [colIds_eq]
  rfl

/-- Where that number is positive. -/
theorem positive_eq (x1 : (⟨Cert.ReferenceIdeal.S2x800000, .i32⟩ : BufTy).Contents (Elt Ideal)) :
    positive (F := Ideal) x1 = val_main_v12 (F := Ideal) x1 := by
  unfold positive val_main_v12 val_main_v11 val_main_cst_1
  rw [degree_eq]

/-- One over the square root of that number floored at the tiny constant. -/
theorem invRoot_eq (x1 : (⟨Cert.ReferenceIdeal.S2x800000, .i32⟩ : BufTy).Contents (Elt Ideal)) :
    invRoot (F := Ideal) x1 = val_main_v15 (F := Ideal) x1 := by
  unfold invRoot val_main_v15 val_main_v14 val_main_v13 val_main_cst_2
  rw [degree_eq]

/-- The scale of each node: the inverse root where the count is positive, zero elsewhere. -/
theorem scale_eq (x1 : (⟨Cert.ReferenceIdeal.S2x800000, .i32⟩ : BufTy).Contents (Elt Ideal)) :
    scale (F := Ideal) x1 = val_main_v16 (F := Ideal) x1 := by
  unfold scale val_main_v16 val_main_call0_v1 val_main_call0_v0 val_main_cst_3
  rw [positive_eq, invRoot_eq]

/-- The wrapped source ends, as the second gather of the first layer recomputes them. -/
theorem wrapRow_eq_v37 (x1 : (⟨Cert.ReferenceIdeal.S2x800000, .i32⟩ : BufTy).Contents (Elt Ideal)) :
    wrapIds (F := Ideal) (rowIds (F := Ideal) x1) = val_main_v37 (F := Ideal) x1 := by
  rw [rowIds_eq]
  unfold wrapIds val_main_v37 val_main_v34 val_main_v36 val_main_v33 val_main_v35 val_main_c_7 val_main_c_8
  rfl

/-- The wrapped source ends, as the second layer recomputes them. -/
theorem wrapRow_eq_v59 (x1 : (⟨Cert.ReferenceIdeal.S2x800000, .i32⟩ : BufTy).Contents (Elt Ideal)) :
    wrapIds (F := Ideal) (rowIds (F := Ideal) x1) = val_main_v59 (F := Ideal) x1 := by
  rw [rowIds_eq]
  unfold wrapIds val_main_v59 val_main_v56 val_main_v58 val_main_v55 val_main_v57 val_main_c_10 val_main_c_11
  rfl

/-- The wrapped source ends, as the third layer recomputes them. -/
theorem wrapRow_eq_v82 (x1 : (⟨Cert.ReferenceIdeal.S2x800000, .i32⟩ : BufTy).Contents (Elt Ideal)) :
    wrapIds (F := Ideal) (rowIds (F := Ideal) x1) = val_main_v82 (F := Ideal) x1 := by
  rw [rowIds_eq]
  unfold wrapIds val_main_v82 val_main_v79 val_main_v81 val_main_v78 val_main_v80 val_main_c_13 val_main_c_14
  rfl

/-- The wrapped source ends, as the fourth layer recomputes them. -/
theorem wrapRow_eq_v105 (x1 : (⟨Cert.ReferenceIdeal.S2x800000, .i32⟩ : BufTy).Contents (Elt Ideal)) :
    wrapIds (F := Ideal) (rowIds (F := Ideal) x1) = val_main_v105 (F := Ideal) x1 := by
  rw [rowIds_eq]
  unfold wrapIds val_main_v105 val_main_v102 val_main_v104 val_main_v101 val_main_v103 val_main_c_16 val_main_c_17
  rfl

/-- A bias vector regarded as one row holds, at column `j`, the vector's entry `j`. -/
theorem biasRow_eq (b : (⟨Cert.ReferenceIdeal.S128, .f32⟩ : BufTy).Contents (Elt Ideal)) (j : Fin 128) :
    biasRow (F := Ideal) b (ix2 (0 : Fin 1) j) = b (ix1 j) := by
  unfold biasRow
  refine shapeCast_apply b _ (ix2 (0 : Fin 1) j) (ix1 j) ?_
  rw [Shape.rowMajor_val_one, Shape.rowMajor_val_two]
  show j.val = 0 * 128 + j.val
  omega

/-- Matrix 0 of the stacked weights. -/
theorem weightOf0_eq (x5 : (⟨Cert.ReferenceIdeal.S3x128x128, .f32⟩ : BufTy).Contents (Elt Ideal)) :
    weightOf0 (F := Ideal) x5 = val_main_v51 (F := Ideal) x5 := by
  unfold weightOf0 val_main_v51 val_main_v50
  rfl

/-- Matrix 1 of the stacked weights. -/
theorem weightOf1_eq (x5 : (⟨Cert.ReferenceIdeal.S3x128x128, .f32⟩ : BufTy).Contents (Elt Ideal)) :
    weightOf1 (F := Ideal) x5 = val_main_v74 (F := Ideal) x5 := by
  unfold weightOf1 val_main_v74 val_main_v73
  rfl

/-- Matrix 2 of the stacked weights. -/
theorem weightOf2_eq (x5 : (⟨Cert.ReferenceIdeal.S3x128x128, .f32⟩ : BufTy).Contents (Elt Ideal)) :
    weightOf2 (F := Ideal) x5 = val_main_v97 (F := Ideal) x5 := by
  unfold weightOf2 val_main_v97 val_main_v96
  rfl

/-- Vector 0 of the stacked biases. -/
theorem biasOf0_eq (x6 : (⟨Cert.ReferenceIdeal.S3x128, .f32⟩ : BufTy).Contents (Elt Ideal)) :
    biasOf0 (F := Ideal) x6 = val_main_v53 (F := Ideal) x6 := by
  unfold biasOf0 val_main_v53 val_main_v52
  rfl

/-- Vector 1 of the stacked biases. -/
theorem biasOf1_eq (x6 : (⟨Cert.ReferenceIdeal.S3x128, .f32⟩ : BufTy).Contents (Elt Ideal)) :
    biasOf1 (F := Ideal) x6 = val_main_v76 (F := Ideal) x6 := by
  unfold biasOf1 val_main_v76 val_main_v75
  rfl

/-- Vector 2 of the stacked biases. -/
theorem biasOf2_eq (x6 : (⟨Cert.ReferenceIdeal.S3x128, .f32⟩ : BufTy).Contents (Elt Ideal)) :
    biasOf2 (F := Ideal) x6 = val_main_v99 (F := Ideal) x6 := by
  unfold biasOf2 val_main_v99 val_main_v98
  rfl

/-- The reference's result is the final dense map, sum over the nodes and division by their count, of its last layer's array. -/
theorem head_eq (x0 : (⟨Cert.ReferenceIdeal.S50000x128, .f32⟩ : BufTy).Contents (Elt Ideal))
    (x1 : (⟨Cert.ReferenceIdeal.S2x800000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S3x128x128, .f32⟩ : BufTy).Contents (Elt Ideal))
    (x6 : (⟨Cert.ReferenceIdeal.S3x128, .f32⟩ : BufTy).Contents (Elt Ideal))
    (x7 : (⟨Cert.ReferenceIdeal.S128x2, .f32⟩ : BufTy).Contents (Elt Ideal))
    (x8 : (⟨Cert.ReferenceIdeal.S2, .f32⟩ : BufTy).Contents (Elt Ideal)) :
    val_main_v126 (F := Ideal) x0 x1 x3 x4 x5 x6 x7 x8
      = meanHead (F := Ideal) (val_main_v118 (F := Ideal) x0 x1 x3 x4 x5 x6) x7 x8 := by
  unfold val_main_v126 val_main_v125 val_main_v124 val_main_v123 val_main_v122 val_main_v121 val_main_v120 val_main_v119
    val_main_cst_19 val_main_cst_20 meanHead
  generalize val_main_v118 (F := Ideal) x0 x1 x3 x4 x5 x6 = h
  rfl

end Cert.Agree
end
-- ==== Proof.Bridge.lean ====
/-
  The reference's last stage is the kernel program's result, as functions of the arguments.

  Layer by layer both programs are the specification's layer with the scales outside the sum, over the same edge data:
  the target number of an edge (the column list's entry read signed), its source node (the row list's entry wrapped,
  read signed and clamped), the scale column and the bias row. The kernel side is read off its stages (the aggregate
  as the sum over the edges); the reference side has the target's scale moved out of the sum, which is where the scale's
  entries being nonnegative reals is used. The stages that compute the edge data are the same operations in both
  programs, so the data agree; the final dense map and mean are one function of the last features.
-/
import proofs.«143480_j89300960018655_2_alg».proof.Proof.Fold
import proofs.«143480_j89300960018655_2_alg».proof.Proof.KernelLayer
import proofs.«143480_j89300960018655_2_alg».proof.Proof.RefLayer
import proofs.«143480_j89300960018655_2_alg».proof.Proof.Agree

set_option maxRecDepth 16384

noncomputable section

namespace Cert.Bridge

open Cert.KernelIdeal.Stages Cert.KernelIdeal.Layer Cert.KernelIdeal.Fold Cert.Gcn Cert.MatProduct
open Cert.ReferenceIdeal.ReadP
open Idealize.ShloMosaic Idealize.ShloMosaic.ValueIdx

/-- The edges' target numbers agree. -/
theorem target_eq (x1 : (⟨Cert.ReferenceIdeal.S2x800000, .i32⟩ : BufTy).Contents (Elt Ideal)) : target (colIds (F := Ideal) x1) = Cert.RefLayer.tgtNum x1 := by
  funext e
  unfold target Cert.RefLayer.tgtNum
  rw [Cert.Agree.colIds_eq]

/-- The edges' source nodes agree. -/
theorem source_eq (x1 : (⟨Cert.ReferenceIdeal.S2x800000, .i32⟩ : BufTy).Contents (Elt Ideal)) : source (rowIds (F := Ideal) x1) = Cert.RefLayer.srcNode x1 := by
  funext e
  show Cert.RefLayer.clampNode (wrapIds (F := Ideal) (rowIds (F := Ideal) x1) (ix1 e)) = Cert.RefLayer.clampNode (val_main_v21 (F := Ideal) x1 (ix1 e))
  rw [Cert.Agree.wrapRow_eq]

/-- The scale column read at `(n, 0)` is the scale vector's entry `n`. -/
theorem scaleCol_apply (x1 : (⟨Cert.ReferenceIdeal.S2x800000, .i32⟩ : BufTy).Contents (Elt Ideal)) (n : Fin 50000) :
    scaleCol (F := Ideal) x1 (ix2 n (0 : Fin 1)) = scale (F := Ideal) x1 (ix1 n) := by
  unfold scaleCol
  generalize scale (F := Ideal) x1 = v
  refine shapeCast_apply v Cert.KernelIdeal.Gen.shapeCasts_S50000_S50000x1 _ (ix1 n) ?_
  rw [Shape.rowMajor_val_two, Shape.rowMajor_val_one]
  show n.val = n.val * 1 + 0
  omega

/-- The scale columns agree. -/
theorem scaleCol_eq (x1 : (⟨Cert.ReferenceIdeal.S2x800000, .i32⟩ : BufTy).Contents (Elt Ideal)) : (scaleCol (F := Ideal) x1 : Arr 50000 1) = Cert.RefLayer.scaleCol x1 := by
  funext i
  have hi : i = ix2 (rowOf i) (0 : Fin 1) := by
    rw [eq_row_col i]
    have h0 : colOf i = (0 : Fin 1) := Subsingleton.elim _ _
    rw [h0]; rfl
  rw [hi, scaleCol_apply, Cert.Agree.scale_eq]
  rfl

/-- The bias rows agree. -/
theorem biasRow_eq (b : (⟨Cert.ReferenceIdeal.S128, .f32⟩ : BufTy).Contents (Elt Ideal)) : (biasRow (F := Ideal) b : Arr 1 128) = Cert.RefLayer.biasRow b := by
  funext i
  have hi : i = ix2 (0 : Fin 1) (colOf i) := by
    rw [eq_row_col i]
    have h0 : rowOf i = (0 : Fin 1) := Subsingleton.elim _ _
    rw [h0]; rfl
  rw [hi, Cert.Agree.biasRow_eq]
  rfl

theorem feat1_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) : feat1 x0 x1 x3 x4 = val_main_v49 (F := Ideal) x0 x1 x3 x4 := by
  unfold feat1 prod1
  rw [combine_aggregate, Cert.RefLayer.layer1_scaled, target_eq, source_eq, scaleCol_eq, biasRow_eq]

theorem feat2_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S3x128x128, .f32⟩ : BufTy).Contents (Elt Ideal)) (x6 : (⟨Cert.ReferenceIdeal.S3x128, .f32⟩ : BufTy).Contents (Elt Ideal)) : feat2 x0 x1 x3 x4 x5 x6 = val_main_v72 (F := Ideal) x0 x1 x3 x4 x5 x6 := by
  unfold feat2 prod2
  rw [combineRes_aggregate, Cert.RefLayer.layer2_scaled, feat1_eq, target_eq, source_eq, scaleCol_eq, biasRow_eq,
    Cert.Agree.weightOf0_eq, Cert.Agree.biasOf0_eq]

theorem feat3_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S3x128x128, .f32⟩ : BufTy).Contents (Elt Ideal)) (x6 : (⟨Cert.ReferenceIdeal.S3x128, .f32⟩ : BufTy).Contents (Elt Ideal)) : feat3 x0 x1 x3 x4 x5 x6 = val_main_v95 (F := Ideal) x0 x1 x3 x4 x5 x6 := by
  unfold feat3 prod3
  rw [combineRes_aggregate, Cert.RefLayer.layer3_scaled, feat2_eq, target_eq, source_eq, scaleCol_eq, biasRow_eq,
    Cert.Agree.weightOf1_eq, Cert.Agree.biasOf1_eq]

theorem feat4_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S3x128x128, .f32⟩ : BufTy).Contents (Elt Ideal)) (x6 : (⟨Cert.ReferenceIdeal.S3x128, .f32⟩ : BufTy).Contents (Elt Ideal)) : feat4 x0 x1 x3 x4 x5 x6 = val_main_v118 (F := Ideal) x0 x1 x3 x4 x5 x6 := by
  unfold feat4 prod4
  rw [combineRes_aggregate, Cert.RefLayer.layer4_scaled, feat3_eq, target_eq, source_eq, scaleCol_eq, biasRow_eq,
    Cert.Agree.weightOf2_eq, Cert.Agree.biasOf2_eq]

/-- The reference's last stage is the kernel program's result. -/
theorem result_eq (x0 : (⟨Cert.ReferenceIdeal.S50000x128, .f32⟩ : BufTy).Contents (Elt Ideal)) (x1 : (⟨Cert.ReferenceIdeal.S2x800000, .i32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S3x128x128, .f32⟩ : BufTy).Contents (Elt Ideal)) (x6 : (⟨Cert.ReferenceIdeal.S3x128, .f32⟩ : BufTy).Contents (Elt Ideal)) (x7 : (⟨Cert.ReferenceIdeal.S128x2, .f32⟩ : BufTy).Contents (Elt Ideal)) (x8 : (⟨Cert.ReferenceIdeal.S2, .f32⟩ : BufTy).Contents (Elt Ideal)) :
    val_main_v126 (F := Ideal) x0 x1 x3 x4 x5 x6 x7 x8 = result x0 x1 x3 x4 x5 x6 x7 x8 := by
  rw [Cert.Agree.head_eq]
  unfold result
  rw [feat4_eq]

end Cert.Bridge

end
-- ==== Proof.lean ====
/-
  The certificate of a four-layer graph convolution network: a kernel program of eight launches (four products with a
  weight, their rows scaled by a per-node scale; four combinations that scale an aggregate by the same scale, add a
  bias and the previous features and floor at zero) among host stretches (the edge lists, the scale 1/sqrt(degree),
  the gather of rows along the edges and their sum per target node, the final dense map and the mean over the nodes),
  against a reference that multiplies each gathered row by the edge's weight scale(source) · scale(target) inside the
  sum.

  On the extended reals the two are one function of the arguments. Every entry of the scale is a nonnegative real
  whatever the inputs are, so the target's scale moves across the finite sum over the edges and joins the source's
  scale by associativity; an edge that lands at a node has that node as its wrapped, clamped target. No finiteness of
  the features, the weights or the biases is used, so the precondition is never opened.

  The kernel program's run names its result buffer at the last boundary's contents (KernelRun); those contents are
  read boundary by boundary as `Fold.result` of the arguments (Fold, over the eight launches' values of RegionsA and
  RegionsB); the reference's run ends at its last stage, which Bridge shows equal to `Fold.result`.
-/
import proofs.«143480_j89300960018655_2_alg».proof.Defs
import proofs.«143480_j89300960018655_2_alg».proof.Proof.Gen.Kernel
import proofs.«143480_j89300960018655_2_alg».proof.Proof.Gen.Kernel.Frame
import proofs.«143480_j89300960018655_2_alg».proof.Proof.Gen.KernelIdeal
import proofs.«143480_j89300960018655_2_alg».proof.Proof.Gen.KernelIdeal.Frame
import proofs.«143480_j89300960018655_2_alg».proof.Proof.Gen.ReferenceIdeal
import proofs.«143480_j89300960018655_2_alg».proof.Proof.Gen.Pre_finite_inputs
import proofs.«143480_j89300960018655_2_alg».proof.Proof.RefRead
import proofs.«143480_j89300960018655_2_alg».proof.Proof.KernelRun
import proofs.«143480_j89300960018655_2_alg».proof.Proof.Fold
import proofs.«143480_j89300960018655_2_alg».proof.Proof.RegionsA
import proofs.«143480_j89300960018655_2_alg».proof.Proof.RegionsB
import proofs.«143480_j89300960018655_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- What the eight launches leave in their output arrays. -/
theorem launches : Cert.KernelIdeal.Fold.Launches :=
  ⟨Cert.KernelIdeal.Regions.arr0, Cert.KernelIdeal.Regions.arr1, Cert.KernelIdeal.Regions.arr2, Cert.KernelIdeal.Regions.arr3,
   Cert.KernelIdeal.Regions.arr4, Cert.KernelIdeal.Regions.arr5, Cert.KernelIdeal.Regions.arr6, Cert.KernelIdeal.Regions.arr7⟩

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.ValueP.run (F := Ideal) m ρ)

/-- Both idealized programs end at `Fold.result` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Fold.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.at19_v97 m ρ c launches), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v126_eq, (hagree c).1, (hagree c).2.1, (hagree c).2.2.2.1, (hagree c).2.2.2.2.1,
      (hagree c).2.2.2.2.2.1, (hagree c).2.2.2.2.2.2.1, (hagree c).2.2.2.2.2.2.2.1, (hagree c).2.2.2.2.2.2.2.2]
    exact Cert.Bridge.result_eq _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
